-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8x2048x512 .f32) (main_arg1 : FVec F S512x512 .f32) (main_arg2 : FVec F S512 .f32) (main_arg3 : FVec F S512x512 .f32) (main_arg4 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S8x2048x512 : Shape := ⟨3, ![8, 2048, 512]⟩
abbrev S512x512 : Shape := ⟨2, ![512, 512]⟩
abbrev S512 : Shape := ⟨1, ![512]⟩
abbrev S16384x512 : Shape := ⟨2, ![16384, 512]⟩
abbrev S1x512 : Shape := ⟨2, ![1, 512]⟩
abbrev S1024x512 : Shape := ⟨2, ![1024, 512]⟩
abbrev S8x256x512 : Shape := ⟨3, ![8, 256, 512]⟩
abbrev S8x256x1 : Shape := ⟨3, ![8, 256, 1]⟩
abbrev S8x256x256 : Shape := ⟨3, ![8, 256, 256]⟩
abbrev S8x256 : Shape := ⟨2, ![8, 256]⟩

abbrev nBuf : Space → Nat
  | .hbm => 15
  | .vmem => 23
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S16384x512, .f32⟩
  | .hbm, ⟨6, _⟩ => ⟨S1x512, .f32⟩
  | .hbm, ⟨7, _⟩ => ⟨S1x512, .f32⟩
  | .hbm, ⟨8, _⟩ => ⟨S16384x512, .bf16⟩
  | .hbm, ⟨9, _⟩ => ⟨S16384x512, .bf16⟩
  | .hbm, ⟨10, _⟩ => ⟨S16384x512, .bf16⟩
  | .hbm, ⟨11, _⟩ => ⟨S8x2048x512, .bf16⟩
  | .hbm, ⟨12, _⟩ => ⟨S8x2048x512, .bf16⟩
  | .hbm, ⟨13, _⟩ => ⟨S8x2048x512, .bf16⟩
  | .hbm, ⟨14, _⟩ => ⟨S8x2048x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S8x256x512, .bf16⟩
  | .local _ .vmem, ⟨13, _⟩ => ⟨S8x256x512, .bf16⟩
  | .local _ .vmem, ⟨14, _⟩ => ⟨S8x256x512, .bf16⟩
  | .local _ .vmem, ⟨15, _⟩ => ⟨S8x256x512, .bf16⟩
  | .local _ .vmem, ⟨16, _⟩ => ⟨S8x256x512, .bf16⟩
  | .local _ .vmem, ⟨17, _⟩ => ⟨S8x256x512, .bf16⟩
  | .local _ .vmem, ⟨18, _⟩ => ⟨S8x256x512, .f32⟩
  | .local _ .vmem, ⟨19, _⟩ => ⟨S8x256x512, .f32⟩
  | .local _ .vmem, ⟨20, _⟩ => ⟨S8x256x1, .f32⟩
  | .local _ .vmem, ⟨21, _⟩ => ⟨S8x256x1, .f32⟩
  | .local _ .vmem, ⟨22, _⟩ => ⟨S8x256x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_33 : BitVec 32 := 0#32
  let v42 : BitVec 1 := Scalar.cmpi .ne v41 c0_i32_33
  v42

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S8x2048x512_S16384x512 : S8x2048x512.ShapeCasts S16384x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S16384x512_S8x2048x512 : S16384x512.ShapeCasts S8x2048x512
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  reduces_S8x256x256_S8x256 : S8x256x256.Reduces [2] S8x256
  shapeCasts_S8x256_S8x256x1 : S8x256.ShapeCasts S8x256x1
  broadcasts_S8x256x1_S8x256x256 : S8x256x1.Broadcasts S8x256x256
  broadcasts_S8x256x1_S8x256x512 : S8x256x1.Broadcasts S8x256x512
  dot_S1024x512_S512x512_S1024x512_1_1_0_0_n_n_wf : DotDims.WF S1024x512 S512x512 S1024x512 [1] [1] [0] [0] [] []
  dot_S8x256x512_S8x256x512_S8x256x256_2_2_1_1_0_0_wf : DotDims.WF S8x256x512 S8x256x512 S8x256x256 [2] [2] [1] [1] [0] [0]
  dot_S8x256x256_S8x256x512_S8x256x512_2_1_1_2_0_0_wf : DotDims.WF S8x256x256 S8x256x512 S8x256x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x512.size a
  hwx0_5 : ∀ i : grid0.Coords, EltTy.bits .bf16 = 32 ∨ (Rect.block (s := S16384x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .bf16 = 32 ∨ (Rect.block (s := S16384x512) S1024x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .bf16 = 32 ∨ (Rect.block (s := S16384x512) S1024x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x512.size a ≤ S8x2048x512.size a
  hwx1_0 : ∀ i : grid1.Coords, EltTy.bits .bf16 = 32 ∨ (Rect.block (s := S8x2048x512) S8x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x512.size a ≤ S8x2048x512.size a
  hwx1_1 : ∀ i : grid1.Coords, EltTy.bits .bf16 = 32 ∨ (Rect.block (s := S8x2048x512) S8x256x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x512.size a ≤ S8x2048x512.size a
  hwx1_2 : ∀ i : grid1.Coords, EltTy.bits .bf16 = 32 ∨ (Rect.block (s := S8x2048x512) S8x256x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x512.size a ≤ S8x2048x512.size a
  hwx1_3 : ∀ i : grid1.Coords, EltTy.bits .f32 = 32 ∨ (Rect.block (s := S8x2048x512) S8x256x512.size (cc1_transform_3 i) (hinb1_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S8x256x512_S8x256x512_S8x256x256_2_2_1_1_0_0 : DotDims S8x256x512 S8x256x512 S8x256x256 where
  lhsContracting := [2]
  rhsContracting := [2]
  lhsNonContracting := [1]
  rhsNonContracting := [1]
  lhsBatch := [0]
  rhsBatch := [0]
  wf := dot_S8x256x512_S8x256x512_S8x256x256_2_2_1_1_0_0_wf
def dot_S8x256x256_S8x256x512_S8x256x512_2_1_1_2_0_0 : DotDims S8x256x256 S8x256x512 S8x256x512 where
  lhsContracting := [2]
  rhsContracting := [1]
  lhsNonContracting := [1]
  rhsNonContracting := [2]
  lhsBatch := [0]
  rhsBatch := [0]
  wf := dot_S8x256x256_S8x256x512_S8x256x512_2_1_1_2_0_0_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_2) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S8x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S8x256x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8x256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S512x512 : Shape := ⟨2, ![512, 512]⟩
abbrev S512 : Shape := ⟨1, ![512]⟩
abbrev S1x1x512 : Shape := ⟨3, ![1, 1, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S8x2048x512, .f32⟩
  | .hbm, ⟨6, _⟩ => ⟨S1x1x512, .f32⟩
  | .hbm, ⟨7, _⟩ => ⟨S8x2048x512, .f32⟩
  | .hbm, ⟨8, _⟩ => ⟨S8x2048x512, .f32⟩
  | .hbm, ⟨9, _⟩ => ⟨S8x2048x512, .f32⟩
  | .hbm, ⟨10, _⟩ => ⟨S1x1x512, .f32⟩
  | .hbm, ⟨11, _⟩ => ⟨S8x2048x512, .f32⟩
  | .hbm, ⟨12, _⟩ => ⟨S8x2048x512, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S_, .f32⟩
  | .hbm, ⟨17, _⟩ => ⟨S8x2048, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.KernelR0.lean ====
import proofs.«120501_j7026566496400_2_alg».proof.Proof.Gen.Kernel.Launch
import proofs.«120501_j7026566496400_2_alg».proof.Proof.Gen.Kernel.Skeleton
import proofs.«120501_j7026566496400_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection kernel's pipeline (the first of the program's two kernel calls)

Over a grid of 16 row tiles of 1024 rows the kernel reads a tile `x` of the input and the whole of
two weight matrices and two bias rows, and writes three tiles: `x·Wqᵀ + bq`, `x·Wkᵀ + bk` and `x`
itself (each narrowed to bf16). This module gives, for any float instance and at any buffer
contents `V` found when the call is entered, the proof data of that pipeline — every window's block
at a point, what the body leaves in each output buffer as a function of the input blocks — and
shows that the body meets its obligation at every grid point. -/

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the block was
    fetched there or not (when it was not, the block index has not moved since the last fetch): for any proof data
    whose array is `V`'s and whose body leaves the block in place. Window 0 (the row tile). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (the first weight matrix, one constant block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Window 2 (the first bias row). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Window 3 (the second weight matrix). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Window 4 (the second bias row). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-! ## What the body leaves in each output window's buffer -/

/-- The first output's buffer after the body: its one store, of `x·Wqᵀ + bq` narrowed, over the whole buffer. -/
def out0_5 (x0 : Vec F S1024x512 .f32) (x1 : Vec F S512x512 .f32) (x2 : Vec F S1x512 .f32) : Vec F S1024x512 .bf16 :=
  View.canon [⟨rX, k0_pay2 (View.ld x0 rX) (View.ld x1 rW) (View.ld x2 rB)⟩]
/-- The second output's: `x·Wkᵀ + bk` narrowed. -/
def out0_6 (x0 : Vec F S1024x512 .f32) (x3 : Vec F S512x512 .f32) (x4 : Vec F S1x512 .f32) : Vec F S1024x512 .bf16 :=
  View.canon [⟨rX, k0_pay3 (View.ld x0 rX) (View.ld x3 rW) (View.ld x4 rB)⟩]
/-- The third output's: `x` narrowed. -/
def out0_7 (x0 : Vec F S1024x512 .f32) : Vec F S1024x512 .bf16 :=
  View.canon [⟨rX, k0_pay1 (View.ld x0 rX)⟩]

/-- One store over the whole buffer covers it. -/
theorem cover0 (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

/-! ## The body's triple -/

set_option maxHeartbeats 4000000 in
/-- The kernel body on whole staging memrefs — the five inputs' at contents `x0 … x4`, the three outputs' at
    anything — runs to the continuation holding the inputs' as they were and each output's at `out0_W` of the
    inputs'. The body also loads each output buffer just before storing it; what such a load returns is used
    nowhere. -/
theorem sound_kernel0 (c : Dev nD) (E : Set ℕ)
    (arg1 : Memref sig .tc .vmem S1024x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .bf16) (harg6 : arg6.IsWhole)
    (arg7 : Memref sig .tc .vmem S1024x512 .bf16) (harg7 : arg7.IsWhole) (arg8 : Memref sig .tc .vmem S1024x512 .bf16) (harg8 : arg8.IsWhole)
    (i : grid0.Coords)
    (x0 : Vec F S1024x512 .f32) (x1 : Vec F S512x512 .f32) (x2 : Vec F S1x512 .f32) (x3 : Vec F S512x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)
            ∗ owns (c : Thread nD τ) arg8 fullShare (out0_7 x0)) -∗ K ⟨⟩))
      ⊢ wp frame (wpE (defs₀ (F := F)) Variants.none c none) E (cc0_proj_kernel i arg1 harg1 arg2 harg2 arg3 harg3 arg4 harg4 arg5 harg5 arg6 harg6 arg7 harg7 arg8 harg8) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The proof data of the pipeline on core `c`: the arrays as the call finds them (`V`); after the body at point
    `t` each input's buffer still at its block and each output's at `out0_W` of the point's input blocks; as
    invariant the buffers the pipeline does not use and the generator register, untouched; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
    | ⟨7, _⟩ => out0_7 (iblk0 V c 0 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 3 t) (iblk0 V c 4 t) := by dsimp only [dat0]
theorem after0_7 (c : Dev nD) (t : Fin cfg0.N) : (dat0 V c).after 7 t = out0_7 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.KernelR1Runs.lean ====
/-
  The second kernel, one grid point at a time, in its three control cases.

  The grid is 8 query tiles by 8 key tiles, the key tile the fast axis. At the first key tile of a query tile the
  kernel resets its three carried buffers (running maximum, running denominator, running numerator) and then folds
  the tile in; at a middle key tile it only folds the tile in; at the last key tile it also divides the numerator by
  the denominator into the output block. Each case is the body's triple on whole buffers, the lists of stores each
  written buffer ends with being found by running the body.
-/
import proofs.«120501_j7026566496400_2_alg».proof.Proof.Gen.Kernel.Launch
import proofs.«120501_j7026566496400_2_alg».proof.Proof.Gen.Kernel.Skeleton
import proofs.«120501_j7026566496400_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first key tile": the reset branch's condition, from the grid coordinates. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- "This is the last key tile": the normalising branch's condition. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-! ## Where the output window is idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Off the last key tile the output window is idle and is not written back. -/
theorem idle_3 : ∀ t : Fin cfg1.N, ¬condLast (grid1.coords t) → cfg1.idle 3 (grid1.coords t) = true := by decide +kernel
theorem noFlush_3 : ∀ t : Fin cfg1.N, ¬condLast (grid1.coords t) → (cfg1.win 3).flush t = false := by decide +kernel
/-- At the last key tile it is live. -/
theorem live_3 : ∀ t : Fin cfg1.N, condLast (grid1.coords t) → cfg1.idle 3 (grid1.coords t) = false := by decide +kernel

/-! ## The body in each case -/

set_option maxHeartbeats 4000000 in
/-- FIRST key tile (reset, fold, no division): the three carried buffers, found at anything, end with the listed stores;
    the inputs and the output buffer are handed back as found. -/
noncomputable def runFirst (c : Dev nD) (i : grid1.Coords) (arg2 : Memref sig .tc .vmem S8x256x512 .bf16) (harg2 : arg2.IsWhole) (arg3 : Memref sig .tc .vmem S8x256x512 .bf16) (harg3 : arg3.IsWhole) (arg4 : Memref sig .tc .vmem S8x256x512 .bf16) (harg4 : arg4.IsWhole) (arg5 : Memref sig .tc .vmem S8x256x512 .f32) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x256x512 .f32) (harg8 : arg8.IsWhole) (hc0 : condFirst i) (hc1 : ¬condLast i)
    (x0 x1 x2 : Vec F S8x256x512 .bf16) :
    Σ' (LS0 : List (View.Piece (Elt F) S8x256x1 .f32)) (LS1 : List (View.Piece (Elt F) S8x256x1 .f32)), { LS2 : List (View.Piece (Elt F) S8x256x512 .f32) //
      ∀ (xi3 : Vec F S8x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_flash_kernel i arg2 harg2 arg3 harg3 arg4 harg4 arg5 harg5 arg6 harg6 arg7 harg7 arg8 harg8) K } := by
  refine ⟨?_, ?_, ?_, fun xi3 E K => ?run⟩
  case run =>
    simp only [cc1_flash_kernel_eq_skeleton]; unfold cc1_flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- A MIDDLE key tile (fold only): the carried buffers, found at the contents the point before left, end with the
    listed stores; the inputs and the output buffer are handed back as found. -/
noncomputable def runMid (c : Dev nD) (i : grid1.Coords) (arg2 : Memref sig .tc .vmem S8x256x512 .bf16) (harg2 : arg2.IsWhole) (arg3 : Memref sig .tc .vmem S8x256x512 .bf16) (harg3 : arg3.IsWhole) (arg4 : Memref sig .tc .vmem S8x256x512 .bf16) (harg4 : arg4.IsWhole) (arg5 : Memref sig .tc .vmem S8x256x512 .f32) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x256x512 .f32) (harg8 : arg8.IsWhole) (hc0 : ¬condFirst i) (hc1 : ¬condLast i)
    (x0 x1 x2 : Vec F S8x256x512 .bf16) (xs0 xs1 : Vec F S8x256x1 .f32) (xs2 : Vec F S8x256x512 .f32) :
    Σ' (LS0 : List (View.Piece (Elt F) S8x256x1 .f32)) (LS1 : List (View.Piece (Elt F) S8x256x1 .f32)), { LS2 : List (View.Piece (Elt F) S8x256x512 .f32) //
      ∀ (xi3 : Vec F S8x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_flash_kernel i arg2 harg2 arg3 harg3 arg4 harg4 arg5 harg5 arg6 harg6 arg7 harg7 arg8 harg8) K } := by
  refine ⟨?_, ?_, ?_, fun xi3 E K => ?run⟩
  case run =>
    simp only [cc1_flash_kernel_eq_skeleton]; unfold cc1_flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- The LAST key tile (fold, then divide into the output block): the output buffer, found at anything, and the carried
    buffers, found at the contents the point before left, end with the listed stores. -/
noncomputable def runLast (c : Dev nD) (i : grid1.Coords) (arg2 : Memref sig .tc .vmem S8x256x512 .bf16) (harg2 : arg2.IsWhole) (arg3 : Memref sig .tc .vmem S8x256x512 .bf16) (harg3 : arg3.IsWhole) (arg4 : Memref sig .tc .vmem S8x256x512 .bf16) (harg4 : arg4.IsWhole) (arg5 : Memref sig .tc .vmem S8x256x512 .f32) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x256x512 .f32) (harg8 : arg8.IsWhole) (hc0 : ¬condFirst i) (hc1 : condLast i)
    (x0 x1 x2 : Vec F S8x256x512 .bf16) (xs0 xs1 : Vec F S8x256x1 .f32) (xs2 : Vec F S8x256x512 .f32) :
    Σ' (L3 : List (View.Piece (Elt F) S8x256x512 .f32)) (LS0 : List (View.Piece (Elt F) S8x256x1 .f32)) (LS1 : List (View.Piece (Elt F) S8x256x1 .f32)), { LS2 : List (View.Piece (Elt F) S8x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_flash_kernel i arg2 harg2 arg3 harg3 arg4 harg4 arg5 harg5 arg6 harg6 arg7 harg7 arg8 harg8) K } := by
  refine ⟨?_, ?_, ?_, ?_, fun E K => ?run⟩
  case run =>
    simp only [cc1_flash_kernel_eq_skeleton]; unfold cc1_flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.R1

end
-- ==== Proof.KernelR1.lean ====
/-
  The second kernel over its whole grid: what its three carried buffers and its output buffer hold after every grid
  point, by recursion on the point (the first key tile of a query tile starts afresh, every later one folds into what
  the point before left, the last one also writes the output block); the region's invariant, which keeps the carried
  buffers at exactly those contents between points; the proof data; and the body obligation at every point.
  Stated at a parameter V: the buffers' contents when the region is entered.
-/
import proofs.«120501_j7026566496400_2_alg».proof.Proof.KernelR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Names for the buffers -/

/-- The three carried buffers (running maximum, running denominator, running numerator), whole. -/
abbrev scM0 : Memref sig .tc .vmem S8x256x1 .f32 := Memref.whole cc1_scratch0
abbrev scM1 : Memref sig .tc .vmem S8x256x1 .f32 := Memref.whole cc1_scratch1
abbrev scM2 : Memref sig .tc .vmem S8x256x512 .f32 := Memref.whole cc1_scratch2
abbrev VS0 : View sig .tc .vmem S8x256x1 .f32 := scM0.view
abbrev VS1 : View sig .tc .vmem S8x256x1 .f32 := scM1.view
abbrev VS2 : View sig .tc .vmem S8x256x512 .f32 := scM2.view
/-- One staging buffer of the output window, through which its contents are stated. -/
abbrev VO3 : View sig .tc .vmem S8x256x512 .f32 := (Memref.whole cc1_stg3_0 : Memref sig .tc .vmem S8x256x512 .f32).view
/-- Each window's current staging buffer at a point. -/
abbrev ms_0 (t : Fin cfg1.N) : Memref sig .tc .vmem S8x256x512 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S8x256x512 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8x256x512 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S8x256x512 .f32 := win1_3.stage (cfg1.slots t 3)
abbrev hs_3 (t : Fin cfg1.N) : (ms_3 t).IsWhole := hstage1_3 ((cfg1.slots t 3).cast nbuf1_3)

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Each case's stores cover the buffer they go to -/

section Covers
variable (c : Dev nD) (i : grid1.Coords) (arg2 : Memref sig .tc .vmem S8x256x512 .bf16) (harg2 : arg2.IsWhole) (arg3 : Memref sig .tc .vmem S8x256x512 .bf16) (harg3 : arg3.IsWhole) (arg4 : Memref sig .tc .vmem S8x256x512 .bf16) (harg4 : arg4.IsWhole) (arg5 : Memref sig .tc .vmem S8x256x512 .f32) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x256x512 .f32) (harg8 : arg8.IsWhole)
  (x0 x1 x2 : Vec F S8x256x512 .bf16) (xs0 xs1 : Vec F S8x256x1 .f32) (xs2 : Vec F S8x256x512 .f32)

theorem coverFirst0 (hc0 : condFirst i) (hc1 : ¬condLast i) (y : S8x256x1.Idx) :
    ∃ pc ∈ (runFirst c i arg2 harg2 arg3 harg3 arg4 harg4 arg5 harg5 arg6 harg6 arg7 harg7 arg8 harg8 hc0 hc1 x0 x1 x2).1, y ∈ pc.1.set :=
  View.cover_of_tiledL (runFirst c i arg2 harg2 arg3 harg3 arg4 harg4 arg5 harg5 arg6 harg6 arg7 harg7 arg8 harg8 hc0 hc1 x0 x1 x2).1 S8x256x1.size (by sl_kernel_rfl) y
theorem coverFirst1 (hc0 : condFirst i) (hc1 : ¬condLast i) (y : S8x256x1.Idx) :
    ∃ pc ∈ (runFirst c i arg2 harg2 arg3 harg3 arg4 harg4 arg5 harg5 arg6 harg6 arg7 harg7 arg8 harg8 hc0 hc1 x0 x1 x2).2.1, y ∈ pc.1.set :=
  View.cover_of_tiledL (runFirst c i arg2 harg2 arg3 harg3 arg4 harg4 arg5 harg5 arg6 harg6 arg7 harg7 arg8 harg8 hc0 hc1 x0 x1 x2).2.1 S8x256x1.size (by sl_kernel_rfl) y
theorem coverFirst2 (hc0 : condFirst i) (hc1 : ¬condLast i) (y : S8x256x512.Idx) :
    ∃ pc ∈ (runFirst c i arg2 harg2 arg3 harg3 arg4 harg4 arg5 harg5 arg6 harg6 arg7 harg7 arg8 harg8 hc0 hc1 x0 x1 x2).2.2.1, y ∈ pc.1.set :=
  View.cover_of_tiledL (runFirst c i arg2 harg2 arg3 harg3 arg4 harg4 arg5 harg5 arg6 harg6 arg7 harg7 arg8 harg8 hc0 hc1 x0 x1 x2).2.2.1 S8x256x512.size (by sl_kernel_rfl) y

theorem coverMid0 (hc0 : ¬condFirst i) (hc1 : ¬condLast i) (y : S8x256x1.Idx) :
    ∃ pc ∈ (runMid c i arg2 harg2 arg3 harg3 arg4 harg4 arg5 harg5 arg6 harg6 arg7 harg7 arg8 harg8 hc0 hc1 x0 x1 x2 xs0 xs1 xs2).1, y ∈ pc.1.set :=
  View.cover_of_tiledL (runMid c i arg2 harg2 arg3 harg3 arg4 harg4 arg5 harg5 arg6 harg6 arg7 harg7 arg8 harg8 hc0 hc1 x0 x1 x2 xs0 xs1 xs2).1 S8x256x1.size (by sl_kernel_rfl) y
theorem coverMid1 (hc0 : ¬condFirst i) (hc1 : ¬condLast i) (y : S8x256x1.Idx) :
    ∃ pc ∈ (runMid c i arg2 harg2 arg3 harg3 arg4 harg4 arg5 harg5 arg6 harg6 arg7 harg7 arg8 harg8 hc0 hc1 x0 x1 x2 xs0 xs1 xs2).2.1, y ∈ pc.1.set :=
  View.cover_of_tiledL (runMid c i arg2 harg2 arg3 harg3 arg4 harg4 arg5 harg5 arg6 harg6 arg7 harg7 arg8 harg8 hc0 hc1 x0 x1 x2 xs0 xs1 xs2).2.1 S8x256x1.size (by sl_kernel_rfl) y
theorem coverMid2 (hc0 : ¬condFirst i) (hc1 : ¬condLast i) (y : S8x256x512.Idx) :
    ∃ pc ∈ (runMid c i arg2 harg2 arg3 harg3 arg4 harg4 arg5 harg5 arg6 harg6 arg7 harg7 arg8 harg8 hc0 hc1 x0 x1 x2 xs0 xs1 xs2).2.2.1, y ∈ pc.1.set :=
  View.cover_of_tiledL (runMid c i arg2 harg2 arg3 harg3 arg4 harg4 arg5 harg5 arg6 harg6 arg7 harg7 arg8 harg8 hc0 hc1 x0 x1 x2 xs0 xs1 xs2).2.2.1 S8x256x512.size (by sl_kernel_rfl) y

theorem coverLast3 (hc0 : ¬condFirst i) (hc1 : condLast i) (y : S8x256x512.Idx) :
    ∃ pc ∈ (runLast c i arg2 harg2 arg3 harg3 arg4 harg4 arg5 harg5 arg6 harg6 arg7 harg7 arg8 harg8 hc0 hc1 x0 x1 x2 xs0 xs1 xs2).1, y ∈ pc.1.set :=
  View.cover_of_tiledL (runLast c i arg2 harg2 arg3 harg3 arg4 harg4 arg5 harg5 arg6 harg6 arg7 harg7 arg8 harg8 hc0 hc1 x0 x1 x2 xs0 xs1 xs2).1 S8x256x512.size (by sl_kernel_rfl) y
theorem coverLast0 (hc0 : ¬condFirst i) (hc1 : condLast i) (y : S8x256x1.Idx) :
    ∃ pc ∈ (runLast c i arg2 harg2 arg3 harg3 arg4 harg4 arg5 harg5 arg6 harg6 arg7 harg7 arg8 harg8 hc0 hc1 x0 x1 x2 xs0 xs1 xs2).2.1, y ∈ pc.1.set :=
  View.cover_of_tiledL (runLast c i arg2 harg2 arg3 harg3 arg4 harg4 arg5 harg5 arg6 harg6 arg7 harg7 arg8 harg8 hc0 hc1 x0 x1 x2 xs0 xs1 xs2).2.1 S8x256x1.size (by sl_kernel_rfl) y
theorem coverLast1 (hc0 : ¬condFirst i) (hc1 : condLast i) (y : S8x256x1.Idx) :
    ∃ pc ∈ (runLast c i arg2 harg2 arg3 harg3 arg4 harg4 arg5 harg5 arg6 harg6 arg7 harg7 arg8 harg8 hc0 hc1 x0 x1 x2 xs0 xs1 xs2).2.2.1, y ∈ pc.1.set :=
  View.cover_of_tiledL (runLast c i arg2 harg2 arg3 harg3 arg4 harg4 arg5 harg5 arg6 harg6 arg7 harg7 arg8 harg8 hc0 hc1 x0 x1 x2 xs0 xs1 xs2).2.2.1 S8x256x1.size (by sl_kernel_rfl) y
theorem coverLast2 (hc0 : ¬condFirst i) (hc1 : condLast i) (y : S8x256x512.Idx) :
    ∃ pc ∈ (runLast c i arg2 harg2 arg3 harg3 arg4 harg4 arg5 harg5 arg6 harg6 arg7 harg7 arg8 harg8 hc0 hc1 x0 x1 x2 xs0 xs1 xs2).2.2.2.1, y ∈ pc.1.set :=
  View.cover_of_tiledL (runLast c i arg2 harg2 arg3 harg3 arg4 harg4 arg5 harg5 arg6 harg6 arg7 harg7 arg8 harg8 hc0 hc1 x0 x1 x2 xs0 xs1 xs2).2.2.2.1 S8x256x512.size (by sl_kernel_rfl) y

/-! ## What each case leaves: its stores read back -/

/-- The contents after a point: output buffer, running maximum, running denominator, running numerator. -/
abbrev PtSt (F : FTy → Type) : Type := Vec F S8x256x512 .f32 × Vec F S8x256x1 .f32 × Vec F S8x256x1 .f32 × Vec F S8x256x512 .f32

def afterFirst (hc0 : condFirst i) (hc1 : ¬condLast i) (xo : Vec F S8x256x512 .f32) : PtSt F :=
  (xo,
   VS0.read (Elt F) (VS0.writes (Elt F) VS0.junk (runFirst c i arg2 harg2 arg3 harg3 arg4 harg4 arg5 harg5 arg6 harg6 arg7 harg7 arg8 harg8 hc0 hc1 x0 x1 x2).1),
   VS1.read (Elt F) (VS1.writes (Elt F) VS1.junk (runFirst c i arg2 harg2 arg3 harg3 arg4 harg4 arg5 harg5 arg6 harg6 arg7 harg7 arg8 harg8 hc0 hc1 x0 x1 x2).2.1),
   VS2.read (Elt F) (VS2.writes (Elt F) VS2.junk (runFirst c i arg2 harg2 arg3 harg3 arg4 harg4 arg5 harg5 arg6 harg6 arg7 harg7 arg8 harg8 hc0 hc1 x0 x1 x2).2.2.1))

def afterMid (hc0 : ¬condFirst i) (hc1 : ¬condLast i) (xo : Vec F S8x256x512 .f32) : PtSt F :=
  (xo,
   VS0.read (Elt F) (VS0.writes (Elt F) VS0.junk (runMid c i arg2 harg2 arg3 harg3 arg4 harg4 arg5 harg5 arg6 harg6 arg7 harg7 arg8 harg8 hc0 hc1 x0 x1 x2 xs0 xs1 xs2).1),
   VS1.read (Elt F) (VS1.writes (Elt F) VS1.junk (runMid c i arg2 harg2 arg3 harg3 arg4 harg4 arg5 harg5 arg6 harg6 arg7 harg7 arg8 harg8 hc0 hc1 x0 x1 x2 xs0 xs1 xs2).2.1),
   VS2.read (Elt F) (VS2.writes (Elt F) VS2.junk (runMid c i arg2 harg2 arg3 harg3 arg4 harg4 arg5 harg5 arg6 harg6 arg7 harg7 arg8 harg8 hc0 hc1 x0 x1 x2 xs0 xs1 xs2).2.2.1))

def afterLast (hc0 : ¬condFirst i) (hc1 : condLast i) : PtSt F :=
  (VO3.read (Elt F) (VO3.writes (Elt F) VO3.junk (runLast c i arg2 harg2 arg3 harg3 arg4 harg4 arg5 harg5 arg6 harg6 arg7 harg7 arg8 harg8 hc0 hc1 x0 x1 x2 xs0 xs1 xs2).1),
   VS0.read (Elt F) (VS0.writes (Elt F) VS0.junk (runLast c i arg2 harg2 arg3 harg3 arg4 harg4 arg5 harg5 arg6 harg6 arg7 harg7 arg8 harg8 hc0 hc1 x0 x1 x2 xs0 xs1 xs2).2.1),
   VS1.read (Elt F) (VS1.writes (Elt F) VS1.junk (runLast c i arg2 harg2 arg3 harg3 arg4 harg4 arg5 harg5 arg6 harg6 arg7 harg7 arg8 harg8 hc0 hc1 x0 x1 x2 xs0 xs1 xs2).2.2.1),
   VS2.read (Elt F) (VS2.writes (Elt F) VS2.junk (runLast c i arg2 harg2 arg3 harg3 arg4 harg4 arg5 harg5 arg6 harg6 arg7 harg7 arg8 harg8 hc0 hc1 x0 x1 x2 xs0 xs1 xs2).2.2.2.1))

end Covers

/-! ## The contents after every point -/

/-- Contents nobody reads: what stands for "before the first point". -/
def junkSt : PtSt F := (VO3.read (Elt F) VO3.junk, VS0.read (Elt F) VS0.junk, VS1.read (Elt F) VS1.junk, VS2.read (Elt F) VS2.junk)

/-- One point: the case its position selects, run on the point's buffers and input blocks, over what the point before left. -/
def stepAt (c : Dev nD) (t : Fin cfg1.N) (prev : PtSt F) : PtSt F :=
  if h0 : t.val % 8 = 0 then
    afterFirst c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _)
      (iblk1 V c 0 t) (iblk1 V c 1 t) (iblk1 V c 2 t) ((hcondFirst t).mpr h0) (fun h => by have := (hcondLast t).mp h; omega) prev.1
  else if h7 : t.val % 8 = 7 then
    afterLast c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _)
      (iblk1 V c 0 t) (iblk1 V c 1 t) (iblk1 V c 2 t) prev.2.1 prev.2.2.1 prev.2.2.2 (fun h => h0 ((hcondFirst t).mp h)) ((hcondLast t).mpr h7)
  else
    afterMid c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _)
      (iblk1 V c 0 t) (iblk1 V c 1 t) (iblk1 V c 2 t) prev.2.1 prev.2.2.1 prev.2.2.2 (fun h => h0 ((hcondFirst t).mp h)) (fun h => h7 ((hcondLast t).mp h)) prev.1

/-- THE ACCUMULATION: the contents after the point at position n. -/
def outsAt (c : Dev nD) : (n : ℕ) → n < cfg1.N → PtSt F
  | 0, hn => stepAt V c ⟨0, hn⟩ junkSt
  | n + 1, hn => stepAt V c ⟨n + 1, hn⟩ (outsAt c n (Nat.lt_of_succ_lt hn))

theorem outsAt_succ (c : Dev nD) (n : ℕ) (hn : n + 1 < cfg1.N) :
    outsAt V c (n + 1) hn = stepAt V c ⟨n + 1, hn⟩ (outsAt V c n (Nat.lt_of_succ_lt hn)) := rfl

/-- At any point after the first: one step over the point before. -/
theorem outsAt_pos (c : Dev nD) (t : Fin cfg1.N) (hz : t.val ≠ 0) :
    outsAt V c t.val t.isLt = stepAt V c t (outsAt V c (t.val - 1) (Nat.lt_of_le_of_lt (Nat.sub_le _ _) t.isLt)) := by
  obtain ⟨n, hn⟩ := t
  cases n with
  | zero => exact absurd rfl hz
  | succ n => rfl

theorem outsAt_zero (c : Dev nD) (t : Fin cfg1.N) (hz : t.val = 0) :
    outsAt V c t.val t.isLt = stepAt V c t junkSt := by
  obtain ⟨n, hn⟩ := t
  cases n with
  | zero => rfl
  | succ n => exact absurd hz (Nat.succ_ne_zero _)

/-! ## The region's invariant -/

/-- The first kernel's staging buffers (this kernel never touches them) and the generator register: what rides along. -/
def rest (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)) ∗ (∃ r, prngReg c r))

/-- The scoped buffers no window of this kernel stages, with the carried three described by S. -/
def heldAt (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ S) ∗ (∃ r, prngReg c r))

theorem heldAt_out (c : Dev nD) (S : sProp 𝕄) : heldAt c S ⊢ iprop(S ∗ rest (F := F) c) := by
  unfold heldAt rest
  iintro ⟨⟨E0, E1, E2, E3, E4, E5, E6, E7, E8, E9, E10, E11, HS⟩, Hg⟩
  isplitl [HS]; · iexact HS
  isplitr [Hg]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    iexact E11
  iexact Hg

theorem heldAt_in (c : Dev nD) (S : sProp 𝕄) : iprop(S ∗ rest (F := F) c) ⊢ heldAt c S := by
  unfold heldAt rest
  iintro ⟨HS, ⟨E0, E1, E2, E3, E4, E5, E6, E7, E8, E9, E10, E11⟩, Hg⟩
  isplitr [Hg]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    isplitl [E11]; · iexact E11
    iexact HS
  iexact Hg

/-- What the launch hands the region: the carried buffers at anything. -/
theorem PhiA_eq (c : Dev nD) :
    (Pipeline.ΦA spec1 c : sProp 𝕄)
      = heldAt c iprop((∃ d, owns (c : Thread nD τ) scM0 fullShare d) ∗ (∃ d, owns (c : Thread nD τ) scM1 fullShare d) ∗ (∃ d, owns (c : Thread nD τ) scM2 fullShare d)) := by
  unfold Pipeline.ΦA heldAt; rw [scopedRest1_eq]; simp only [scM0, scM1, scM2, owns_whole]; try rfl

/-- The invariant before position n: before the first point the carried buffers at anything; afterwards each at what the
    point before left in it. -/
def PhiS (c : Dev nD) : (n : ℕ) → n ≤ cfg1.N → sProp 𝕄
  | 0, _ => Pipeline.ΦA spec1 c
  | n + 1, hn => heldAt c iprop(owns (c : Thread nD τ) scM0 fullShare (outsAt V c n hn).2.1 ∗ owns (c : Thread nD τ) scM1 fullShare (outsAt V c n hn).2.2.1 ∗ owns (c : Thread nD τ) scM2 fullShare (outsAt V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = heldAt c iprop(owns (c : Thread nD τ) scM0 fullShare (outsAt V c n hn).2.1 ∗ owns (c : Thread nD τ) scM1 fullShare (outsAt V c n hn).2.2.1 ∗ owns (c : Thread nD τ) scM2 fullShare (outsAt V c n hn).2.2.2) := rfl

theorem PhiS_pos (c : Dev nD) (n : ℕ) (h : n ≤ cfg1.N) (hz : n ≠ 0) :
    PhiS V c n h = heldAt c iprop(owns (c : Thread nD τ) scM0 fullShare (outsAt V c (n - 1) (by omega)).2.1 ∗ owns (c : Thread nD τ) scM1 fullShare (outsAt V c (n - 1) (by omega)).2.2.1 ∗ owns (c : Thread nD τ) scM2 fullShare (outsAt V c (n - 1) (by omega)).2.2.2) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt V c t.val t.isLt).1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

/-- What the body is called with at point t, the windows one by one, -/
def bodyPre (c : Dev nD) (t : Fin cfg1.N) : sProp 𝕄 :=
  iprop((dat1 V c).Φ t.castSucc ∗ (dat1 V c).owesAt () t.castSucc
    ∗ (∃ d, owns (c : Thread nD τ) (ms_0 t) fullShare ((dat1 V c).before 0 t d))
    ∗ (∃ d, owns (c : Thread nD τ) (ms_1 t) fullShare ((dat1 V c).before 1 t d))
    ∗ (∃ d, owns (c : Thread nD τ) (ms_2 t) fullShare ((dat1 V c).before 2 t d))
    ∗ (∃ d, owns (c : Thread nD τ) (ms_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- Whatever the invariant says of the carried buffers, they are held at SOME contents. -/
theorem PhiS_any (c : Dev nD) (n : ℕ) (h : n ≤ cfg1.N) :
    PhiS V c n h ⊢ heldAt c iprop((∃ d, owns (c : Thread nD τ) scM0 fullShare d) ∗ (∃ d, owns (c : Thread nD τ) scM1 fullShare d) ∗ (∃ d, owns (c : Thread nD τ) scM2 fullShare d)) := by
  cases n with
  | zero => rw [PhiS_zero V c 0 h rfl, PhiA_eq]
  | succ n =>
    rw [PhiS_succ]
    have hmid : (iprop(iprop(owns (c : Thread nD τ) scM0 fullShare (outsAt V c n h).2.1 ∗ owns (c : Thread nD τ) scM1 fullShare (outsAt V c n h).2.2.1 ∗ owns (c : Thread nD τ) scM2 fullShare (outsAt V c n h).2.2.2) ∗ rest (F := F) c) : sProp 𝕄)
        ⊢ iprop(iprop((∃ d, owns (c : Thread nD τ) scM0 fullShare d) ∗ (∃ d, owns (c : Thread nD τ) scM1 fullShare d) ∗ (∃ d, owns (c : Thread nD τ) scM2 fullShare d)) ∗ rest (F := F) c) := by
      iintro ⟨⟨HS0, HS1, HS2⟩, Hrest⟩
      isplitl [HS0 HS1 HS2]
      · isplitl [HS0]; · iexists _; iexact HS0
        isplitl [HS1]; · iexists _; iexact HS1
        iexists _; iexact HS2
      iexact Hrest
    exact (heldAt_out c _).trans (hmid.trans (heldAt_in c _))

set_option maxHeartbeats 4800000 in
/-- The body at any point: the position selects the case; the invariant hands the body the carried buffers at what
    the point before left (at anything on a first key tile) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms_0 t) fullShare ((dat1 V c).after 0 t) from by
    unfold Dat.leavesExact; rw [live_0 t], after1_0]
  rw [show (dat1 V c).leavesExact 1 t = owns (c : Thread nD τ) (ms_1 t) fullShare ((dat1 V c).after 1 t) from by
    unfold Dat.leavesExact; rw [live_1 t], after1_1]
  rw [show (dat1 V c).leavesExact 2 t = owns (c : Thread nD τ) (ms_2 t) fullShare ((dat1 V c).after 2 t) from by
    unfold Dat.leavesExact; rw [live_2 t], after1_2]
  by_cases h0 : t.val % 8 = 0
  · have hcF : condFirst (grid1.coords t) := (hcondFirst t).mpr h0
    have hcL : ¬condLast (grid1.coords t) := fun h => by have := (hcondLast t).mp h; omega
    rw [Dat.leavesExact_idle (dat1 V c) 3 t (idle_3 t hcL) (noFlush_3 t hcL)]
    obtain ⟨prev, hprev⟩ : ∃ prev, outsAt V c t.val t.isLt = stepAt V c t prev := by
      by_cases hz : t.val = 0
      · exact ⟨_, outsAt_zero V c t hz⟩
      · exact ⟨_, outsAt_pos V c t hz⟩
    rw [hprev]; unfold stepAt; rw [dif_pos h0]; unfold afterFirst; dsimp only
    rw [PhiS_castSucc V c t]
    iintro ⟨HΦ, Ho, ⟨%d0, H0⟩, ⟨%d1, H1⟩, ⟨%d2, H2⟩, ⟨%d3, H3⟩⟩
    ihave HΦa := (PhiS_any V c t.val (Nat.le_of_lt t.isLt)) $$ HΦ
    ihave HΦ' := (heldAt_out c _) $$ HΦa
    icases HΦ' with ⟨⟨HS0, HS1, HS2⟩, Hrest⟩
    iapply ((runFirst c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hcF hcL (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 Hrest]
    · iapply (heldAt_in c _)
      isplitl [HS0 HS1 HS2]
      · isplitl [HS0]
        · unfold owns; iexists _; isplitr
          swap; · iexact HS0
          ipureintro; exact View.read_writes_of_cover _ _ _ _ _ (coverFirst0 c _ _ _ _ _ _ _ _ _ _ _ _ _ _ _ _ _ _ _ _)
        isplitl [HS1]
        · unfold owns; iexists _; isplitr
          swap; · iexact HS1
          ipureintro; exact View.read_writes_of_cover _ _ _ _ _ (coverFirst1 c _ _ _ _ _ _ _ _ _ _ _ _ _ _ _ _ _ _ _ _)
        unfold owns; iexists _; isplitr
        swap; · iexact HS2
        ipureintro; exact View.read_writes_of_cover _ _ _ _ _ (coverFirst2 c _ _ _ _ _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · have hz : t.val ≠ 0 := fun h => h0 (by rw [h])
    have hcF : ¬condFirst (grid1.coords t) := fun h => h0 ((hcondFirst t).mp h)
    rw [outsAt_pos V c t hz]; unfold stepAt; rw [dif_neg h0]
    rw [PhiS_castSucc V c t, PhiS_pos V c _ _ hz]
    by_cases h7 : t.val % 8 = 7
    · have hcL : condLast (grid1.coords t) := (hcondLast t).mpr h7
      rw [show (dat1 V c).leavesExact 3 t = owns (c : Thread nD τ) (ms_3 t) fullShare ((dat1 V c).after 3 t) from by
        unfold Dat.leavesExact; rw [live_3 t hcL], after1_3]
      rw [outsAt_pos V c t hz]; unfold stepAt; rw [dif_neg h0, dif_pos h7]; unfold afterLast; dsimp only
      iintro ⟨HΦ, Ho, ⟨%d0, H0⟩, ⟨%d1, H1⟩, ⟨%d2, H2⟩, ⟨%d3, H3⟩⟩
      ihave HΦ' := (heldAt_out c _) $$ HΦ
      icases HΦ' with ⟨⟨HS0, HS1, HS2⟩, Hrest⟩
      iapply ((runLast c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hcF hcL (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrest]
      · iapply (heldAt_in c _)
        isplitl [HS0 HS1 HS2]
        · isplitl [HS0]
          · unfold owns; iexists _; isplitr
            swap; · iexact HS0
            ipureintro; exact View.read_writes_of_cover _ _ _ _ _ (coverLast0 c _ _ _ _ _ _ _ _ _ _ _ _ _ _ _ _ _ _ _ _ _ _ _)
          isplitl [HS1]
          · unfold owns; iexists _; isplitr
            swap; · iexact HS1
            ipureintro; exact View.read_writes_of_cover _ _ _ _ _ (coverLast1 c _ _ _ _ _ _ _ _ _ _ _ _ _ _ _ _ _ _ _ _ _ _ _)
          unfold owns; iexists _; isplitr
          swap; · iexact HS2
          ipureintro; exact View.read_writes_of_cover _ _ _ _ _ (coverLast2 c _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast3 c _ _ _ _ _ _ _ _ _ _ _ _ _ _ _ _ _ _ _ _ _ _ _)
    · have hcL : ¬condLast (grid1.coords t) := fun h => h7 ((hcondLast t).mp h)
      rw [Dat.leavesExact_idle (dat1 V c) 3 t (idle_3 t hcL) (noFlush_3 t hcL)]
      rw [dif_neg h7]; unfold afterMid; dsimp only
      iintro ⟨HΦ, Ho, ⟨%d0, H0⟩, ⟨%d1, H1⟩, ⟨%d2, H2⟩, ⟨%d3, H3⟩⟩
      ihave HΦ' := (heldAt_out c _) $$ HΦ
      icases HΦ' with ⟨⟨HS0, HS1, HS2⟩, Hrest⟩
      iapply ((runMid c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hcF hcL (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest]
      · iapply (heldAt_in c _)
        isplitl [HS0 HS1 HS2]
        · isplitl [HS0]
          · unfold owns; iexists _; isplitr
            swap; · iexact HS0
            ipureintro; exact View.read_writes_of_cover _ _ _ _ _ (coverMid0 c _ _ _ _ _ _ _ _ _ _ _ _ _ _ _ _ _ _ _ _ _ _ _)
          isplitl [HS1]
          · unfold owns; iexists _; isplitr
            swap; · iexact HS1
            ipureintro; exact View.read_writes_of_cover _ _ _ _ _ (coverMid1 c _ _ _ _ _ _ _ _ _ _ _ _ _ _ _ _ _ _ _ _ _ _ _)
          unfold owns; iexists _; isplitr
          swap; · iexact HS2
          ipureintro; exact View.read_writes_of_cover _ _ _ _ _ (coverMid2 c _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the carried buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA_eq]
  exact PhiS_any V c _ _

end Cert.Kernel.R1

end
-- ==== Proof.KernelRun.lean ====
/-
  The whole program's run, at any float instance: @main is three reshapes, the projection kernel, three reshapes, the
  attention kernel. The buffers' contents are followed from the launch through each of the four stretches; each
  kernel region is entered with its arrays split out of the buffers and left with them put back at what its
  write-backs leave. Every weakly fair execution terminates, and the final memory holds every unscoped buffer at the
  last of these contents: the arguments as launched, the result at what the attention kernel's write-backs leave.
-/
import proofs.«120501_j7026566496400_2_alg».proof.Proof.KernelR0
import proofs.«120501_j7026566496400_2_alg».proof.Proof.KernelR1

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first three reshapes (the projection kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection kernel's exit: its arrays at what its write-backs leave, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second three reshapes (the attention kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention kernel's exit. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments reach the end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((R0.dat0 (V1 m ρ) c).arrAt_in 1 rfl _).trans (R0.A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((R0.dat0 (V1 m ρ) c).arrAt_in 3 rfl _).trans (R0.A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
/-- Region 0 over the thread state: entered from every unscoped buffer at its entry contents, left at its exit contents.
    Its arrays are split out of the unscoped buffers and put back at what the write-backs leave; the generator register
    goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit contents.
    Its arrays are split out of the unscoped buffers and put back at what the write-backs leave; the generator register
    goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (R1.hout1 (V3 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run read at the result and at the arguments: the result holds what the attention kernel's write-backs leave in its
    output array; each argument is as launched. -/
theorem run_result : θ_run defs (onTc (τ := τ) (main (F := F))) ⟨m, fun _ => 0, ρ⟩ (fun r => ∀ c : Dev nD,
      r.2.mem ((c.tc : Thread nD τ).loc main_v7) = (R1.dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v7 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Run

end
-- ==== Proof.KernelIdealR0.lean ====
import proofs.«120501_j7026566496400_2_alg».proof.Proof.Gen.KernelIdeal.Launch
import proofs.«120501_j7026566496400_2_alg».proof.Proof.Gen.KernelIdeal.Skeleton
import proofs.«120501_j7026566496400_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection kernel's pipeline (the first of the program's two kernel calls)

Over a grid of 16 row tiles of 1024 rows the kernel reads a tile `x` of the input and the whole of
two weight matrices and two bias rows, and writes three tiles: `x·Wqᵀ + bq`, `x·Wkᵀ + bk` and `x`
itself (each narrowed to bf16). This module gives, for any float instance and at any buffer
contents `V` found when the call is entered, the proof data of that pipeline — every window's block
at a point, what the body leaves in each output buffer as a function of the input blocks — and
shows that the body meets its obligation at every grid point. -/

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the block was
    fetched there or not (when it was not, the block index has not moved since the last fetch): for any proof data
    whose array is `V`'s and whose body leaves the block in place. Window 0 (the row tile). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (the first weight matrix, one constant block). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Window 2 (the first bias row). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Window 3 (the second weight matrix). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Window 4 (the second bias row). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-! ## What the body leaves in each output window's buffer -/

/-- The first output's buffer after the body: its one store, of `x·Wqᵀ + bq` narrowed, over the whole buffer. -/
def out0_5 (x0 : Vec F S1024x512 .f32) (x1 : Vec F S512x512 .f32) (x2 : Vec F S1x512 .f32) : Vec F S1024x512 .bf16 :=
  View.canon [⟨rX, k0_pay2 (View.ld x0 rX) (View.ld x1 rW) (View.ld x2 rB)⟩]
/-- The second output's: `x·Wkᵀ + bk` narrowed. -/
def out0_6 (x0 : Vec F S1024x512 .f32) (x3 : Vec F S512x512 .f32) (x4 : Vec F S1x512 .f32) : Vec F S1024x512 .bf16 :=
  View.canon [⟨rX, k0_pay3 (View.ld x0 rX) (View.ld x3 rW) (View.ld x4 rB)⟩]
/-- The third output's: `x` narrowed. -/
def out0_7 (x0 : Vec F S1024x512 .f32) : Vec F S1024x512 .bf16 :=
  View.canon [⟨rX, k0_pay1 (View.ld x0 rX)⟩]

/-- One store over the whole buffer covers it. -/
theorem cover0 (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

/-! ## The body's triple -/

set_option maxHeartbeats 4000000 in
/-- The kernel body on whole staging memrefs — the five inputs' at contents `x0 … x4`, the three outputs' at
    anything — runs to the continuation holding the inputs' as they were and each output's at `out0_W` of the
    inputs'. The body also loads each output buffer just before storing it; what such a load returns is used
    nowhere. -/
theorem sound_kernel0 (c : Dev nD) (E : Set ℕ)
    (arg1 : Memref sig .tc .vmem S1024x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .bf16) (harg6 : arg6.IsWhole)
    (arg7 : Memref sig .tc .vmem S1024x512 .bf16) (harg7 : arg7.IsWhole) (arg8 : Memref sig .tc .vmem S1024x512 .bf16) (harg8 : arg8.IsWhole)
    (i : grid0.Coords)
    (x0 : Vec F S1024x512 .f32) (x1 : Vec F S512x512 .f32) (x2 : Vec F S1x512 .f32) (x3 : Vec F S512x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)
            ∗ owns (c : Thread nD τ) arg8 fullShare (out0_7 x0)) -∗ K ⟨⟩))
      ⊢ wp frame (wpE (defs₀ (F := F)) Variants.none c none) E (cc0_proj_kernel i arg1 harg1 arg2 harg2 arg3 harg3 arg4 harg4 arg5 harg5 arg6 harg6 arg7 harg7 arg8 harg8) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The proof data of the pipeline on core `c`: the arrays as the call finds them (`V`); after the body at point
    `t` each input's buffer still at its block and each output's at `out0_W` of the point's input blocks; as
    invariant the buffers the pipeline does not use and the generator register, untouched; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
    | ⟨7, _⟩ => out0_7 (iblk0 V c 0 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 3 t) (iblk0 V c 4 t) := by dsimp only [dat0]
theorem after0_7 (c : Dev nD) (t : Fin cfg0.N) : (dat0 V c).after 7 t = out0_7 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KernelIdealR1Runs.lean ====
/-
  The second kernel, one grid point at a time, in its three control cases.

  The grid is 8 query tiles by 8 key tiles, the key tile the fast axis. At the first key tile of a query tile the
  kernel resets its three carried buffers (running maximum, running denominator, running numerator) and then folds
  the tile in; at a middle key tile it only folds the tile in; at the last key tile it also divides the numerator by
  the denominator into the output block. Each case is the body's triple on whole buffers, the lists of stores each
  written buffer ends with being found by running the body.
-/
import proofs.«120501_j7026566496400_2_alg».proof.Proof.Gen.KernelIdeal.Launch
import proofs.«120501_j7026566496400_2_alg».proof.Proof.Gen.KernelIdeal.Skeleton
import proofs.«120501_j7026566496400_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first key tile": the reset branch's condition, from the grid coordinates. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- "This is the last key tile": the normalising branch's condition. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-! ## Where the output window is idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Off the last key tile the output window is idle and is not written back. -/
theorem idle_3 : ∀ t : Fin cfg1.N, ¬condLast (grid1.coords t) → cfg1.idle 3 (grid1.coords t) = true := by decide +kernel
theorem noFlush_3 : ∀ t : Fin cfg1.N, ¬condLast (grid1.coords t) → (cfg1.win 3).flush t = false := by decide +kernel
/-- At the last key tile it is live. -/
theorem live_3 : ∀ t : Fin cfg1.N, condLast (grid1.coords t) → cfg1.idle 3 (grid1.coords t) = false := by decide +kernel

/-! ## The body in each case -/

set_option maxHeartbeats 4000000 in
/-- FIRST key tile (reset, fold, no division): the three carried buffers, found at anything, end with the listed stores;
    the inputs and the output buffer are handed back as found. -/
noncomputable def runFirst (c : Dev nD) (i : grid1.Coords) (arg2 : Memref sig .tc .vmem S8x256x512 .bf16) (harg2 : arg2.IsWhole) (arg3 : Memref sig .tc .vmem S8x256x512 .bf16) (harg3 : arg3.IsWhole) (arg4 : Memref sig .tc .vmem S8x256x512 .bf16) (harg4 : arg4.IsWhole) (arg5 : Memref sig .tc .vmem S8x256x512 .f32) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x256x512 .f32) (harg8 : arg8.IsWhole) (hc0 : condFirst i) (hc1 : ¬condLast i)
    (x0 x1 x2 : Vec F S8x256x512 .bf16) :
    Σ' (LS0 : List (View.Piece (Elt F) S8x256x1 .f32)) (LS1 : List (View.Piece (Elt F) S8x256x1 .f32)), { LS2 : List (View.Piece (Elt F) S8x256x512 .f32) //
      ∀ (xi3 : Vec F S8x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_flash_kernel i arg2 harg2 arg3 harg3 arg4 harg4 arg5 harg5 arg6 harg6 arg7 harg7 arg8 harg8) K } := by
  refine ⟨?_, ?_, ?_, fun xi3 E K => ?run⟩
  case run =>
    simp only [cc1_flash_kernel_eq_skeleton]; unfold cc1_flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- A MIDDLE key tile (fold only): the carried buffers, found at the contents the point before left, end with the
    listed stores; the inputs and the output buffer are handed back as found. -/
noncomputable def runMid (c : Dev nD) (i : grid1.Coords) (arg2 : Memref sig .tc .vmem S8x256x512 .bf16) (harg2 : arg2.IsWhole) (arg3 : Memref sig .tc .vmem S8x256x512 .bf16) (harg3 : arg3.IsWhole) (arg4 : Memref sig .tc .vmem S8x256x512 .bf16) (harg4 : arg4.IsWhole) (arg5 : Memref sig .tc .vmem S8x256x512 .f32) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x256x512 .f32) (harg8 : arg8.IsWhole) (hc0 : ¬condFirst i) (hc1 : ¬condLast i)
    (x0 x1 x2 : Vec F S8x256x512 .bf16) (xs0 xs1 : Vec F S8x256x1 .f32) (xs2 : Vec F S8x256x512 .f32) :
    Σ' (LS0 : List (View.Piece (Elt F) S8x256x1 .f32)) (LS1 : List (View.Piece (Elt F) S8x256x1 .f32)), { LS2 : List (View.Piece (Elt F) S8x256x512 .f32) //
      ∀ (xi3 : Vec F S8x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_flash_kernel i arg2 harg2 arg3 harg3 arg4 harg4 arg5 harg5 arg6 harg6 arg7 harg7 arg8 harg8) K } := by
  refine ⟨?_, ?_, ?_, fun xi3 E K => ?run⟩
  case run =>
    simp only [cc1_flash_kernel_eq_skeleton]; unfold cc1_flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- The LAST key tile (fold, then divide into the output block): the output buffer, found at anything, and the carried
    buffers, found at the contents the point before left, end with the listed stores. -/
noncomputable def runLast (c : Dev nD) (i : grid1.Coords) (arg2 : Memref sig .tc .vmem S8x256x512 .bf16) (harg2 : arg2.IsWhole) (arg3 : Memref sig .tc .vmem S8x256x512 .bf16) (harg3 : arg3.IsWhole) (arg4 : Memref sig .tc .vmem S8x256x512 .bf16) (harg4 : arg4.IsWhole) (arg5 : Memref sig .tc .vmem S8x256x512 .f32) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x256x512 .f32) (harg8 : arg8.IsWhole) (hc0 : ¬condFirst i) (hc1 : condLast i)
    (x0 x1 x2 : Vec F S8x256x512 .bf16) (xs0 xs1 : Vec F S8x256x1 .f32) (xs2 : Vec F S8x256x512 .f32) :
    Σ' (L3 : List (View.Piece (Elt F) S8x256x512 .f32)) (LS0 : List (View.Piece (Elt F) S8x256x1 .f32)) (LS1 : List (View.Piece (Elt F) S8x256x1 .f32)), { LS2 : List (View.Piece (Elt F) S8x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_flash_kernel i arg2 harg2 arg3 harg3 arg4 harg4 arg5 harg5 arg6 harg6 arg7 harg7 arg8 harg8) K } := by
  refine ⟨?_, ?_, ?_, ?_, fun E K => ?run⟩
  case run =>
    simp only [cc1_flash_kernel_eq_skeleton]; unfold cc1_flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.R1

end
-- ==== Proof.KernelIdealR1.lean ====
/-
  The second kernel over its whole grid: what its three carried buffers and its output buffer hold after every grid
  point, by recursion on the point (the first key tile of a query tile starts afresh, every later one folds into what
  the point before left, the last one also writes the output block); the region's invariant, which keeps the carried
  buffers at exactly those contents between points; the proof data; and the body obligation at every point.
  Stated at a parameter V: the buffers' contents when the region is entered.
-/
import proofs.«120501_j7026566496400_2_alg».proof.Proof.KernelIdealR1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Names for the buffers -/

/-- The three carried buffers (running maximum, running denominator, running numerator), whole. -/
abbrev scM0 : Memref sig .tc .vmem S8x256x1 .f32 := Memref.whole cc1_scratch0
abbrev scM1 : Memref sig .tc .vmem S8x256x1 .f32 := Memref.whole cc1_scratch1
abbrev scM2 : Memref sig .tc .vmem S8x256x512 .f32 := Memref.whole cc1_scratch2
abbrev VS0 : View sig .tc .vmem S8x256x1 .f32 := scM0.view
abbrev VS1 : View sig .tc .vmem S8x256x1 .f32 := scM1.view
abbrev VS2 : View sig .tc .vmem S8x256x512 .f32 := scM2.view
/-- One staging buffer of the output window, through which its contents are stated. -/
abbrev VO3 : View sig .tc .vmem S8x256x512 .f32 := (Memref.whole cc1_stg3_0 : Memref sig .tc .vmem S8x256x512 .f32).view
/-- Each window's current staging buffer at a point. -/
abbrev ms_0 (t : Fin cfg1.N) : Memref sig .tc .vmem S8x256x512 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S8x256x512 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8x256x512 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S8x256x512 .f32 := win1_3.stage (cfg1.slots t 3)
abbrev hs_3 (t : Fin cfg1.N) : (ms_3 t).IsWhole := hstage1_3 ((cfg1.slots t 3).cast nbuf1_3)

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Each case's stores cover the buffer they go to -/

section Covers
variable (c : Dev nD) (i : grid1.Coords) (arg2 : Memref sig .tc .vmem S8x256x512 .bf16) (harg2 : arg2.IsWhole) (arg3 : Memref sig .tc .vmem S8x256x512 .bf16) (harg3 : arg3.IsWhole) (arg4 : Memref sig .tc .vmem S8x256x512 .bf16) (harg4 : arg4.IsWhole) (arg5 : Memref sig .tc .vmem S8x256x512 .f32) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x256x512 .f32) (harg8 : arg8.IsWhole)
  (x0 x1 x2 : Vec F S8x256x512 .bf16) (xs0 xs1 : Vec F S8x256x1 .f32) (xs2 : Vec F S8x256x512 .f32)

theorem coverFirst0 (hc0 : condFirst i) (hc1 : ¬condLast i) (y : S8x256x1.Idx) :
    ∃ pc ∈ (runFirst c i arg2 harg2 arg3 harg3 arg4 harg4 arg5 harg5 arg6 harg6 arg7 harg7 arg8 harg8 hc0 hc1 x0 x1 x2).1, y ∈ pc.1.set :=
  View.cover_of_tiledL (runFirst c i arg2 harg2 arg3 harg3 arg4 harg4 arg5 harg5 arg6 harg6 arg7 harg7 arg8 harg8 hc0 hc1 x0 x1 x2).1 S8x256x1.size (by sl_kernel_rfl) y
theorem coverFirst1 (hc0 : condFirst i) (hc1 : ¬condLast i) (y : S8x256x1.Idx) :
    ∃ pc ∈ (runFirst c i arg2 harg2 arg3 harg3 arg4 harg4 arg5 harg5 arg6 harg6 arg7 harg7 arg8 harg8 hc0 hc1 x0 x1 x2).2.1, y ∈ pc.1.set :=
  View.cover_of_tiledL (runFirst c i arg2 harg2 arg3 harg3 arg4 harg4 arg5 harg5 arg6 harg6 arg7 harg7 arg8 harg8 hc0 hc1 x0 x1 x2).2.1 S8x256x1.size (by sl_kernel_rfl) y
theorem coverFirst2 (hc0 : condFirst i) (hc1 : ¬condLast i) (y : S8x256x512.Idx) :
    ∃ pc ∈ (runFirst c i arg2 harg2 arg3 harg3 arg4 harg4 arg5 harg5 arg6 harg6 arg7 harg7 arg8 harg8 hc0 hc1 x0 x1 x2).2.2.1, y ∈ pc.1.set :=
  View.cover_of_tiledL (runFirst c i arg2 harg2 arg3 harg3 arg4 harg4 arg5 harg5 arg6 harg6 arg7 harg7 arg8 harg8 hc0 hc1 x0 x1 x2).2.2.1 S8x256x512.size (by sl_kernel_rfl) y

theorem coverMid0 (hc0 : ¬condFirst i) (hc1 : ¬condLast i) (y : S8x256x1.Idx) :
    ∃ pc ∈ (runMid c i arg2 harg2 arg3 harg3 arg4 harg4 arg5 harg5 arg6 harg6 arg7 harg7 arg8 harg8 hc0 hc1 x0 x1 x2 xs0 xs1 xs2).1, y ∈ pc.1.set :=
  View.cover_of_tiledL (runMid c i arg2 harg2 arg3 harg3 arg4 harg4 arg5 harg5 arg6 harg6 arg7 harg7 arg8 harg8 hc0 hc1 x0 x1 x2 xs0 xs1 xs2).1 S8x256x1.size (by sl_kernel_rfl) y
theorem coverMid1 (hc0 : ¬condFirst i) (hc1 : ¬condLast i) (y : S8x256x1.Idx) :
    ∃ pc ∈ (runMid c i arg2 harg2 arg3 harg3 arg4 harg4 arg5 harg5 arg6 harg6 arg7 harg7 arg8 harg8 hc0 hc1 x0 x1 x2 xs0 xs1 xs2).2.1, y ∈ pc.1.set :=
  View.cover_of_tiledL (runMid c i arg2 harg2 arg3 harg3 arg4 harg4 arg5 harg5 arg6 harg6 arg7 harg7 arg8 harg8 hc0 hc1 x0 x1 x2 xs0 xs1 xs2).2.1 S8x256x1.size (by sl_kernel_rfl) y
theorem coverMid2 (hc0 : ¬condFirst i) (hc1 : ¬condLast i) (y : S8x256x512.Idx) :
    ∃ pc ∈ (runMid c i arg2 harg2 arg3 harg3 arg4 harg4 arg5 harg5 arg6 harg6 arg7 harg7 arg8 harg8 hc0 hc1 x0 x1 x2 xs0 xs1 xs2).2.2.1, y ∈ pc.1.set :=
  View.cover_of_tiledL (runMid c i arg2 harg2 arg3 harg3 arg4 harg4 arg5 harg5 arg6 harg6 arg7 harg7 arg8 harg8 hc0 hc1 x0 x1 x2 xs0 xs1 xs2).2.2.1 S8x256x512.size (by sl_kernel_rfl) y

theorem coverLast3 (hc0 : ¬condFirst i) (hc1 : condLast i) (y : S8x256x512.Idx) :
    ∃ pc ∈ (runLast c i arg2 harg2 arg3 harg3 arg4 harg4 arg5 harg5 arg6 harg6 arg7 harg7 arg8 harg8 hc0 hc1 x0 x1 x2 xs0 xs1 xs2).1, y ∈ pc.1.set :=
  View.cover_of_tiledL (runLast c i arg2 harg2 arg3 harg3 arg4 harg4 arg5 harg5 arg6 harg6 arg7 harg7 arg8 harg8 hc0 hc1 x0 x1 x2 xs0 xs1 xs2).1 S8x256x512.size (by sl_kernel_rfl) y
theorem coverLast0 (hc0 : ¬condFirst i) (hc1 : condLast i) (y : S8x256x1.Idx) :
    ∃ pc ∈ (runLast c i arg2 harg2 arg3 harg3 arg4 harg4 arg5 harg5 arg6 harg6 arg7 harg7 arg8 harg8 hc0 hc1 x0 x1 x2 xs0 xs1 xs2).2.1, y ∈ pc.1.set :=
  View.cover_of_tiledL (runLast c i arg2 harg2 arg3 harg3 arg4 harg4 arg5 harg5 arg6 harg6 arg7 harg7 arg8 harg8 hc0 hc1 x0 x1 x2 xs0 xs1 xs2).2.1 S8x256x1.size (by sl_kernel_rfl) y
theorem coverLast1 (hc0 : ¬condFirst i) (hc1 : condLast i) (y : S8x256x1.Idx) :
    ∃ pc ∈ (runLast c i arg2 harg2 arg3 harg3 arg4 harg4 arg5 harg5 arg6 harg6 arg7 harg7 arg8 harg8 hc0 hc1 x0 x1 x2 xs0 xs1 xs2).2.2.1, y ∈ pc.1.set :=
  View.cover_of_tiledL (runLast c i arg2 harg2 arg3 harg3 arg4 harg4 arg5 harg5 arg6 harg6 arg7 harg7 arg8 harg8 hc0 hc1 x0 x1 x2 xs0 xs1 xs2).2.2.1 S8x256x1.size (by sl_kernel_rfl) y
theorem coverLast2 (hc0 : ¬condFirst i) (hc1 : condLast i) (y : S8x256x512.Idx) :
    ∃ pc ∈ (runLast c i arg2 harg2 arg3 harg3 arg4 harg4 arg5 harg5 arg6 harg6 arg7 harg7 arg8 harg8 hc0 hc1 x0 x1 x2 xs0 xs1 xs2).2.2.2.1, y ∈ pc.1.set :=
  View.cover_of_tiledL (runLast c i arg2 harg2 arg3 harg3 arg4 harg4 arg5 harg5 arg6 harg6 arg7 harg7 arg8 harg8 hc0 hc1 x0 x1 x2 xs0 xs1 xs2).2.2.2.1 S8x256x512.size (by sl_kernel_rfl) y

/-! ## What each case leaves: its stores read back -/

/-- The contents after a point: output buffer, running maximum, running denominator, running numerator. -/
abbrev PtSt (F : FTy → Type) : Type := Vec F S8x256x512 .f32 × Vec F S8x256x1 .f32 × Vec F S8x256x1 .f32 × Vec F S8x256x512 .f32

def afterFirst (hc0 : condFirst i) (hc1 : ¬condLast i) (xo : Vec F S8x256x512 .f32) : PtSt F :=
  (xo,
   VS0.read (Elt F) (VS0.writes (Elt F) VS0.junk (runFirst c i arg2 harg2 arg3 harg3 arg4 harg4 arg5 harg5 arg6 harg6 arg7 harg7 arg8 harg8 hc0 hc1 x0 x1 x2).1),
   VS1.read (Elt F) (VS1.writes (Elt F) VS1.junk (runFirst c i arg2 harg2 arg3 harg3 arg4 harg4 arg5 harg5 arg6 harg6 arg7 harg7 arg8 harg8 hc0 hc1 x0 x1 x2).2.1),
   VS2.read (Elt F) (VS2.writes (Elt F) VS2.junk (runFirst c i arg2 harg2 arg3 harg3 arg4 harg4 arg5 harg5 arg6 harg6 arg7 harg7 arg8 harg8 hc0 hc1 x0 x1 x2).2.2.1))

def afterMid (hc0 : ¬condFirst i) (hc1 : ¬condLast i) (xo : Vec F S8x256x512 .f32) : PtSt F :=
  (xo,
   VS0.read (Elt F) (VS0.writes (Elt F) VS0.junk (runMid c i arg2 harg2 arg3 harg3 arg4 harg4 arg5 harg5 arg6 harg6 arg7 harg7 arg8 harg8 hc0 hc1 x0 x1 x2 xs0 xs1 xs2).1),
   VS1.read (Elt F) (VS1.writes (Elt F) VS1.junk (runMid c i arg2 harg2 arg3 harg3 arg4 harg4 arg5 harg5 arg6 harg6 arg7 harg7 arg8 harg8 hc0 hc1 x0 x1 x2 xs0 xs1 xs2).2.1),
   VS2.read (Elt F) (VS2.writes (Elt F) VS2.junk (runMid c i arg2 harg2 arg3 harg3 arg4 harg4 arg5 harg5 arg6 harg6 arg7 harg7 arg8 harg8 hc0 hc1 x0 x1 x2 xs0 xs1 xs2).2.2.1))

def afterLast (hc0 : ¬condFirst i) (hc1 : condLast i) : PtSt F :=
  (VO3.read (Elt F) (VO3.writes (Elt F) VO3.junk (runLast c i arg2 harg2 arg3 harg3 arg4 harg4 arg5 harg5 arg6 harg6 arg7 harg7 arg8 harg8 hc0 hc1 x0 x1 x2 xs0 xs1 xs2).1),
   VS0.read (Elt F) (VS0.writes (Elt F) VS0.junk (runLast c i arg2 harg2 arg3 harg3 arg4 harg4 arg5 harg5 arg6 harg6 arg7 harg7 arg8 harg8 hc0 hc1 x0 x1 x2 xs0 xs1 xs2).2.1),
   VS1.read (Elt F) (VS1.writes (Elt F) VS1.junk (runLast c i arg2 harg2 arg3 harg3 arg4 harg4 arg5 harg5 arg6 harg6 arg7 harg7 arg8 harg8 hc0 hc1 x0 x1 x2 xs0 xs1 xs2).2.2.1),
   VS2.read (Elt F) (VS2.writes (Elt F) VS2.junk (runLast c i arg2 harg2 arg3 harg3 arg4 harg4 arg5 harg5 arg6 harg6 arg7 harg7 arg8 harg8 hc0 hc1 x0 x1 x2 xs0 xs1 xs2).2.2.2.1))

end Covers

/-! ## The contents after every point -/

/-- Contents nobody reads: what stands for "before the first point". -/
def junkSt : PtSt F := (VO3.read (Elt F) VO3.junk, VS0.read (Elt F) VS0.junk, VS1.read (Elt F) VS1.junk, VS2.read (Elt F) VS2.junk)

/-- One point: the case its position selects, run on the point's buffers and input blocks, over what the point before left. -/
def stepAt (c : Dev nD) (t : Fin cfg1.N) (prev : PtSt F) : PtSt F :=
  if h0 : t.val % 8 = 0 then
    afterFirst c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _)
      (iblk1 V c 0 t) (iblk1 V c 1 t) (iblk1 V c 2 t) ((hcondFirst t).mpr h0) (fun h => by have := (hcondLast t).mp h; omega) prev.1
  else if h7 : t.val % 8 = 7 then
    afterLast c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _)
      (iblk1 V c 0 t) (iblk1 V c 1 t) (iblk1 V c 2 t) prev.2.1 prev.2.2.1 prev.2.2.2 (fun h => h0 ((hcondFirst t).mp h)) ((hcondLast t).mpr h7)
  else
    afterMid c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _)
      (iblk1 V c 0 t) (iblk1 V c 1 t) (iblk1 V c 2 t) prev.2.1 prev.2.2.1 prev.2.2.2 (fun h => h0 ((hcondFirst t).mp h)) (fun h => h7 ((hcondLast t).mp h)) prev.1

/-- THE ACCUMULATION: the contents after the point at position n. -/
def outsAt (c : Dev nD) : (n : ℕ) → n < cfg1.N → PtSt F
  | 0, hn => stepAt V c ⟨0, hn⟩ junkSt
  | n + 1, hn => stepAt V c ⟨n + 1, hn⟩ (outsAt c n (Nat.lt_of_succ_lt hn))

theorem outsAt_succ (c : Dev nD) (n : ℕ) (hn : n + 1 < cfg1.N) :
    outsAt V c (n + 1) hn = stepAt V c ⟨n + 1, hn⟩ (outsAt V c n (Nat.lt_of_succ_lt hn)) := rfl

/-- At any point after the first: one step over the point before. -/
theorem outsAt_pos (c : Dev nD) (t : Fin cfg1.N) (hz : t.val ≠ 0) :
    outsAt V c t.val t.isLt = stepAt V c t (outsAt V c (t.val - 1) (Nat.lt_of_le_of_lt (Nat.sub_le _ _) t.isLt)) := by
  obtain ⟨n, hn⟩ := t
  cases n with
  | zero => exact absurd rfl hz
  | succ n => rfl

theorem outsAt_zero (c : Dev nD) (t : Fin cfg1.N) (hz : t.val = 0) :
    outsAt V c t.val t.isLt = stepAt V c t junkSt := by
  obtain ⟨n, hn⟩ := t
  cases n with
  | zero => rfl
  | succ n => exact absurd hz (Nat.succ_ne_zero _)

/-! ## The region's invariant -/

/-- The first kernel's staging buffers (this kernel never touches them) and the generator register: what rides along. -/
def rest (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)) ∗ (∃ r, prngReg c r))

/-- The scoped buffers no window of this kernel stages, with the carried three described by S. -/
def heldAt (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ S) ∗ (∃ r, prngReg c r))

theorem heldAt_out (c : Dev nD) (S : sProp 𝕄) : heldAt c S ⊢ iprop(S ∗ rest (F := F) c) := by
  unfold heldAt rest
  iintro ⟨⟨E0, E1, E2, E3, E4, E5, E6, E7, E8, E9, E10, E11, HS⟩, Hg⟩
  isplitl [HS]; · iexact HS
  isplitr [Hg]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    iexact E11
  iexact Hg

theorem heldAt_in (c : Dev nD) (S : sProp 𝕄) : iprop(S ∗ rest (F := F) c) ⊢ heldAt c S := by
  unfold heldAt rest
  iintro ⟨HS, ⟨E0, E1, E2, E3, E4, E5, E6, E7, E8, E9, E10, E11⟩, Hg⟩
  isplitr [Hg]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    isplitl [E11]; · iexact E11
    iexact HS
  iexact Hg

/-- What the launch hands the region: the carried buffers at anything. -/
theorem PhiA_eq (c : Dev nD) :
    (Pipeline.ΦA spec1 c : sProp 𝕄)
      = heldAt c iprop((∃ d, owns (c : Thread nD τ) scM0 fullShare d) ∗ (∃ d, owns (c : Thread nD τ) scM1 fullShare d) ∗ (∃ d, owns (c : Thread nD τ) scM2 fullShare d)) := by
  unfold Pipeline.ΦA heldAt; rw [scopedRest1_eq]; simp only [scM0, scM1, scM2, owns_whole]; try rfl

/-- The invariant before position n: before the first point the carried buffers at anything; afterwards each at what the
    point before left in it. -/
def PhiS (c : Dev nD) : (n : ℕ) → n ≤ cfg1.N → sProp 𝕄
  | 0, _ => Pipeline.ΦA spec1 c
  | n + 1, hn => heldAt c iprop(owns (c : Thread nD τ) scM0 fullShare (outsAt V c n hn).2.1 ∗ owns (c : Thread nD τ) scM1 fullShare (outsAt V c n hn).2.2.1 ∗ owns (c : Thread nD τ) scM2 fullShare (outsAt V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = heldAt c iprop(owns (c : Thread nD τ) scM0 fullShare (outsAt V c n hn).2.1 ∗ owns (c : Thread nD τ) scM1 fullShare (outsAt V c n hn).2.2.1 ∗ owns (c : Thread nD τ) scM2 fullShare (outsAt V c n hn).2.2.2) := rfl

theorem PhiS_pos (c : Dev nD) (n : ℕ) (h : n ≤ cfg1.N) (hz : n ≠ 0) :
    PhiS V c n h = heldAt c iprop(owns (c : Thread nD τ) scM0 fullShare (outsAt V c (n - 1) (by omega)).2.1 ∗ owns (c : Thread nD τ) scM1 fullShare (outsAt V c (n - 1) (by omega)).2.2.1 ∗ owns (c : Thread nD τ) scM2 fullShare (outsAt V c (n - 1) (by omega)).2.2.2) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt V c t.val t.isLt).1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

/-- What the body is called with at point t, the windows one by one, -/
def bodyPre (c : Dev nD) (t : Fin cfg1.N) : sProp 𝕄 :=
  iprop((dat1 V c).Φ t.castSucc ∗ (dat1 V c).owesAt () t.castSucc
    ∗ (∃ d, owns (c : Thread nD τ) (ms_0 t) fullShare ((dat1 V c).before 0 t d))
    ∗ (∃ d, owns (c : Thread nD τ) (ms_1 t) fullShare ((dat1 V c).before 1 t d))
    ∗ (∃ d, owns (c : Thread nD τ) (ms_2 t) fullShare ((dat1 V c).before 2 t d))
    ∗ (∃ d, owns (c : Thread nD τ) (ms_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- Whatever the invariant says of the carried buffers, they are held at SOME contents. -/
theorem PhiS_any (c : Dev nD) (n : ℕ) (h : n ≤ cfg1.N) :
    PhiS V c n h ⊢ heldAt c iprop((∃ d, owns (c : Thread nD τ) scM0 fullShare d) ∗ (∃ d, owns (c : Thread nD τ) scM1 fullShare d) ∗ (∃ d, owns (c : Thread nD τ) scM2 fullShare d)) := by
  cases n with
  | zero => rw [PhiS_zero V c 0 h rfl, PhiA_eq]
  | succ n =>
    rw [PhiS_succ]
    have hmid : (iprop(iprop(owns (c : Thread nD τ) scM0 fullShare (outsAt V c n h).2.1 ∗ owns (c : Thread nD τ) scM1 fullShare (outsAt V c n h).2.2.1 ∗ owns (c : Thread nD τ) scM2 fullShare (outsAt V c n h).2.2.2) ∗ rest (F := F) c) : sProp 𝕄)
        ⊢ iprop(iprop((∃ d, owns (c : Thread nD τ) scM0 fullShare d) ∗ (∃ d, owns (c : Thread nD τ) scM1 fullShare d) ∗ (∃ d, owns (c : Thread nD τ) scM2 fullShare d)) ∗ rest (F := F) c) := by
      iintro ⟨⟨HS0, HS1, HS2⟩, Hrest⟩
      isplitl [HS0 HS1 HS2]
      · isplitl [HS0]; · iexists _; iexact HS0
        isplitl [HS1]; · iexists _; iexact HS1
        iexists _; iexact HS2
      iexact Hrest
    exact (heldAt_out c _).trans (hmid.trans (heldAt_in c _))

set_option maxHeartbeats 4800000 in
/-- The body at any point: the position selects the case; the invariant hands the body the carried buffers at what
    the point before left (at anything on a first key tile) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms_0 t) fullShare ((dat1 V c).after 0 t) from by
    unfold Dat.leavesExact; rw [live_0 t], after1_0]
  rw [show (dat1 V c).leavesExact 1 t = owns (c : Thread nD τ) (ms_1 t) fullShare ((dat1 V c).after 1 t) from by
    unfold Dat.leavesExact; rw [live_1 t], after1_1]
  rw [show (dat1 V c).leavesExact 2 t = owns (c : Thread nD τ) (ms_2 t) fullShare ((dat1 V c).after 2 t) from by
    unfold Dat.leavesExact; rw [live_2 t], after1_2]
  by_cases h0 : t.val % 8 = 0
  · have hcF : condFirst (grid1.coords t) := (hcondFirst t).mpr h0
    have hcL : ¬condLast (grid1.coords t) := fun h => by have := (hcondLast t).mp h; omega
    rw [Dat.leavesExact_idle (dat1 V c) 3 t (idle_3 t hcL) (noFlush_3 t hcL)]
    obtain ⟨prev, hprev⟩ : ∃ prev, outsAt V c t.val t.isLt = stepAt V c t prev := by
      by_cases hz : t.val = 0
      · exact ⟨_, outsAt_zero V c t hz⟩
      · exact ⟨_, outsAt_pos V c t hz⟩
    rw [hprev]; unfold stepAt; rw [dif_pos h0]; unfold afterFirst; dsimp only
    rw [PhiS_castSucc V c t]
    iintro ⟨HΦ, Ho, ⟨%d0, H0⟩, ⟨%d1, H1⟩, ⟨%d2, H2⟩, ⟨%d3, H3⟩⟩
    ihave HΦa := (PhiS_any V c t.val (Nat.le_of_lt t.isLt)) $$ HΦ
    ihave HΦ' := (heldAt_out c _) $$ HΦa
    icases HΦ' with ⟨⟨HS0, HS1, HS2⟩, Hrest⟩
    iapply ((runFirst c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hcF hcL (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 Hrest]
    · iapply (heldAt_in c _)
      isplitl [HS0 HS1 HS2]
      · isplitl [HS0]
        · unfold owns; iexists _; isplitr
          swap; · iexact HS0
          ipureintro; exact View.read_writes_of_cover _ _ _ _ _ (coverFirst0 c _ _ _ _ _ _ _ _ _ _ _ _ _ _ _ _ _ _ _ _)
        isplitl [HS1]
        · unfold owns; iexists _; isplitr
          swap; · iexact HS1
          ipureintro; exact View.read_writes_of_cover _ _ _ _ _ (coverFirst1 c _ _ _ _ _ _ _ _ _ _ _ _ _ _ _ _ _ _ _ _)
        unfold owns; iexists _; isplitr
        swap; · iexact HS2
        ipureintro; exact View.read_writes_of_cover _ _ _ _ _ (coverFirst2 c _ _ _ _ _ _ _ _ _ _ _ _ _ _ _ _ _ _ _ _)
      iexact Hrest
    isplitl [Ho]; · iexact Ho
    isplitl [H0]; · iexact H0
    isplitl [H1]; · iexact H1
    isplitl [H2]; · iexact H2
    iexists _; iexact H3
  · have hz : t.val ≠ 0 := fun h => h0 (by rw [h])
    have hcF : ¬condFirst (grid1.coords t) := fun h => h0 ((hcondFirst t).mp h)
    rw [outsAt_pos V c t hz]; unfold stepAt; rw [dif_neg h0]
    rw [PhiS_castSucc V c t, PhiS_pos V c _ _ hz]
    by_cases h7 : t.val % 8 = 7
    · have hcL : condLast (grid1.coords t) := (hcondLast t).mpr h7
      rw [show (dat1 V c).leavesExact 3 t = owns (c : Thread nD τ) (ms_3 t) fullShare ((dat1 V c).after 3 t) from by
        unfold Dat.leavesExact; rw [live_3 t hcL], after1_3]
      rw [outsAt_pos V c t hz]; unfold stepAt; rw [dif_neg h0, dif_pos h7]; unfold afterLast; dsimp only
      iintro ⟨HΦ, Ho, ⟨%d0, H0⟩, ⟨%d1, H1⟩, ⟨%d2, H2⟩, ⟨%d3, H3⟩⟩
      ihave HΦ' := (heldAt_out c _) $$ HΦ
      icases HΦ' with ⟨⟨HS0, HS1, HS2⟩, Hrest⟩
      iapply ((runLast c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hcF hcL (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrest]
      · iapply (heldAt_in c _)
        isplitl [HS0 HS1 HS2]
        · isplitl [HS0]
          · unfold owns; iexists _; isplitr
            swap; · iexact HS0
            ipureintro; exact View.read_writes_of_cover _ _ _ _ _ (coverLast0 c _ _ _ _ _ _ _ _ _ _ _ _ _ _ _ _ _ _ _ _ _ _ _)
          isplitl [HS1]
          · unfold owns; iexists _; isplitr
            swap; · iexact HS1
            ipureintro; exact View.read_writes_of_cover _ _ _ _ _ (coverLast1 c _ _ _ _ _ _ _ _ _ _ _ _ _ _ _ _ _ _ _ _ _ _ _)
          unfold owns; iexists _; isplitr
          swap; · iexact HS2
          ipureintro; exact View.read_writes_of_cover _ _ _ _ _ (coverLast2 c _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast3 c _ _ _ _ _ _ _ _ _ _ _ _ _ _ _ _ _ _ _ _ _ _ _)
    · have hcL : ¬condLast (grid1.coords t) := fun h => h7 ((hcondLast t).mp h)
      rw [Dat.leavesExact_idle (dat1 V c) 3 t (idle_3 t hcL) (noFlush_3 t hcL)]
      rw [dif_neg h7]; unfold afterMid; dsimp only
      iintro ⟨HΦ, Ho, ⟨%d0, H0⟩, ⟨%d1, H1⟩, ⟨%d2, H2⟩, ⟨%d3, H3⟩⟩
      ihave HΦ' := (heldAt_out c _) $$ HΦ
      icases HΦ' with ⟨⟨HS0, HS1, HS2⟩, Hrest⟩
      iapply ((runMid c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) hcF hcL (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest]
      · iapply (heldAt_in c _)
        isplitl [HS0 HS1 HS2]
        · isplitl [HS0]
          · unfold owns; iexists _; isplitr
            swap; · iexact HS0
            ipureintro; exact View.read_writes_of_cover _ _ _ _ _ (coverMid0 c _ _ _ _ _ _ _ _ _ _ _ _ _ _ _ _ _ _ _ _ _ _ _)
          isplitl [HS1]
          · unfold owns; iexists _; isplitr
            swap; · iexact HS1
            ipureintro; exact View.read_writes_of_cover _ _ _ _ _ (coverMid1 c _ _ _ _ _ _ _ _ _ _ _ _ _ _ _ _ _ _ _ _ _ _ _)
          unfold owns; iexists _; isplitr
          swap; · iexact HS2
          ipureintro; exact View.read_writes_of_cover _ _ _ _ _ (coverMid2 c _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the carried buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA_eq]
  exact PhiS_any V c _ _

end Cert.KernelIdeal.R1

end
-- ==== Proof.KernelIdealRun.lean ====
/-
  The whole program's run, at any float instance: @main is three reshapes, the projection kernel, three reshapes, the
  attention kernel. The buffers' contents are followed from the launch through each of the four stretches; each
  kernel region is entered with its arrays split out of the buffers and left with them put back at what its
  write-backs leave. Every weakly fair execution terminates, and the final memory holds every unscoped buffer at the
  last of these contents: the arguments as launched, the result at what the attention kernel's write-backs leave.
-/
import proofs.«120501_j7026566496400_2_alg».proof.Proof.KernelIdealR0
import proofs.«120501_j7026566496400_2_alg».proof.Proof.KernelIdealR1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first three reshapes (the projection kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection kernel's exit: its arrays at what its write-backs leave, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second three reshapes (the attention kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention kernel's exit. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments reach the end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((R0.dat0 (V1 m ρ) c).arrAt_in 1 rfl _).trans (R0.A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((R0.dat0 (V1 m ρ) c).arrAt_in 3 rfl _).trans (R0.A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
/-- Region 0 over the thread state: entered from every unscoped buffer at its entry contents, left at its exit contents.
    Its arrays are split out of the unscoped buffers and put back at what the write-backs leave; the generator register
    goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit contents.
    Its arrays are split out of the unscoped buffers and put back at what the write-backs leave; the generator register
    goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (R1.hout1 (V3 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run read at the result and at the arguments: the result holds what the attention kernel's write-backs leave in its
    output array; each argument is as launched. -/
theorem run_result : θ_run defs (onTc (τ := τ) (main (F := F))) ⟨m, fun _ => 0, ρ⟩ (fun r => ∀ c : Dev nD,
      r.2.mem ((c.tc : Thread nD τ).loc main_v7) = (R1.dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v7 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Run

end
-- ==== Proof.KernelIdealR1Pieces.lean ====
/-
  What one grid point of the second program leaves in its four buffers, as closed expressions in what it found.

  Every load and every store of the body is of a whole buffer, so a load reads the buffer's contents as they stand
  (the contents found, or the payload of the one earlier whole-buffer store of the same point) and the last store
  to a buffer leaves its payload there.  Hence, with m, l, a the running maximum, denominator and numerator found
  and q, k, v the three input tiles:
    a middle key tile leaves   (output untouched, new maximum, new denominator, new numerator) computed from (m, l, a);
    the first key tile leaves  the same three computed from the reset values (−∞, 0, 0), which it stores first and
                               then reads back;
    the last key tile leaves   the same three computed from (m, l, a), and in the output buffer the quotient of the
                               new numerator by the new denominator, both read back after being stored.
  The statements hold at every float instance: they are about which value reaches which buffer, not about arithmetic.
-/
import proofs.«120501_j7026566496400_2_alg».proof.Proof.KernelIdealR1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access are all zero. -/
theorem hz3 : (![0, 0, 0] : Fin 3 → Nat) = fun _ => 0 := by funext a; fin_cases a <;> rfl

/-! ## A middle key tile -/

section Mid
variable (c : Dev nD) (i : grid1.Coords) (arg2 : Memref sig .tc .vmem S8x256x512 .bf16) (harg2 : arg2.IsWhole) (arg3 : Memref sig .tc .vmem S8x256x512 .bf16) (harg3 : arg3.IsWhole) (arg4 : Memref sig .tc .vmem S8x256x512 .bf16) (harg4 : arg4.IsWhole) (arg5 : Memref sig .tc .vmem S8x256x512 .f32) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x256x512 .f32) (harg8 : arg8.IsWhole)
  (x0 x1 x2 : Vec F S8x256x512 .bf16) (xs0 xs1 : Vec F S8x256x1 .f32) (xs2 : Vec F S8x256x512 .f32) (hc0 : ¬condFirst i) (hc1 : ¬condLast i) (xo : Vec F S8x256x512 .f32)

theorem afterMid_1 : (afterMid c i arg2 harg2 arg3 harg3 arg4 harg4 arg5 harg5 arg6 harg6 arg7 harg7 arg8 harg8 x0 x1 x2 xs0 xs1 xs2 hc0 hc1 xo).2.1 = k1_pay2 (k1_pay8 x0 x1 xs0) := by
  unfold afterMid
  dsimp only
  rw [View.read_writes_eq_canon _ _ _ (coverMid0 c i arg2 harg2 arg3 harg3 arg4 harg4 arg5 harg5 arg6 harg6 arg7 harg7 arg8 harg8 x0 x1 x2 xs0 xs1 xs2 hc0 hc1)]
  unfold runMid
  dsimp only
  sl_unfold_words
  rw [View.canon_unit_zero hz3]
  simp only [View.readAt_eq_ld, Memref.IsWhole.read_unread, View.ld_unit_zero (S := S8x256x512) hz3, View.ld_unit_zero (S := S8x256x1) hz3]

theorem afterMid_2 : (afterMid c i arg2 harg2 arg3 harg3 arg4 harg4 arg5 harg5 arg6 harg6 arg7 harg7 arg8 harg8 x0 x1 x2 xs0 xs1 xs2 hc0 hc1 xo).2.2.1 = k1_pay11 x0 x1 xs0 xs0 xs1 := by
  unfold afterMid
  dsimp only
  rw [View.read_writes_eq_canon _ _ _ (coverMid1 c i arg2 harg2 arg3 harg3 arg4 harg4 arg5 harg5 arg6 harg6 arg7 harg7 arg8 harg8 x0 x1 x2 xs0 xs1 xs2 hc0 hc1)]
  unfold runMid
  dsimp only
  sl_unfold_words
  rw [View.canon_unit_zero hz3]
  simp only [View.readAt_eq_ld, Memref.IsWhole.read_unread, View.ld_unit_zero (S := S8x256x512) hz3, View.ld_unit_zero (S := S8x256x1) hz3]

theorem afterMid_3 : (afterMid c i arg2 harg2 arg3 harg3 arg4 harg4 arg5 harg5 arg6 harg6 arg7 harg7 arg8 harg8 x0 x1 x2 xs0 xs1 xs2 hc0 hc1 xo).2.2.2 = k1_pay1 (k1_pay9 x0 x1 xs0 xs0) (k1_pay12 x2) (k1_pay13 x0 x1 xs0) (constant (F := F) S8x256x512 .f32 0x00000000#32) xs2 := by
  unfold afterMid
  dsimp only
  rw [View.read_writes_eq_canon _ _ _ (coverMid2 c i arg2 harg2 arg3 harg3 arg4 harg4 arg5 harg5 arg6 harg6 arg7 harg7 arg8 harg8 x0 x1 x2 xs0 xs1 xs2 hc0 hc1)]
  unfold runMid
  dsimp only
  sl_unfold_words
  rw [View.canon_unit_zero hz3]
  simp only [View.readAt_eq_ld, Memref.IsWhole.read_unread, View.ld_unit_zero (S := S8x256x512) hz3, View.ld_unit_zero (S := S8x256x1) hz3]

theorem afterMid_eq : afterMid c i arg2 harg2 arg3 harg3 arg4 harg4 arg5 harg5 arg6 harg6 arg7 harg7 arg8 harg8 x0 x1 x2 xs0 xs1 xs2 hc0 hc1 xo
    = (xo, k1_pay2 (k1_pay8 x0 x1 xs0), k1_pay11 x0 x1 xs0 xs0 xs1,
        k1_pay1 (k1_pay9 x0 x1 xs0 xs0) (k1_pay12 x2) (k1_pay13 x0 x1 xs0) (constant (F := F) S8x256x512 .f32 0x00000000#32) xs2) := by
  refine Prod.ext ?_ (Prod.ext ?_ (Prod.ext ?_ ?_))
  · rfl
  · exact afterMid_1 c i arg2 harg2 arg3 harg3 arg4 harg4 arg5 harg5 arg6 harg6 arg7 harg7 arg8 harg8 x0 x1 x2 xs0 xs1 xs2 hc0 hc1 xo
  · exact afterMid_2 c i arg2 harg2 arg3 harg3 arg4 harg4 arg5 harg5 arg6 harg6 arg7 harg7 arg8 harg8 x0 x1 x2 xs0 xs1 xs2 hc0 hc1 xo
  · exact afterMid_3 c i arg2 harg2 arg3 harg3 arg4 harg4 arg5 harg5 arg6 harg6 arg7 harg7 arg8 harg8 x0 x1 x2 xs0 xs1 xs2 hc0 hc1 xo

end Mid

/-! ## The first key tile: reset, then fold -/

section First
variable (c : Dev nD) (i : grid1.Coords) (arg2 : Memref sig .tc .vmem S8x256x512 .bf16) (harg2 : arg2.IsWhole) (arg3 : Memref sig .tc .vmem S8x256x512 .bf16) (harg3 : arg3.IsWhole) (arg4 : Memref sig .tc .vmem S8x256x512 .bf16) (harg4 : arg4.IsWhole) (arg5 : Memref sig .tc .vmem S8x256x512 .f32) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x256x512 .f32) (harg8 : arg8.IsWhole)
  (x0 x1 x2 : Vec F S8x256x512 .bf16) (hc0 : condFirst i) (hc1 : ¬condLast i) (xo : Vec F S8x256x512 .f32)

theorem afterFirst_1 : (afterFirst c i arg2 harg2 arg3 harg3 arg4 harg4 arg5 harg5 arg6 harg6 arg7 harg7 arg8 harg8 x0 x1 x2 hc0 hc1 xo).2.1 = k1_pay2 (k1_pay8 x0 x1 k1_pay4) := by
  unfold afterFirst
  dsimp only
  rw [View.read_writes_eq_canon _ _ _ (coverFirst0 c i arg2 harg2 arg3 harg3 arg4 harg4 arg5 harg5 arg6 harg6 arg7 harg7 arg8 harg8 x0 x1 x2 hc0 hc1)]
  unfold runFirst
  dsimp only
  sl_unfold_words
  rw [View.canon_cons_unit_zero hz3]
  simp only [View.readAt_eq_ld, Memref.IsWhole.read_unread, View.ld_unit_zero (S := S8x256x512) hz3, View.ld_unit_zero (S := S8x256x1) hz3,
    View.readCov_unit_zero (S := S8x256x1) _ hz3, View.readCov_unit_zero (S := S8x256x512) _ hz3]

theorem afterFirst_2 : (afterFirst c i arg2 harg2 arg3 harg3 arg4 harg4 arg5 harg5 arg6 harg6 arg7 harg7 arg8 harg8 x0 x1 x2 hc0 hc1 xo).2.2.1 = k1_pay11 x0 x1 k1_pay4 k1_pay4 k1_pay5 := by
  unfold afterFirst
  dsimp only
  rw [View.read_writes_eq_canon _ _ _ (coverFirst1 c i arg2 harg2 arg3 harg3 arg4 harg4 arg5 harg5 arg6 harg6 arg7 harg7 arg8 harg8 x0 x1 x2 hc0 hc1)]
  unfold runFirst
  dsimp only
  sl_unfold_words
  rw [View.canon_cons_unit_zero hz3]
  simp only [View.readAt_eq_ld, Memref.IsWhole.read_unread, View.ld_unit_zero (S := S8x256x512) hz3, View.ld_unit_zero (S := S8x256x1) hz3,
    View.readCov_unit_zero (S := S8x256x1) _ hz3, View.readCov_unit_zero (S := S8x256x512) _ hz3]

theorem afterFirst_3 : (afterFirst c i arg2 harg2 arg3 harg3 arg4 harg4 arg5 harg5 arg6 harg6 arg7 harg7 arg8 harg8 x0 x1 x2 hc0 hc1 xo).2.2.2 = k1_pay1 (k1_pay9 x0 x1 k1_pay4 k1_pay4) (k1_pay12 x2) (k1_pay13 x0 x1 k1_pay4) (constant (F := F) S8x256x512 .f32 0x00000000#32) k1_pay6 := by
  unfold afterFirst
  dsimp only
  rw [View.read_writes_eq_canon _ _ _ (coverFirst2 c i arg2 harg2 arg3 harg3 arg4 harg4 arg5 harg5 arg6 harg6 arg7 harg7 arg8 harg8 x0 x1 x2 hc0 hc1)]
  unfold runFirst
  dsimp only
  sl_unfold_words
  rw [View.canon_cons_unit_zero hz3]
  simp only [View.readAt_eq_ld, Memref.IsWhole.read_unread, View.ld_unit_zero (S := S8x256x512) hz3, View.ld_unit_zero (S := S8x256x1) hz3,
    View.readCov_unit_zero (S := S8x256x1) _ hz3, View.readCov_unit_zero (S := S8x256x512) _ hz3]

theorem afterFirst_eq : afterFirst c i arg2 harg2 arg3 harg3 arg4 harg4 arg5 harg5 arg6 harg6 arg7 harg7 arg8 harg8 x0 x1 x2 hc0 hc1 xo
    = (xo, k1_pay2 (k1_pay8 x0 x1 k1_pay4), k1_pay11 x0 x1 k1_pay4 k1_pay4 k1_pay5,
        k1_pay1 (k1_pay9 x0 x1 k1_pay4 k1_pay4) (k1_pay12 x2) (k1_pay13 x0 x1 k1_pay4) (constant (F := F) S8x256x512 .f32 0x00000000#32) k1_pay6) := by
  refine Prod.ext ?_ (Prod.ext ?_ (Prod.ext ?_ ?_))
  · rfl
  · exact afterFirst_1 c i arg2 harg2 arg3 harg3 arg4 harg4 arg5 harg5 arg6 harg6 arg7 harg7 arg8 harg8 x0 x1 x2 hc0 hc1 xo
  · exact afterFirst_2 c i arg2 harg2 arg3 harg3 arg4 harg4 arg5 harg5 arg6 harg6 arg7 harg7 arg8 harg8 x0 x1 x2 hc0 hc1 xo
  · exact afterFirst_3 c i arg2 harg2 arg3 harg3 arg4 harg4 arg5 harg5 arg6 harg6 arg7 harg7 arg8 harg8 x0 x1 x2 hc0 hc1 xo

end First

/-! ## The last key tile: fold, then divide -/

section Last
variable (c : Dev nD) (i : grid1.Coords) (arg2 : Memref sig .tc .vmem S8x256x512 .bf16) (harg2 : arg2.IsWhole) (arg3 : Memref sig .tc .vmem S8x256x512 .bf16) (harg3 : arg3.IsWhole) (arg4 : Memref sig .tc .vmem S8x256x512 .bf16) (harg4 : arg4.IsWhole) (arg5 : Memref sig .tc .vmem S8x256x512 .f32) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x256x512 .f32) (harg8 : arg8.IsWhole)
  (x0 x1 x2 : Vec F S8x256x512 .bf16) (xs0 xs1 : Vec F S8x256x1 .f32) (xs2 : Vec F S8x256x512 .f32) (hc0 : ¬condFirst i) (hc1 : condLast i)

theorem afterLast_0 : (afterLast c i arg2 harg2 arg3 harg3 arg4 harg4 arg5 harg5 arg6 harg6 arg7 harg7 arg8 harg8 x0 x1 x2 xs0 xs1 xs2 hc0 hc1).1
    = k1_pay3 (k1_pay1 (k1_pay9 x0 x1 xs0 xs0) (k1_pay12 x2) (k1_pay13 x0 x1 xs0) (constant (F := F) S8x256x512 .f32 0x00000000#32) xs2) (k1_pay11 x0 x1 xs0 xs0 xs1) := by
  unfold afterLast
  dsimp only
  rw [View.read_writes_eq_canon _ _ _ (coverLast3 c i arg2 harg2 arg3 harg3 arg4 harg4 arg5 harg5 arg6 harg6 arg7 harg7 arg8 harg8 x0 x1 x2 xs0 xs1 xs2 hc0 hc1)]
  unfold runLast
  dsimp only
  sl_unfold_words
  rw [View.canon_unit_zero hz3]
  simp only [View.readAt_eq_ld, Memref.IsWhole.read_unread, View.ld_unit_zero (S := S8x256x512) hz3, View.ld_unit_zero (S := S8x256x1) hz3,
    View.readCov_unit_zero (S := S8x256x1) _ hz3, View.readCov_unit_zero (S := S8x256x512) _ hz3]

theorem afterLast_1 : (afterLast c i arg2 harg2 arg3 harg3 arg4 harg4 arg5 harg5 arg6 harg6 arg7 harg7 arg8 harg8 x0 x1 x2 xs0 xs1 xs2 hc0 hc1).2.1 = k1_pay2 (k1_pay8 x0 x1 xs0) := by
  unfold afterLast
  dsimp only
  rw [View.read_writes_eq_canon _ _ _ (coverLast0 c i arg2 harg2 arg3 harg3 arg4 harg4 arg5 harg5 arg6 harg6 arg7 harg7 arg8 harg8 x0 x1 x2 xs0 xs1 xs2 hc0 hc1)]
  unfold runLast
  dsimp only
  sl_unfold_words
  rw [View.canon_unit_zero hz3]
  simp only [View.readAt_eq_ld, Memref.IsWhole.read_unread, View.ld_unit_zero (S := S8x256x512) hz3, View.ld_unit_zero (S := S8x256x1) hz3,
    View.readCov_unit_zero (S := S8x256x1) _ hz3, View.readCov_unit_zero (S := S8x256x512) _ hz3]

theorem afterLast_2 : (afterLast c i arg2 harg2 arg3 harg3 arg4 harg4 arg5 harg5 arg6 harg6 arg7 harg7 arg8 harg8 x0 x1 x2 xs0 xs1 xs2 hc0 hc1).2.2.1 = k1_pay11 x0 x1 xs0 xs0 xs1 := by
  unfold afterLast
  dsimp only
  rw [View.read_writes_eq_canon _ _ _ (coverLast1 c i arg2 harg2 arg3 harg3 arg4 harg4 arg5 harg5 arg6 harg6 arg7 harg7 arg8 harg8 x0 x1 x2 xs0 xs1 xs2 hc0 hc1)]
  unfold runLast
  dsimp only
  sl_unfold_words
  rw [View.canon_unit_zero hz3]
  simp only [View.readAt_eq_ld, Memref.IsWhole.read_unread, View.ld_unit_zero (S := S8x256x512) hz3, View.ld_unit_zero (S := S8x256x1) hz3,
    View.readCov_unit_zero (S := S8x256x1) _ hz3, View.readCov_unit_zero (S := S8x256x512) _ hz3]

theorem afterLast_3 : (afterLast c i arg2 harg2 arg3 harg3 arg4 harg4 arg5 harg5 arg6 harg6 arg7 harg7 arg8 harg8 x0 x1 x2 xs0 xs1 xs2 hc0 hc1).2.2.2
    = k1_pay1 (k1_pay9 x0 x1 xs0 xs0) (k1_pay12 x2) (k1_pay13 x0 x1 xs0) (constant (F := F) S8x256x512 .f32 0x00000000#32) xs2 := by
  unfold afterLast
  dsimp only
  rw [View.read_writes_eq_canon _ _ _ (coverLast2 c i arg2 harg2 arg3 harg3 arg4 harg4 arg5 harg5 arg6 harg6 arg7 harg7 arg8 harg8 x0 x1 x2 xs0 xs1 xs2 hc0 hc1)]
  unfold runLast
  dsimp only
  sl_unfold_words
  rw [View.canon_unit_zero hz3]
  simp only [View.readAt_eq_ld, Memref.IsWhole.read_unread, View.ld_unit_zero (S := S8x256x512) hz3, View.ld_unit_zero (S := S8x256x1) hz3,
    View.readCov_unit_zero (S := S8x256x1) _ hz3, View.readCov_unit_zero (S := S8x256x512) _ hz3]

theorem afterLast_eq : afterLast c i arg2 harg2 arg3 harg3 arg4 harg4 arg5 harg5 arg6 harg6 arg7 harg7 arg8 harg8 x0 x1 x2 xs0 xs1 xs2 hc0 hc1
    = (k1_pay3 (k1_pay1 (k1_pay9 x0 x1 xs0 xs0) (k1_pay12 x2) (k1_pay13 x0 x1 xs0) (constant (F := F) S8x256x512 .f32 0x00000000#32) xs2)
          (k1_pay11 x0 x1 xs0 xs0 xs1),
        k1_pay2 (k1_pay8 x0 x1 xs0), k1_pay11 x0 x1 xs0 xs0 xs1,
        k1_pay1 (k1_pay9 x0 x1 xs0 xs0) (k1_pay12 x2) (k1_pay13 x0 x1 xs0) (constant (F := F) S8x256x512 .f32 0x00000000#32) xs2) := by
  refine Prod.ext ?_ (Prod.ext ?_ (Prod.ext ?_ ?_))
  · exact afterLast_0 c i arg2 harg2 arg3 harg3 arg4 harg4 arg5 harg5 arg6 harg6 arg7 harg7 arg8 harg8 x0 x1 x2 xs0 xs1 xs2 hc0 hc1
  · exact afterLast_1 c i arg2 harg2 arg3 harg3 arg4 harg4 arg5 harg5 arg6 harg6 arg7 harg7 arg8 harg8 x0 x1 x2 xs0 xs1 xs2 hc0 hc1
  · exact afterLast_2 c i arg2 harg2 arg3 harg3 arg4 harg4 arg5 harg5 arg6 harg6 arg7 harg7 arg8 harg8 x0 x1 x2 xs0 xs1 xs2 hc0 hc1
  · exact afterLast_3 c i arg2 harg2 arg3 harg3 arg4 harg4 arg5 harg5 arg6 harg6 arg7 harg7 arg8 harg8 x0 x1 x2 xs0 xs1 xs2 hc0 hc1

end Last

end Cert.KernelIdeal.R1
end
-- ==== Proof.Spec.lean ====
/-
  The mathematics both programs compute, stated once over the extended reals and over literal index types,
  with no program imported.

  Single-head attention without scaling, the value being the input itself:
    q[b,s,o] = (Σ_h x[b,s,h] · Wq[o,h]) + bq[o],   k likewise with Wk, bk,
    score[b,i,j] = Σ_o q[b,i,o] · k[b,j,o],
    out[b,i,h] = Σ_j softmax_j(score[b,i,·]) · x[b,j,h],
  the softmax taken as jnp takes it: the row's maximum M subtracted, E_j = exp(score_j − M), L = Σ_j E_j, E_j / L.

  Beside it the streaming form of the same row: the keys visited in 8 tiles of 256, carrying a running maximum m,
  a running denominator l and a running numerator acc, each rescaled by exp(m_old − m_new) when the maximum moves,
  and the quotient acc / l taken once at the end.
-/
import Idealize.ShloMosaic.PureOps.Ideal
import Idealize.ShloMosaic.Lib.ValueIdx

noncomputable section

namespace Cert.Attn

open Idealize.ShloMosaic Idealize.ShloMosaic.ValueIdx

/-- The three array shapes of the arguments. -/
abbrev SX : Shape := ⟨3, ![8, 2048, 512]⟩
abbrev SW : Shape := ⟨2, ![512, 512]⟩
abbrev SB : Shape := ⟨1, ![512]⟩

/-- A linear projection of the input's rows: row (b, s) of x against row o of W, plus the bias at o. -/
def proj (x : SX.Idx → EReal) (W : SW.Idx → EReal) (bias : SB.Idx → EReal) (b : Fin 8) (s : Fin 2048) (o : Fin 512) : EReal :=
  (∑ h : Fin 512, x (ix3 b s h) * W (ix2 o h)) + bias (ix1 o)

/-- The unscaled score of query row i against key row j in batch b. -/
def score (q k : Fin 8 → Fin 2048 → Fin 512 → EReal) (b : Fin 8) (i j : Fin 2048) : EReal :=
  ∑ o : Fin 512, q b i o * k b j o

/-- The maximum of a finite family of extended reals, from −∞. -/
def rowMax {n : Nat} (s : Fin n → EReal) : EReal := (Finset.univ : Finset (Fin n)).fold max ⊥ s

/-- One softmax-weighted row sum, as jnp computes it: weights exp(s_j − M) / L with M the row's maximum (joined with −∞)
    and L the sum of the exponentials. -/
def softmaxRow (s v : Fin 2048 → EReal) : EReal :=
  ∑ j : Fin 2048, Ideal.div (Ideal.exp (s j - max ⊥ (rowMax s))) (∑ j' : Fin 2048, Ideal.exp (s j' - max ⊥ (rowMax s))) * v j

/-- The whole result: entry (b, i, h). -/
def attn (x : SX.Idx → EReal) (Wq : SW.Idx → EReal) (bq : SB.Idx → EReal) (Wk : SW.Idx → EReal) (bk : SB.Idx → EReal)
    (b : Fin 8) (i : Fin 2048) (h : Fin 512) : EReal :=
  softmaxRow (fun j => score (proj x Wq bq) (proj x Wk bk) b i j) (fun j => x (ix3 b j h))

/-- The whole result as an array. -/
def attnArr (x : SX.Idx → EReal) (Wq : SW.Idx → EReal) (bq : SB.Idx → EReal) (Wk : SW.Idx → EReal) (bk : SB.Idx → EReal) :
    SX.Idx → EReal := fun i => attn x Wq bq Wk bk (i 0) (i 1) (i 2)

/-! ## The streaming form -/

/-- The carried state of one query row: running maximum, running denominator, running numerator (at one feature). -/
abbrev St : Type := EReal × EReal × EReal

/-- One tile of 256 keys folded into the state: the maximum joined with the tile's, the old denominator and numerator
    rescaled by exp(m_old − m_new), the tile's exponentials (and their products with the values) added. -/
def flashStep (s v : Fin 256 → EReal) (st : St) : St :=
  (max st.1 (rowMax s),
   Ideal.exp (st.1 - max st.1 (rowMax s)) * st.2.1 + ∑ k : Fin 256, Ideal.exp (s k - max st.1 (rowMax s)),
   Ideal.exp (st.1 - max st.1 (rowMax s)) * st.2.2 + ∑ k : Fin 256, Ideal.exp (s k - max st.1 (rowMax s)) * v k)

/-- The state after the first n tiles, from (−∞, 0, 0). -/
def flashSt (s v : Nat → Fin 256 → EReal) : Nat → St
  | 0 => (⊥, 0, 0)
  | n + 1 => flashStep (s n) (v n) (flashSt s v n)

/-- Tile t of a row of 2048 keys: entries 256·t … 256·t + 255 (zero past the row's end, which no tile t < 8 reaches). -/
def tile (f : Fin 2048 → EReal) (t : Nat) (k : Fin 256) : EReal :=
  if h : 256 * t + k.val < 2048 then f ⟨256 * t + k.val, h⟩ else 0

/-- The streamed row: numerator over denominator after all 8 tiles. -/
def flashRow (s v : Nat → Fin 256 → EReal) : EReal :=
  Ideal.div (flashSt s v 8).2.2 (flashSt s v 8).2.1

end Cert.Attn

end
-- ==== Proof.FlashMath.lean ====
/-
  The streamed ("online") softmax row equals the plain softmax row, for finite real scores and values.

  Everything is reduced to the real numbers.  For a real shift m write
    L(m) = Σ_j exp(s_j − m),   A(m) = Σ_j exp(s_j − m) · v_j.
  Since exp(s_j − m) = exp(M − m) · exp(s_j − M), the quotient A(m) / L(m) does not depend on m.
  The plain softmax row is A(M) / L(M) with M the row's maximum; the streamed row, after all tiles, carries
  (m, L(m), A(m)) for some real m (the running maximum), so its quotient is A(m) / L(m): the same number.
  Which real number the running maximum is never matters, only that it is a real number.
-/
import proofs.«120501_j7026566496400_2_alg».proof.Proof.Spec
import Mathlib.Algebra.BigOperators.Fin
import Mathlib.Logic.Equiv.Fin.Basic

noncomputable section

namespace Cert.Attn

open Idealize.ShloMosaic Idealize.ShloMosaic.ValueIdx

/-! ## Coercions -/

/-- The coercion ℝ → EReal commutes with finite sums. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The coercion ℝ → EReal commutes with the binary maximum. -/
theorem coe_max (a b : ℝ) : ((max a b : ℝ) : EReal) = max (a : EReal) (b : EReal) :=
  EReal.coe_strictMono.monotone.map_max

/-- The maximum of a nonempty finite family of reals is attained: it is one of the family's members,
    in particular a real number. -/
theorem rowMax_coe {n : Nat} [NeZero n] (s : Fin n → ℝ) :
    ∃ i : Fin n, rowMax (fun j => (s j : EReal)) = (s i : EReal) := by
  obtain ⟨i, -, hi⟩ := Finset.exists_mem_eq_sup (Finset.univ : Finset (Fin n)) Finset.univ_nonempty
    (fun j => (s j : EReal))
  exact ⟨i, hi⟩

/-- Moving the shift: exp(a − b) · exp(x − a) = exp(x − b). -/
theorem exp_shift (a b x : ℝ) : Real.exp (a - b) * Real.exp (x - a) = Real.exp (x - b) := by
  rw [← Real.exp_add]; congr 1; ring

/-! ## One step of the stream on real data -/

/-- The first tile, from the empty state (−∞, 0, 0): exp(−∞ − m) = 0 kills the (zero) carried sums. -/
theorem flashStep_bot (s v : Fin 256 → ℝ) :
    ∃ m : ℝ, flashStep (fun k => (s k : EReal)) (fun k => (v k : EReal)) (⊥, 0, 0)
      = ((m : EReal), ((∑ k, Real.exp (s k - m) : ℝ) : EReal),
          ((∑ k, Real.exp (s k - m) * v k : ℝ) : EReal)) := by
  obtain ⟨i, hi⟩ := rowMax_coe s
  refine ⟨s i, ?_⟩
  simp only [flashStep, hi]
  rw [max_eq_right bot_le, EReal.bot_sub, Ideal.exp_bot, mul_zero, zero_add, zero_add]
  simp only [← EReal.coe_sub, Ideal.exp_coe, ← EReal.coe_mul, ← coe_finset_sum]

/-- A later tile, from a real state (m, l, a). -/
theorem flashStep_coe (s v : Fin 256 → ℝ) (m l a : ℝ) :
    ∃ m' : ℝ, flashStep (fun k => (s k : EReal)) (fun k => (v k : EReal)) ((m : EReal), (l : EReal), (a : EReal))
      = ((m' : EReal), ((Real.exp (m - m') * l + ∑ k, Real.exp (s k - m') : ℝ) : EReal),
          ((Real.exp (m - m') * a + ∑ k, Real.exp (s k - m') * v k : ℝ) : EReal)) := by
  obtain ⟨i, hi⟩ := rowMax_coe s
  refine ⟨max m (s i), ?_⟩
  simp only [flashStep, hi, ← coe_max, ← EReal.coe_sub, Ideal.exp_coe, ← EReal.coe_mul, ← coe_finset_sum,
    ← EReal.coe_add]

/-! ## The state after n + 1 tiles -/

/-- After n + 1 tiles of real data the state is (m, Σ exp(s − m), Σ exp(s − m) · v) over the keys seen so far,
    for some real m. -/
theorem flashSt_coe (s v : Nat → Fin 256 → ℝ) (n : Nat) :
    ∃ m : ℝ, flashSt (fun t k => (s t k : EReal)) (fun t k => (v t k : EReal)) (n + 1)
      = ((m : EReal), ((∑ t ∈ Finset.range (n + 1), ∑ k, Real.exp (s t k - m) : ℝ) : EReal),
          ((∑ t ∈ Finset.range (n + 1), ∑ k, Real.exp (s t k - m) * v t k : ℝ) : EReal)) := by
  induction n with
  | zero =>
    obtain ⟨m, hm⟩ := flashStep_bot (s 0) (v 0)
    refine ⟨m, ?_⟩
    show flashStep _ _ (⊥, 0, 0) = _
    rw [hm, Finset.sum_range_one, Finset.sum_range_one]
  | succ n ih =>
    obtain ⟨m, hm⟩ := ih
    obtain ⟨m', hm'⟩ := flashStep_coe (s (n + 1)) (v (n + 1)) m
      (∑ t ∈ Finset.range (n + 1), ∑ k, Real.exp (s t k - m))
      (∑ t ∈ Finset.range (n + 1), ∑ k, Real.exp (s t k - m) * v t k)
    refine ⟨m', ?_⟩
    show flashStep _ _ (flashSt _ _ (n + 1)) = _
    rw [hm, hm', Finset.sum_range_succ _ (n + 1), Finset.sum_range_succ _ (n + 1)]
    have h1 : Real.exp (m - m') * ∑ t ∈ Finset.range (n + 1), ∑ k, Real.exp (s t k - m)
        = ∑ t ∈ Finset.range (n + 1), ∑ k, Real.exp (s t k - m') := by
      rw [Finset.mul_sum]
      refine Finset.sum_congr rfl fun t _ => ?_
      rw [Finset.mul_sum]
      exact Finset.sum_congr rfl fun k _ => exp_shift _ _ _
    have h2 : Real.exp (m - m') * ∑ t ∈ Finset.range (n + 1), ∑ k, Real.exp (s t k - m) * v t k
        = ∑ t ∈ Finset.range (n + 1), ∑ k, Real.exp (s t k - m') * v t k := by
      rw [Finset.mul_sum]
      refine Finset.sum_congr rfl fun t _ => ?_
      rw [Finset.mul_sum]
      refine Finset.sum_congr rfl fun k _ => ?_
      rw [← mul_assoc, exp_shift]
    rw [h1, h2]

/-! ## Tiles of a real row -/

/-- Tile t of a real row. -/
def tileR (f : Fin 2048 → ℝ) (t : Nat) (k : Fin 256) : ℝ :=
  if h : 256 * t + k.val < 2048 then f ⟨256 * t + k.val, h⟩ else 0

theorem tile_coe (f : Fin 2048 → ℝ) : tile (fun j => (f j : EReal)) = fun t k => (tileR f t k : EReal) := by
  funext t k
  unfold tile tileR
  split_ifs <;> simp

/-- Summing over 8 tiles of 256 is summing over the 2048 keys: j = 256 · t + k. -/
theorem sum_tiles (F : Fin 2048 → ℝ) (F' : Nat → Fin 256 → ℝ)
    (hF : ∀ (t : Nat) (k : Fin 256) (h : 256 * t + k.val < 2048), F' t k = F ⟨256 * t + k.val, h⟩) :
    ∑ t ∈ Finset.range 8, ∑ k, F' t k = ∑ j, F j := by
  have h1 : ∑ j, F j = ∑ p : Fin 8 × Fin 256, F (finProdFinEquiv p) :=
    (Equiv.sum_comp (finProdFinEquiv : Fin 8 × Fin 256 ≃ Fin (8 * 256)) F).symm
  rw [h1, Fintype.sum_prod_type, Finset.sum_range]
  refine Finset.sum_congr rfl fun t _ => Finset.sum_congr rfl fun k _ => ?_
  have hlt : 256 * t.val + k.val < 2048 := by have := t.isLt; have := k.isLt; omega
  rw [hF t.val k hlt]
  congr 1
  apply Fin.ext
  rw [finProdFinEquiv_apply_val]
  exact Nat.add_comm _ _

/-! ## The two sums and the shift -/

/-- L(m) = Σ_j exp(s_j − m). -/
def lsum (s : Fin 2048 → ℝ) (m : ℝ) : ℝ := ∑ j, Real.exp (s j - m)

/-- A(m) = Σ_j exp(s_j − m) · v_j. -/
def asum (s v : Fin 2048 → ℝ) (m : ℝ) : ℝ := ∑ j, Real.exp (s j - m) * v j

theorem lsum_pos (s : Fin 2048 → ℝ) (m : ℝ) : 0 < lsum s m :=
  Finset.sum_pos (fun _ _ => Real.exp_pos _) Finset.univ_nonempty

theorem lsum_shift (s : Fin 2048 → ℝ) (m M : ℝ) : lsum s m = Real.exp (M - m) * lsum s M := by
  unfold lsum
  rw [Finset.mul_sum]
  exact Finset.sum_congr rfl fun j _ => (exp_shift _ _ _).symm

theorem asum_shift (s v : Fin 2048 → ℝ) (m M : ℝ) : asum s v m = Real.exp (M - m) * asum s v M := by
  unfold asum
  rw [Finset.mul_sum]
  refine Finset.sum_congr rfl fun j _ => ?_
  rw [← mul_assoc, exp_shift]

/-- The quotient A / L does not depend on the shift. -/
theorem quot_shift (s v : Fin 2048 → ℝ) (m M : ℝ) : asum s v m / lsum s m = asum s v M / lsum s M := by
  rw [lsum_shift s m M, asum_shift s v m M, mul_div_mul_left _ _ (Real.exp_pos _).ne']

/-! ## Both rows as real quotients -/

theorem flashRow_coe (s v : Fin 2048 → ℝ) :
    ∃ m : ℝ, flashRow (tile fun j => (s j : EReal)) (tile fun j => (v j : EReal))
      = ((asum s v m / lsum s m : ℝ) : EReal) := by
  obtain ⟨m, hm⟩ := flashSt_coe (tileR s) (tileR v) 7
  refine ⟨m, ?_⟩
  have hm' : flashSt (fun t k => (tileR s t k : EReal)) (fun t k => (tileR v t k : EReal)) 8
      = ((m : EReal), ((lsum s m : ℝ) : EReal), ((asum s v m : ℝ) : EReal)) := by
    refine hm.trans ?_
    have hl : ∑ t ∈ Finset.range 8, ∑ k, Real.exp (tileR s t k - m) = lsum s m :=
      sum_tiles (fun j => Real.exp (s j - m)) _ (fun t k h => by simp only [tileR, dif_pos h])
    have ha : ∑ t ∈ Finset.range 8, ∑ k, Real.exp (tileR s t k - m) * tileR v t k = asum s v m :=
      sum_tiles (fun j => Real.exp (s j - m) * v j) _ (fun t k h => by simp only [tileR, dif_pos h])
    show ((m : EReal), ((∑ t ∈ Finset.range 8, ∑ k, Real.exp (tileR s t k - m) : ℝ) : EReal),
      ((∑ t ∈ Finset.range 8, ∑ k, Real.exp (tileR s t k - m) * tileR v t k : ℝ) : EReal)) = _
    rw [hl, ha]
  rw [flashRow, tile_coe, tile_coe, hm']
  show Ideal.div ((asum s v m : ℝ) : EReal) ((lsum s m : ℝ) : EReal) = _
  rw [Ideal.div_coe (lsum_pos s m).ne', ← EReal.coe_mul, mul_one_div]

theorem softmaxRow_coe (s v : Fin 2048 → ℝ) :
    ∃ M : ℝ, softmaxRow (fun j => (s j : EReal)) (fun j => (v j : EReal))
      = ((asum s v M / lsum s M : ℝ) : EReal) := by
  obtain ⟨i, hi⟩ := rowMax_coe s
  refine ⟨s i, ?_⟩
  unfold softmaxRow
  rw [hi, max_eq_right bot_le]
  simp only [← EReal.coe_sub, Ideal.exp_coe, ← coe_finset_sum]
  show ∑ j, Ideal.div ((Real.exp (s j - s i) : ℝ) : EReal) ((lsum s (s i) : ℝ) : EReal) * ((v j : ℝ) : EReal) = _
  simp only [Ideal.div_coe (lsum_pos s (s i)).ne', ← EReal.coe_mul, ← coe_finset_sum]
  refine congrArg Real.toEReal ?_
  unfold asum
  rw [Finset.sum_div]
  refine Finset.sum_congr rfl fun j _ => ?_
  ring

/-- The streamed row is the softmax row. -/
theorem flashRow_eq_softmaxRow (s v : Fin 2048 → ℝ) :
    flashRow (tile fun j => ((s j : ℝ) : EReal)) (tile fun j => ((v j : ℝ) : EReal))
      = softmaxRow (fun j => ((s j : ℝ) : EReal)) (fun j => ((v j : ℝ) : EReal)) := by
  obtain ⟨m, hm⟩ := flashRow_coe s v
  obtain ⟨M, hM⟩ := softmaxRow_coe s v
  rw [hm, hM, quot_shift s v m M]

/-! ## The scores of real inputs are real -/

/-- With real-valued inputs every score is a real number: sums and products of reals are reals. -/
theorem score_real (x : SX.Idx → EReal) (Wq : SW.Idx → EReal) (bq : SB.Idx → EReal)
    (Wk : SW.Idx → EReal) (bk : SB.Idx → EReal)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 8) (i : Fin 2048) :
    ∃ s' : Fin 2048 → ℝ, ∀ j, score (proj x Wq bq) (proj x Wk bk) b i j = ((s' j : ℝ) : EReal) := by
  choose xr hxr using hx
  choose Wqr hWqr using hWq
  choose bqr hbqr using hbq
  choose Wkr hWkr using hWk
  choose bkr hbkr using hbk
  refine ⟨fun j => ∑ o : Fin 512,
      ((∑ h : Fin 512, xr (ix3 b i h) * Wqr (ix2 o h)) + bqr (ix1 o))
        * ((∑ h : Fin 512, xr (ix3 b j h) * Wkr (ix2 o h)) + bkr (ix1 o)), fun j => ?_⟩
  simp only [score, proj, hxr, hWqr, hbqr, hWkr, hbkr, ← EReal.coe_mul, ← coe_finset_sum, ← EReal.coe_add]

/-- The reference row, on real-valued inputs, is the streamed row over the same scores and values. -/
theorem attn_eq_flash (x : SX.Idx → EReal) (Wq : SW.Idx → EReal) (bq : SB.Idx → EReal)
    (Wk : SW.Idx → EReal) (bk : SB.Idx → EReal)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 8) (i : Fin 2048) (h : Fin 512) :
    attn x Wq bq Wk bk b i h
      = flashRow (tile fun j => score (proj x Wq bq) (proj x Wk bk) b i j) (tile fun j => x (ix3 b j h)) := by
  obtain ⟨s', hs'⟩ := score_real x Wq bq Wk bk hx hWq hbq hWk hbk b i
  choose xr hxr using hx
  have hs : (fun j => score (proj x Wq bq) (proj x Wk bk) b i j) = fun j => ((s' j : ℝ) : EReal) := funext hs'
  have hv : (fun j => x (ix3 b j h)) = fun j => ((xr (ix3 b j h) : ℝ) : EReal) := funext fun j => hxr _
  unfold attn
  rw [hs, hv]
  exact (flashRow_eq_softmaxRow s' fun j => xr (ix3 b j h)).symm

end Cert.Attn

end
-- ==== Proof.KernelIdealR1Payload.lean ====
/-
  The second program's arithmetic, at the extended reals, read at one index.

  One grid point of the streamed attention handles a tile of 256 query rows against a tile of 256 keys, in each of
  the 8 batches.  Writing, for query row (b, r), sc_j = Σ_o q[b,r,o] · k[b,j,o] for the tile's scores, the values it
  computes are, entry by entry,
    new maximum      m' = max(m, max_j sc_j),
    new denominator  exp(m − m') · l + Σ_j exp(sc_j − m'),
    new numerator    exp(m − m') · a[h] + Σ_j exp(sc_j − m') · v[b,j,h],
  that is, the three components of one step of the streamed softmax row, and at the last tile the quotient
  numerator / denominator; at the first tile the three carried arrays are reset to −∞, 0, 0.

  Each array-level operation is read at an index: a contraction as the sum over its one contracted coordinate, a
  reduction over the key axis as the fold (of max from −∞, or of + from 0) over that coordinate, a cast
  [8,256] → [8,256,1] and the broadcasts [8,256,1] → [8,256,256] / [8,256,512] as reading row (b, r)'s one entry,
  and a change of float format as the identity.
-/
import proofs.«120501_j7026566496400_2_alg».proof.Proof.Gen.KernelIdeal.Skeleton
import proofs.«120501_j7026566496400_2_alg».proof.Proof.FlashMath
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R1V

open Cert.KernelIdeal Cert.KernelIdeal.Gen Idealize.ShloMosaic ValueIdx

/-- The scores' contraction: query rows against key rows over the 512 features, batch by batch. -/
abbrev D1 := dot_S8x256x512_S8x256x512_S8x256x256_2_2_1_1_0_0
/-- The weights-times-values contraction: over the tile's 256 keys, batch by batch. -/
abbrev D2 := dot_S8x256x256_S8x256x512_S8x256x512_2_1_1_2_0_0

/-! ## The first product's operand indices -/

theorem d1_lhs_0 (i : S8x256x256.Idx) (q : D1.contr.Idx) : (D1.lhsIdx i q 0).val = (i 0).val := by
  unfold DotDims.lhsIdx
  rw [dif_pos (show (0 : Fin S8x256x512.rank) ∈ D1.lhsBatch by decide)]
  rfl
theorem d1_lhs_1 (i : S8x256x256.Idx) (q : D1.contr.Idx) : (D1.lhsIdx i q 1).val = (i 1).val := by
  unfold DotDims.lhsIdx
  rw [dif_neg (show ¬(1 : Fin S8x256x512.rank) ∈ D1.lhsBatch by decide),
    dif_pos (show (1 : Fin S8x256x512.rank) ∈ D1.lhsNonContracting by decide)]
  rfl
theorem d1_lhs_2 (i : S8x256x256.Idx) (q : D1.contr.Idx) : (D1.lhsIdx i q 2).val = (q ⟨0, by decide⟩).val :=
  D1.lhsIdx_val_of_single rfl i q
theorem d1_rhs_0 (i : S8x256x256.Idx) (q : D1.contr.Idx) : (D1.rhsIdx i q 0).val = (i 0).val := by
  unfold DotDims.rhsIdx
  rw [dif_pos (show (0 : Fin S8x256x512.rank) ∈ D1.rhsBatch by decide)]
  rfl
theorem d1_rhs_1 (i : S8x256x256.Idx) (q : D1.contr.Idx) : (D1.rhsIdx i q 1).val = (i 2).val := by
  unfold DotDims.rhsIdx
  rw [dif_neg (show ¬(1 : Fin S8x256x512.rank) ∈ D1.rhsBatch by decide),
    dif_pos (show (1 : Fin S8x256x512.rank) ∈ D1.rhsNonContracting by decide)]
  rfl
theorem d1_rhs_2 (i : S8x256x256.Idx) (q : D1.contr.Idx) : (D1.rhsIdx i q 2).val = (q ⟨0, by decide⟩).val :=
  D1.rhsIdx_val_of_single rfl i q

/-- The score of query row (b, r) against key j of the tile: the sum over the features. -/
theorem pay7_apply (q k : Vec Ideal S8x256x512 .bf16) (b : Fin 8) (r j : Fin 256) :
    k1_pay7 q k (ix3 b r j) = ∑ o : Fin 512, q (ix3 b r o) * k (ix3 b j o) := by
  unfold k1_pay7
  rw [shapeCast_self, shapeCast_self]
  refine (Ideal.matmul_constant_zero_apply (φ₁ := .bf16) (φ₂ := .bf16) D1 none q k (ix3 b r j)).trans ?_
  rw [← Equiv.sum_comp (contrEquiv1 D1 512 rfl rfl).symm]
  refine Finset.sum_congr rfl fun o _ => ?_
  have ho := contrEquiv1_symm_val D1 512 rfl rfl o
  have el : D1.lhsIdx (ix3 b r j) ((contrEquiv1 D1 512 rfl rfl).symm o) = ix3 b r o := funext fun a => Fin.ext (by
    match a with
    | ⟨0, _⟩ => exact d1_lhs_0 _ _
    | ⟨1, _⟩ => exact d1_lhs_1 _ _
    | ⟨2, _⟩ => exact (d1_lhs_2 _ _).trans ho)
  have er : D1.rhsIdx (ix3 b r j) ((contrEquiv1 D1 512 rfl rfl).symm o) = ix3 b j o := funext fun a => Fin.ext (by
    match a with
    | ⟨0, _⟩ => exact d1_rhs_0 _ _
    | ⟨1, _⟩ => exact d1_rhs_1 _ _
    | ⟨2, _⟩ => exact (d1_rhs_2 _ _).trans ho)
  rw [el, er]

/-! ## The layout operations of this kernel read at an index -/

section Layout
variable {α : Type}

/-- An `[a, b]` array cast to `[a, b, 1]` reads, at `(i, j, u)`, the operand at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-- The word 0xFF800000 is −∞. -/
theorem ofBits_negInf : Ideal.ofBits .f32 0xFF800000#32 = (⊥ : EReal) := by
  simp [Ideal.ofBits, Ideal.ieee]

/-- A row index (b, r) with the key coordinate put back on the reduced axis is (b, r, j). -/
theorem lift_ix2 (h : S8x256x256.Reduces [2] S8x256) (b : Fin 8) (r : Fin 256) (j : Fin (S8x256x256.size 2)) :
    h.lift (ix2 b r) j = ix3 b r (⟨j.val, j.isLt⟩ : Fin 256) := by
  funext c; apply Fin.ext
  match c with
  | ⟨0, _⟩ => rfl
  | ⟨1, _⟩ => rfl
  | ⟨2, _⟩ => rfl

/-- The tile's scores of query row (b, r): against each of the tile's 256 keys. -/
def sc (q k : Vec Ideal S8x256x512 .bf16) (b : Fin 8) (r : Fin 256) : Fin 256 → EReal :=
  fun j => ∑ o : Fin 512, q (ix3 b r o) * k (ix3 b j o)

theorem pay7_eq_sc (q k : Vec Ideal S8x256x512 .bf16) (b : Fin 8) (r j : Fin 256) :
    k1_pay7 q k (ix3 b r j) = sc q k b r j := pay7_apply q k b r j

/-- The maximum over the key axis from the word of −∞, at row (b, r), is the row's maximum from −∞. -/
theorem rowMax_apply (y : FVec Ideal S8x256x256 .f32) (b : Fin 8) (r : Fin 256) :
    multiReduction .maximumf [2] S8x256 y 0xFF800000#32 reduces_S8x256x256_S8x256 (.inl rfl) rfl (ix2 b r)
      = Cert.Attn.rowMax (fun j : Fin 256 => y (ix3 b r j)) := by
  refine (Ideal.multiReduction_maximumf_single y 0xFF800000#32 reduces_S8x256x256_S8x256 (.inl rfl) rfl (ix2 b r)).trans ?_
  rw [Ideal.ofBits_def, ofBits_negInf]
  unfold Cert.Attn.rowMax
  have hf : (y ∘ reduces_S8x256x256_S8x256.lift (ix2 b r)) = fun j : Fin 256 => y (ix3 b r j) :=
    funext fun j => congrArg y (lift_ix2 _ b r j)
  exact congrArg (fun f => Finset.fold max (⊥ : EReal) f (Finset.univ : Finset (Fin 256))) hf

/-- The new running maximum at row (b, r): the old one joined with the tile's row maximum. -/
theorem pay8_apply (q k : Vec Ideal S8x256x512 .bf16) (m0 : Vec Ideal S8x256x1 .f32) (b : Fin 8) (r : Fin 256) (u : Fin 1) :
    k1_pay8 q k m0 (ix3 b r u) = max (m0 (ix3 b r u)) (Cert.Attn.rowMax (sc q k b r)) := by
  unfold k1_pay8
  rw [maximumf_apply, shapeCast_ab_ab1_apply, rowMax_apply]
  exact congrArg (fun f => max (m0 (ix3 b r u)) (Cert.Attn.rowMax f)) (funext fun j => pay7_apply q k b r j)

/-! ## The payloads read at an index -/

section Payloads
variable (q k v : Vec Ideal S8x256x512 .bf16) (m0 l0 : Vec Ideal S8x256x1 .f32) (a0 : Vec Ideal S8x256x512 .f32)
  (b : Fin 8) (r : Fin 256) (h : Fin 512)

/-- The rescaling factor of row (b, r): exp(m_old − m_new). -/
theorem pay9_apply (m1 : Vec Ideal S8x256x1 .f32) (u : Fin 1) :
    k1_pay9 q k m0 m1 (ix3 b r u)
      = Ideal.exp (m1 (ix3 b r u) - max (m0 (ix3 b r u)) (Cert.Attn.rowMax (sc q k b r))) := by
  unfold k1_pay9
  show Ideal.exp (subf m1 (k1_pay8 q k m0) (ix3 b r u)) = _
  rw [subf_apply, pay8_apply]

/-- The tile's exponentials at (b, r, j): exp(score − m_new). -/
theorem pay10_apply (j : Fin 256) :
    k1_pay10 q k m0 (ix3 b r j)
      = Ideal.exp (sc q k b r j - max (m0 (ix3 b r (0 : Fin 1))) (Cert.Attn.rowMax (sc q k b r))) := by
  unfold k1_pay10
  show Ideal.exp (subf (k1_pay7 q k) (broadcastTo S8x256x256 (k1_pay8 q k m0) broadcasts_S8x256x1_S8x256x256) (ix3 b r j)) = _
  rw [subf_apply, broadcastTo_ab1_abc_apply, pay8_apply, pay7_apply]
  rfl

/-- The rounding of the exponentials to bf16 is the identity on extended reals. -/
theorem pay13_apply (j : Fin 256) :
    k1_pay13 q k m0 (ix3 b r j)
      = Ideal.exp (sc q k b r j - max (m0 (ix3 b r (0 : Fin 1))) (Cert.Attn.rowMax (sc q k b r))) := by
  unfold k1_pay13
  rw [truncf_apply, pay10_apply]

/-- The value tile passes through its same-shape cast. -/
theorem pay12_eq : k1_pay12 v = v := by
  unfold k1_pay12
  exact shapeCast_self v _

end Payloads

/-! ## The second product's operand indices -/

theorem d2_lhs_0 (i : S8x256x512.Idx) (p : D2.contr.Idx) : (D2.lhsIdx i p 0).val = (i 0).val := by
  unfold DotDims.lhsIdx
  rw [dif_pos (show (0 : Fin S8x256x256.rank) ∈ D2.lhsBatch by decide)]
  rfl
theorem d2_lhs_1 (i : S8x256x512.Idx) (p : D2.contr.Idx) : (D2.lhsIdx i p 1).val = (i 1).val := by
  unfold DotDims.lhsIdx
  rw [dif_neg (show ¬(1 : Fin S8x256x256.rank) ∈ D2.lhsBatch by decide),
    dif_pos (show (1 : Fin S8x256x256.rank) ∈ D2.lhsNonContracting by decide)]
  rfl
theorem d2_lhs_2 (i : S8x256x512.Idx) (p : D2.contr.Idx) : (D2.lhsIdx i p 2).val = (p ⟨0, by decide⟩).val :=
  D2.lhsIdx_val_of_single rfl i p
theorem d2_rhs_0 (i : S8x256x512.Idx) (p : D2.contr.Idx) : (D2.rhsIdx i p 0).val = (i 0).val := by
  unfold DotDims.rhsIdx
  rw [dif_pos (show (0 : Fin S8x256x512.rank) ∈ D2.rhsBatch by decide)]
  rfl
theorem d2_rhs_1 (i : S8x256x512.Idx) (p : D2.contr.Idx) : (D2.rhsIdx i p 1).val = (p ⟨0, by decide⟩).val :=
  D2.rhsIdx_val_of_single rfl i p
theorem d2_rhs_2 (i : S8x256x512.Idx) (p : D2.contr.Idx) : (D2.rhsIdx i p 2).val = (i 2).val := by
  unfold DotDims.rhsIdx
  rw [dif_neg (show ¬(2 : Fin S8x256x512.rank) ∈ D2.rhsBatch by decide),
    dif_pos (show (2 : Fin S8x256x512.rank) ∈ D2.rhsNonContracting by decide)]
  rfl

/-- The weights-times-values product into the zero accumulator, at (b, r, h): the sum over the tile's keys. -/
theorem pv_apply (p : FVec Ideal S8x256x256 .bf16) (w : FVec Ideal S8x256x512 .bf16) (b : Fin 8) (r : Fin 256) (h : Fin 512) :
    matmul D2 none p w (constant (F := Ideal) S8x256x512 .f32 0x00000000#32) (ix3 b r h)
      = ∑ j : Fin 256, p (ix3 b r j) * w (ix3 b j h) := by
  refine (Ideal.matmul_constant_zero_apply (φ₁ := .bf16) (φ₂ := .bf16) D2 none p w (ix3 b r h)).trans ?_
  rw [← Equiv.sum_comp (contrEquiv1 D2 256 rfl rfl).symm]
  refine Finset.sum_congr rfl fun j _ => ?_
  have hj := contrEquiv1_symm_val D2 256 rfl rfl j
  have el : D2.lhsIdx (ix3 b r h) ((contrEquiv1 D2 256 rfl rfl).symm j) = ix3 b r j := funext fun a => Fin.ext (by
    match a with
    | ⟨0, _⟩ => exact d2_lhs_0 _ _
    | ⟨1, _⟩ => exact d2_lhs_1 _ _
    | ⟨2, _⟩ => exact (d2_lhs_2 _ _).trans hj)
  have er : D2.rhsIdx (ix3 b r h) ((contrEquiv1 D2 256 rfl rfl).symm j) = ix3 b j h := funext fun a => Fin.ext (by
    match a with
    | ⟨0, _⟩ => exact d2_rhs_0 _ _
    | ⟨1, _⟩ => exact (d2_rhs_1 _ _).trans hj
    | ⟨2, _⟩ => exact d2_rhs_2 _ _)
  rw [el, er]

/-- The sum over the key axis from the zero word, at row (b, r). -/
theorem rowSum_apply (y : FVec Ideal S8x256x256 .f32) (b : Fin 8) (r : Fin 256) :
    multiReduction .add [2] S8x256 y 0x00000000#32 reduces_S8x256x256_S8x256 (.inl rfl) rfl (ix2 b r)
      = ∑ j : Fin 256, y (ix3 b r j) := by
  refine (Ideal.multiReduction_add_single y 0x00000000#32 reduces_S8x256x256_S8x256 (.inl rfl) rfl (ix2 b r)).trans ?_
  exact Finset.sum_congr rfl fun j _ => congrArg y (lift_ix2 _ b r j)

section Results
variable (q k v : Vec Ideal S8x256x512 .bf16) (m0 l0 : Vec Ideal S8x256x1 .f32) (a0 : Vec Ideal S8x256x512 .f32)
  (b : Fin 8) (r : Fin 256) (h : Fin 512)

/-- (a) The maximum the kernel stores is the streamed step's new maximum. -/
theorem newMax_apply :
    k1_pay2 (k1_pay8 q k m0) (ix3 b r (0 : Fin 1))
      = (Cert.Attn.flashStep (sc q k b r) (fun j => v (ix3 b j h))
          (m0 (ix3 b r (0 : Fin 1)), l0 (ix3 b r (0 : Fin 1)), a0 (ix3 b r h))).1 := by
  unfold k1_pay2
  rw [shapeCast_self, pay8_apply]
  rfl

/-- (b) The denominator the kernel stores is the streamed step's new denominator. -/
theorem newDen_apply :
    k1_pay11 q k m0 m0 l0 (ix3 b r (0 : Fin 1))
      = (Cert.Attn.flashStep (sc q k b r) (fun j => v (ix3 b j h))
          (m0 (ix3 b r (0 : Fin 1)), l0 (ix3 b r (0 : Fin 1)), a0 (ix3 b r h))).2.1 := by
  unfold k1_pay11
  rw [shapeCast_self, addf_apply, mulf_apply, pay9_apply, shapeCast_ab_ab1_apply, rowSum_apply]
  simp only [pay10_apply]
  rfl

/-- (c) The numerator the kernel stores is the streamed step's new numerator. -/
theorem newNum_apply :
    k1_pay1 (k1_pay9 q k m0 m0) (k1_pay12 v) (k1_pay13 q k m0) (constant (F := Ideal) S8x256x512 .f32 0x00000000#32) a0 (ix3 b r h)
      = (Cert.Attn.flashStep (sc q k b r) (fun j => v (ix3 b j h))
          (m0 (ix3 b r (0 : Fin 1)), l0 (ix3 b r (0 : Fin 1)), a0 (ix3 b r h))).2.2 := by
  unfold k1_pay1
  rw [shapeCast_self, addf_apply, mulf_apply, broadcastTo_ab1_abc_apply, pay9_apply, pay12_eq, pv_apply]
  simp only [pay13_apply]
  rfl

/-- (d) The final quotient at (b, r, h): the numerator there over the row's denominator. -/
theorem quot_apply (acc : Vec Ideal S8x256x512 .f32) (l : Vec Ideal S8x256x1 .f32) :
    k1_pay3 acc l (ix3 b r h) = Ideal.div (acc (ix3 b r h)) (l (ix3 b r (0 : Fin 1))) := by
  unfold k1_pay3
  rw [divf_apply, broadcastTo_ab1_abc_apply]

end Results

/-! ## (e) The resets -/

theorem pay4_apply (i : S8x256x1.Idx) : k1_pay4 (F := Ideal) i = (⊥ : EReal) := by
  unfold k1_pay4
  rw [shapeCast_self]
  exact ofBits_negInf

theorem pay5_apply (i : S8x256x1.Idx) : k1_pay5 (F := Ideal) i = (0 : EReal) := by
  unfold k1_pay5
  rw [shapeCast_self]
  exact Ideal.ofBits_zero_f32

theorem pay6_apply (i : S8x256x512.Idx) : k1_pay6 (F := Ideal) i = (0 : EReal) := by
  unfold k1_pay6
  rw [shapeCast_self]
  exact Ideal.ofBits_zero_f32

end Cert.KernelIdeal.R1V
end
-- ==== Proof.FlashArr.lean ====
/-
  The streamed attention as one array: entry (b, i, h) is the streamed row of query row i of batch b against all keys,
  the scores taken against the key array and the values from the value array, feature h.
-/
import proofs.«120501_j7026566496400_2_alg».proof.Proof.Spec

noncomputable section

namespace Cert.Attn

open Idealize.ShloMosaic Idealize.ShloMosaic.ValueIdx

/-- Streamed attention of a query array Q, a key array K and a value array W, all [8, 2048, 512]. -/
def flashArr (Q K W : SX.Idx → EReal) : SX.Idx → EReal := fun i =>
  flashRow (tile fun j => ∑ o : Fin 512, Q (ix3 (i 0) (i 1) o) * K (ix3 (i 0) j o)) (tile fun j => W (ix3 (i 0) j (i 2)))

theorem flashArr_apply (Q K W : SX.Idx → EReal) (b : Fin 8) (i : Fin 2048) (h : Fin 512) :
    flashArr Q K W (ix3 b i h) = flashRow (tile fun j => ∑ o : Fin 512, Q (ix3 b i o) * K (ix3 b j o)) (tile fun j => W (ix3 b j h)) := rfl

end Cert.Attn

end
-- ==== Proof.KernelIdealR1Value.lean ====
import proofs.«120501_j7026566496400_2_alg».proof.Proof.KernelIdealR1
import proofs.«120501_j7026566496400_2_alg».proof.Proof.KernelIdealR1Pieces
import proofs.«120501_j7026566496400_2_alg».proof.Proof.KernelIdealR1Payload
import proofs.«120501_j7026566496400_2_alg».proof.Proof.Spec
import proofs.«120501_j7026566496400_2_alg».proof.Proof.FlashArr
import Idealize.ShloMosaic.Lib.Pipeline.Value
import Idealize.ShloMosaic.Lib.ValueIdx
import Idealize.ShloMosaic.Lib.ValueLayout
import Idealize.ShloMosaic.PureOps.Ideal.Laws

/-! # What the attention kernel's pipeline leaves in its output array, over the extended reals

The grid is 8 query tiles of 256 rows by 8 key tiles of 256 rows, the key tile moving fastest: point
`t` works on query tile `t / 8` and key tile `t % 8`. For each query row the kernel carries a running
maximum, a running denominator and a running numerator across the 8 key tiles of that row, starting
afresh at the first key tile and writing numerator over denominator into the output block at the
last. This module shows that after point `t` the carried triple of a row is the streamed state after
`t % 8 + 1` tiles of that row's scores and values, and concludes that the output array ends holding
the streamed attention row at every index. -/

set_option maxRecDepth 16384

noncomputable section

namespace Cert.KernelIdeal.R1

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The windows' blocks as rows of the arrays -/

/-- The printed index maps over the grid: the query window and the output window sit at block `(0, t / 8, 0)`, the key
    and value windows at block `(0, t % 8, 0)`. -/
theorem idx_facts1 : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 3) = 0 ∧ win1_2.index t (1 : Fin 3) = t.val % 8 ∧ win1_2.index t (2 : Fin 3) = 0
    ∧ win1_3.index t (0 : Fin 3) = 0 ∧ win1_3.index t (1 : Fin 3) = t.val / 8 ∧ win1_3.index t (2 : Fin 3) = 0 :=
  (by decide +kernel : ∀ t : Fin grid1.N, _)

/-- The query block at point `t` is rows `256·(t / 8) …` of the query array. -/
theorem blkQ_apply (c : Dev nD) (t : Fin cfg1.N) (b : Fin 8) (r : Fin 256) (o : Fin 512) (s : Fin 2048)
    (hs : s.val = 256 * (t.val / 8) + r.val) :
    (iblk1 V c 0 t : Vec Ideal S8x256x512 .bf16) (ix3 b r o) = (V c main_v4 : S8x2048x512.Idx → EReal) (ix3 b s o) := by
  obtain ⟨e0, e1, e2, -⟩ := idx_facts1 t
  show (V c main_v4 : S8x2048x512.Idx → EReal) (((cfg1.win 0).blk t).view.emb (ix3 b r o)) = _
  refine congrArg _ (funext fun a => Fin.ext ?_)
  match a with
  | ⟨0, _⟩ => show win1_0.index t (0 : Fin 3) * 8 + 1 * b.val = b.val; omega
  | ⟨1, _⟩ => show win1_0.index t (1 : Fin 3) * 256 + 1 * r.val = s.val; omega
  | ⟨2, _⟩ => show win1_0.index t (2 : Fin 3) * 512 + 1 * o.val = o.val; omega

/-- The key block is rows `256·(t % 8) …` of the key array, -/
theorem blkK_apply (c : Dev nD) (t : Fin cfg1.N) (b : Fin 8) (j : Fin 256) (o : Fin 512) (s : Fin 2048)
    (hs : s.val = 256 * (t.val % 8) + j.val) :
    (iblk1 V c 1 t : Vec Ideal S8x256x512 .bf16) (ix3 b j o) = (V c main_v5 : S8x2048x512.Idx → EReal) (ix3 b s o) := by
  obtain ⟨-, -, -, e0, e1, e2, -⟩ := idx_facts1 t
  show (V c main_v5 : S8x2048x512.Idx → EReal) (((cfg1.win 1).blk t).view.emb (ix3 b j o)) = _
  refine congrArg _ (funext fun a => Fin.ext ?_)
  match a with
  | ⟨0, _⟩ => show win1_1.index t (0 : Fin 3) * 8 + 1 * b.val = b.val; omega
  | ⟨1, _⟩ => show win1_1.index t (1 : Fin 3) * 256 + 1 * j.val = s.val; omega
  | ⟨2, _⟩ => show win1_1.index t (2 : Fin 3) * 512 + 1 * o.val = o.val; omega

/-- and the value block the same rows of the value array. -/
theorem blkV_apply (c : Dev nD) (t : Fin cfg1.N) (b : Fin 8) (j : Fin 256) (o : Fin 512) (s : Fin 2048)
    (hs : s.val = 256 * (t.val % 8) + j.val) :
    (iblk1 V c 2 t : Vec Ideal S8x256x512 .bf16) (ix3 b j o) = (V c main_v6 : S8x2048x512.Idx → EReal) (ix3 b s o) := by
  obtain ⟨-, -, -, -, -, -, e0, e1, e2, -⟩ := idx_facts1 t
  show (V c main_v6 : S8x2048x512.Idx → EReal) (((cfg1.win 2).blk t).view.emb (ix3 b j o)) = _
  refine congrArg _ (funext fun a => Fin.ext ?_)
  match a with
  | ⟨0, _⟩ => show win1_2.index t (0 : Fin 3) * 8 + 1 * b.val = b.val; omega
  | ⟨1, _⟩ => show win1_2.index t (1 : Fin 3) * 256 + 1 * j.val = s.val; omega
  | ⟨2, _⟩ => show win1_2.index t (2 : Fin 3) * 512 + 1 * o.val = o.val; omega

/-! ## One point folds one key tile into each row's carried triple -/

/-- The carried triple of query row `(b, r)` at feature `h`: running maximum, denominator, numerator. -/
def rowSt (p : PtSt Ideal) (b : Fin 8) (r : Fin 256) (h : Fin 512) : Cert.Attn.St :=
  (p.2.1 (ix3 b r (0 : Fin 1)), p.2.2.1 (ix3 b r (0 : Fin 1)), p.2.2.2 (ix3 b r h))

/-- What the body's arithmetic stores in the three carried buffers, read at a row, is the streamed step over the
    tile's scores and values from what the buffers held. -/
theorem carried_eq (x0 x1 x2 : Vec Ideal S8x256x512 .bf16) (xs0 xs1 : Vec Ideal S8x256x1 .f32) (xs2 : Vec Ideal S8x256x512 .f32)
    (b : Fin 8) (r : Fin 256) (h : Fin 512) :
    ((k1_pay2 (k1_pay8 x0 x1 xs0) (ix3 b r (0 : Fin 1)), k1_pay11 x0 x1 xs0 xs0 xs1 (ix3 b r (0 : Fin 1)),
        k1_pay1 (k1_pay9 x0 x1 xs0 xs0) (k1_pay12 x2) (k1_pay13 x0 x1 xs0) (constant (F := Ideal) S8x256x512 .f32 0x00000000#32) xs2 (ix3 b r h)) : Cert.Attn.St)
      = Cert.Attn.flashStep (R1V.sc x0 x1 b r) (fun j => x2 (ix3 b j h))
          (xs0 (ix3 b r (0 : Fin 1)), xs1 (ix3 b r (0 : Fin 1)), xs2 (ix3 b r h)) :=
  Prod.ext (R1V.newMax_apply x0 x1 x2 xs0 xs1 xs2 b r h)
    (Prod.ext (R1V.newDen_apply x0 x1 x2 xs0 xs1 xs2 b r h) (R1V.newNum_apply x0 x1 x2 xs0 xs1 xs2 b r h))

/-- The scores of a query row against all 2048 keys, and a feature's column of values. -/
abbrev scoreRow (Q K : Cert.Attn.SX.Idx → EReal) (b : Fin 8) (s : Fin 2048) : Fin 2048 → EReal :=
  fun j => ∑ o : Fin 512, Q (ix3 b s o) * K (ix3 b j o)
abbrev valCol (W : Cert.Attn.SX.Idx → EReal) (b : Fin 8) (h : Fin 512) : Fin 2048 → EReal :=
  fun j => W (ix3 b j h)

/-- The point's score tile is tile `t % 8` of the query row's scores, -/
theorem sc_eq_tile (c : Dev nD) (t : Fin cfg1.N) (b : Fin 8) (r : Fin 256) (s : Fin 2048) (hs : s.val = 256 * (t.val / 8) + r.val) :
    R1V.sc (iblk1 V c 0 t) (iblk1 V c 1 t) b r = Cert.Attn.tile (scoreRow (V c main_v4) (V c main_v5) b s) (t.val % 8) := by
  funext j
  have hj : 256 * (t.val % 8) + j.val < 2048 := by have := j.isLt; omega
  unfold R1V.sc Cert.Attn.tile
  rw [dif_pos hj]
  refine Finset.sum_congr rfl fun o _ => ?_
  rw [blkQ_apply V c t b r o s hs, blkK_apply V c t b j o ⟨_, hj⟩ rfl]

/-- and its values are tile `t % 8` of the feature's column. -/
theorem val_eq_tile (c : Dev nD) (t : Fin cfg1.N) (b : Fin 8) (h : Fin 512) :
    (fun j : Fin 256 => (iblk1 V c 2 t : Vec Ideal S8x256x512 .bf16) (ix3 b j h)) = Cert.Attn.tile (valCol (V c main_v6) b h) (t.val % 8) := by
  funext j
  have hj : 256 * (t.val % 8) + j.val < 2048 := by have := j.isLt; omega
  unfold Cert.Attn.tile
  rw [dif_pos hj]
  exact blkV_apply V c t b j h ⟨_, hj⟩ rfl

/-- At a query tile's first key tile the carried triple starts afresh: one step from `(−∞, 0, 0)`. -/
theorem step_first (c : Dev nD) (t : Fin cfg1.N) (h0 : t.val % 8 = 0) (prev : PtSt Ideal) (b : Fin 8) (r : Fin 256) (h : Fin 512)
    (s : Fin 2048) (hs : s.val = 256 * (t.val / 8) + r.val) :
    rowSt (stepAt V c t prev) b r h
      = Cert.Attn.flashStep (Cert.Attn.tile (scoreRow (V c main_v4) (V c main_v5) b s) (t.val % 8))
          (Cert.Attn.tile (valCol (V c main_v6) b h) (t.val % 8)) (⊥, 0, 0) := by
  unfold stepAt
  rw [dif_pos h0]
  rw [afterFirst_eq c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _)
      (iblk1 V c 0 t) (iblk1 V c 1 t) (iblk1 V c 2 t) _ _ prev.1]
  unfold rowSt
  dsimp only
  refine (carried_eq (iblk1 V c 0 t) (iblk1 V c 1 t) (iblk1 V c 2 t) (k1_pay4 (F := Ideal)) (k1_pay5 (F := Ideal)) (k1_pay6 (F := Ideal)) b r h).trans ?_
  rw [sc_eq_tile V c t b r s hs, val_eq_tile V c t b h, R1V.pay4_apply, R1V.pay5_apply, R1V.pay6_apply]

/-- At every later key tile it takes one step from what the point before left. -/
theorem step_next (c : Dev nD) (t : Fin cfg1.N) (h0 : t.val % 8 ≠ 0) (prev : PtSt Ideal) (b : Fin 8) (r : Fin 256) (h : Fin 512)
    (s : Fin 2048) (hs : s.val = 256 * (t.val / 8) + r.val) :
    rowSt (stepAt V c t prev) b r h
      = Cert.Attn.flashStep (Cert.Attn.tile (scoreRow (V c main_v4) (V c main_v5) b s) (t.val % 8))
          (Cert.Attn.tile (valCol (V c main_v6) b h) (t.val % 8)) (rowSt prev b r h) := by
  unfold stepAt
  rw [dif_neg h0]
  by_cases h7 : t.val % 8 = 7
  · rw [dif_pos h7]
    rw [afterLast_eq c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _)
        (iblk1 V c 0 t) (iblk1 V c 1 t) (iblk1 V c 2 t) prev.2.1 prev.2.2.1 prev.2.2.2 _ _]
    unfold rowSt
    dsimp only
    refine (carried_eq (iblk1 V c 0 t) (iblk1 V c 1 t) (iblk1 V c 2 t) prev.2.1 prev.2.2.1 prev.2.2.2 b r h).trans ?_
    rw [sc_eq_tile V c t b r s hs, val_eq_tile V c t b h]
  · rw [dif_neg h7]
    rw [afterMid_eq c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _)
        (iblk1 V c 0 t) (iblk1 V c 1 t) (iblk1 V c 2 t) prev.2.1 prev.2.2.1 prev.2.2.2 _ _ prev.1]
    unfold rowSt
    dsimp only
    refine (carried_eq (iblk1 V c 0 t) (iblk1 V c 1 t) (iblk1 V c 2 t) prev.2.1 prev.2.2.1 prev.2.2.2 b r h).trans ?_
    rw [sc_eq_tile V c t b r s hs, val_eq_tile V c t b h]

/-! ## The invariant: after point `n` a row's carried triple is the streamed state after `n % 8 + 1` tiles -/

theorem carried_inv (c : Dev nD) : ∀ (n : ℕ) (hn : n < cfg1.N) (b : Fin 8) (r : Fin 256) (h : Fin 512) (s : Fin 2048),
    s.val = 256 * (n / 8) + r.val →
    rowSt (outsAt V c n hn) b r h
      = Cert.Attn.flashSt (Cert.Attn.tile (scoreRow (V c main_v4) (V c main_v5) b s)) (Cert.Attn.tile (valCol (V c main_v6) b h)) (n % 8 + 1)
  | 0, hn, b, r, h, s, hs => by
    rw [show outsAt V c 0 hn = stepAt V c ⟨0, hn⟩ junkSt from rfl]
    exact step_first V c ⟨0, hn⟩ rfl junkSt b r h s hs
  | n + 1, hn, b, r, h, s, hs => by
    rw [outsAt_succ]
    by_cases h0 : (n + 1) % 8 = 0
    · rw [step_first V c ⟨n + 1, hn⟩ h0 _ b r h s hs]
      show _ = Cert.Attn.flashSt _ _ ((n + 1) % 8 + 1)
      rw [h0]
      rfl
    · rw [step_next V c ⟨n + 1, hn⟩ h0 _ b r h s hs, carried_inv c n (Nat.lt_of_succ_lt hn) b r h s (by omega)]
      show _ = Cert.Attn.flashSt _ _ ((n + 1) % 8 + 1)
      rw [show n % 8 + 1 = (n + 1) % 8 from by omega]
      rfl

/-! ## The last key tile writes numerator over denominator -/

/-- At a query tile's last key tile the output buffer holds, at `(b, r, h)`, the row's numerator at `h` over the row's
    denominator, both as this same point leaves them. -/
theorem out_last (c : Dev nD) (t : Fin cfg1.N) (h7 : t.val % 8 = 7) (prev : PtSt Ideal) (b : Fin 8) (r : Fin 256) (h : Fin 512) :
    (stepAt V c t prev).1 (ix3 b r h)
      = Ideal.div ((rowSt (stepAt V c t prev) b r h).2.2) ((rowSt (stepAt V c t prev) b r h).2.1) := by
  have h0 : t.val % 8 ≠ 0 := by omega
  unfold rowSt stepAt
  rw [dif_neg h0, dif_pos h7]
  rw [afterLast_eq c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _)
      (iblk1 V c 0 t) (iblk1 V c 1 t) (iblk1 V c 2 t) prev.2.1 prev.2.2.1 prev.2.2.2 _ _]
  dsimp only
  exact R1V.quot_apply b r h _ _

/-- So after the last key tile of query tile `t / 8` the output buffer holds the streamed attention rows of that tile. -/
theorem out_row (c : Dev nD) (t : Fin cfg1.N) (h7 : t.val % 8 = 7) (b : Fin 8) (r : Fin 256) (h : Fin 512)
    (s : Fin 2048) (hs : s.val = 256 * (t.val / 8) + r.val) :
    (outsAt V c t.val t.isLt).1 (ix3 b r h)
      = Cert.Attn.flashArr (V c main_v4) (V c main_v5) (V c main_v6) (ix3 b s h) := by
  have hz : t.val ≠ 0 := by omega
  have hinv := carried_inv V c t.val t.isLt b r h s hs
  rw [outsAt_pos V c t hz] at hinv ⊢
  rw [out_last V c t h7 _ b r h, hinv, h7, Cert.Attn.flashArr_apply]
  rfl

/-! ## From the output blocks to the output array -/

/-- Row `256·(t / 8) + r` of the output array is row `r` of the block point `t` writes back. -/
theorem emb_out (t : Fin cfg1.N) (b : Fin 8) (r : Fin 256) (h : Fin 512) (s : Fin 2048) (hs : s.val = 256 * (t.val / 8) + r.val) :
    ((cfg1.win 3).blk t).view.emb (ix3 b r h) = (ix3 b s h : S8x2048x512.Idx) := by
  obtain ⟨-, -, -, -, -, -, -, -, -, e0, e1, e2⟩ := idx_facts1 t
  refine funext fun a => Fin.ext ?_
  match a with
  | ⟨0, _⟩ => show win1_3.index t (0 : Fin 3) * 8 + 1 * b.val = b.val; omega
  | ⟨1, _⟩ => show win1_3.index t (1 : Fin 3) * 256 + 1 * r.val = s.val; omega
  | ⟨2, _⟩ => show win1_3.index t (2 : Fin 3) * 512 + 1 * h.val = h.val; omega

/-- A row of a query tile is a row of the array. -/
theorem qrow_lt (t : Fin cfg1.N) (r : Fin 256) : 256 * (t.val / 8) + r.val < 2048 := by
  have hN : cfg1.N = 64 := N_1
  have := t.isLt; have := r.isLt; omega

/-- A point that writes the output back writes a block of the streamed attention array. -/
theorem flushed3_eq (c : Dev nD) (t : Fin cfg1.N) (hf : (cfg1.win 3).flush t = true) :
    (dat1 (F := Ideal) V c).flushed 3 t
      = ((cfg1.win 3).blk t).view.read (Elt Ideal) (Cert.Attn.flashArr (V c main_v4) (V c main_v5) (V c main_v6)) := by
  have h7 : t.val % 8 = 7 := (flush1_3 t).mp hf
  show (cfg1.win 3).cut (grid1.coords t) ((dat1 V c).after 3 t) = _
  rw [after1_3]
  funext j
  obtain ⟨b, r, h, rfl⟩ : ∃ (b : Fin 8) (r : Fin 256) (h : Fin 512), j = ix3 b r h := ⟨j 0, j 1, j 2, eq_ix3 j⟩
  show (outsAt V c t.val t.isLt).1 (ix3 b r h)
    = Cert.Attn.flashArr (V c main_v4) (V c main_v5) (V c main_v6) (((cfg1.win 3).blk t).view.emb (ix3 b r h))
  rw [emb_out t b r h ⟨_, qrow_lt t r⟩ rfl]
  exact out_row V c t h7 b r h ⟨_, qrow_lt t r⟩ rfl

/-- An index of the output array is in point `t`'s block iff each coordinate is in the block's range on its axis. -/
theorem mem_blk3 (t : Fin cfg1.N) (i : S8x2048x512.Idx) :
    i ∈ ((cfg1.win 3).blk t).view.set ↔ ∀ a : Fin 3, win1_3.index t a * S8x256x512.size a ≤ (i a).val ∧ (i a).val < win1_3.index t a * S8x256x512.size a + S8x256x512.size a := by
  show i ∈ ((View.whole main_v7).slice (win1_3.rect t)).set ↔ _
  rw [View.set_slice_whole, Rect.mem_set_unit]
  exact Iff.rfl

/-- The point that writes row `s` back is the last key tile of query tile `s / 256`. -/
def lastOf (i : S8x2048x512.Idx) : Fin cfg1.N :=
  ⟨8 * ((i 1).val / 256) + 7, by have hN : cfg1.N = 64 := N_1; have : (i 1).val < 2048 := (i 1).isLt; omega⟩

theorem cover3 (i : S8x2048x512.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 512 := (i 2).isLt
  obtain ⟨-, -, -, -, -, -, -, -, -, e0, e1, e2⟩ := idx_facts1 (lastOf i)
  have ht : (lastOf i).val = 8 * ((i 1).val / 256) + 7 := rfl
  refine ⟨lastOf i, (flush1_3 _).mpr (by omega), ?_⟩
  rw [mem_blk3]
  intro a
  match a with
  | ⟨0, _⟩ => show win1_3.index (lastOf i) (0 : Fin 3) * 8 ≤ (i 0).val ∧ (i 0).val < win1_3.index (lastOf i) (0 : Fin 3) * 8 + 8; omega
  | ⟨1, _⟩ => show win1_3.index (lastOf i) (1 : Fin 3) * 256 ≤ (i 1).val ∧ (i 1).val < win1_3.index (lastOf i) (1 : Fin 3) * 256 + 256; omega
  | ⟨2, _⟩ => show win1_3.index (lastOf i) (2 : Fin 3) * 512 ≤ (i 2).val ∧ (i 2).val < win1_3.index (lastOf i) (2 : Fin 3) * 512 + 512; omega

/-! ## The output array after the call -/

/-- The output array ends holding the streamed attention of the query, key and value arrays as the call finds them. -/
theorem arr1_3 (c : Dev nD) : (dat1 (F := Ideal) V c).arrAt 3 cfg1.N
    = Cert.Attn.flashArr (V c main_v4) (V c main_v5) (V c main_v6) :=
  (dat1 V c).arrAt_eq_of_cover 3 (Cert.Attn.flashArr (V c main_v4) (V c main_v5) (V c main_v6)) (fun t hf => flushed3_eq V c t hf) cover3

end Cert.KernelIdeal.R1

end
-- ==== Proof.KernelIdealHost.lean ====
/-
  The kernel program's six layout changes on the host, read at an index.

  Before the first kernel the input [8, 2048, 512] is viewed as [16384, 512] (row 2048·b + s is row s of batch b) and each
  bias [512] as a one-row matrix [1, 512]; after it the three [16384, 512] results are viewed as [8, 2048, 512] again.
  A view keeps the row-major position of every element, so each element is read where its position says:
  ((b·2048 + s)·512 + h on both sides of the first and the last views, o on both sides of the bias's).
-/
import proofs.«120501_j7026566496400_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostV

open Cert.KernelIdeal Cert.KernelIdeal.Gen Idealize.ShloMosaic Idealize.ShloMosaic.TcCoe Idealize.ShloMosaic.ValueIdx

/-- Row 2048·b + s of the [16384, 512] view. -/
abbrev row (b : Fin 8) (s : Fin 2048) : Fin 16384 := ⟨2048 * b.val + s.val, by have := b.isLt; have := s.isLt; omega⟩

/-! ## The views over plain arrays -/

/-- [8, 2048, 512] viewed as [16384, 512]: entry (2048·b + s, h) is entry (b, s, h). -/
theorem rows_apply {α : Type} (x : S8x2048x512.Idx → α) (hc : S8x2048x512.ShapeCasts S16384x512)
    (b : Fin 8) (s : Fin 2048) (h : Fin 512) : shapeCast S16384x512 x hc (ix2 (row b s) h) = x (ix3 b s h) :=
  shapeCast_apply x hc _ _ (by
    rw [Shape.rowMajor_val_three, Shape.rowMajor_val_two]
    show (b.val * 2048 + s.val) * 512 + h.val = (2048 * b.val + s.val) * 512 + h.val
    rw [Nat.mul_comm b.val 2048])

/-- [16384, 512] viewed as [8, 2048, 512]: entry (b, s, h) is entry (2048·b + s, h). -/
theorem batches_apply {α : Type} (x : S16384x512.Idx → α) (hc : S16384x512.ShapeCasts S8x2048x512)
    (b : Fin 8) (s : Fin 2048) (h : Fin 512) : shapeCast S8x2048x512 x hc (ix3 b s h) = x (ix2 (row b s) h) :=
  shapeCast_apply x hc _ _ (by
    rw [Shape.rowMajor_val_three, Shape.rowMajor_val_two]
    show (2048 * b.val + s.val) * 512 + h.val = (b.val * 2048 + s.val) * 512 + h.val
    rw [Nat.mul_comm b.val 2048])

variable {F : FTy → Type} [FloatOps F]

/-! ## Before the first kernel -/

/-- The input's row view at (2048·b + s, h) is the input at (b, s, h). -/
theorem v0_apply (W : Valuation τ sig (Elt F)) (b : Fin 8) (s : Fin 2048) (h : Fin 512) :
    (StableHlo.after hostOps0 W) (Proc.devRef .tc main_v0) (ix2 (row b s) h) = W (Proc.devRef .tc main_arg0) (ix3 b s h) := by
  have e : StableHlo.after hostOps0 W (Proc.devRef .tc main_v0)
      = shapeCast S16384x512 (W (Proc.devRef .tc main_arg0)) shapeCasts_S8x2048x512_S16384x512 := by
    after_results
    rfl
  rw [e]
  exact rows_apply _ _ b s h

/-- The first bias as a one-row matrix at (0, o) is the bias at o. -/
theorem v1_apply (W : Valuation τ sig (Elt F)) (o : Fin 512) :
    (StableHlo.after hostOps0 W) (Proc.devRef .tc main_v1) (ix2 (0 : Fin 1) o) = W (Proc.devRef .tc main_arg2) (ix1 o) := by
  have e : StableHlo.after hostOps0 W (Proc.devRef .tc main_v1)
      = shapeCast S1x512 (W (Proc.devRef .tc main_arg2)) shapeCasts_S512_S1x512 := by
    after_results
    rfl
  rw [e]
  exact shapeCast_a_1a_apply _ _ 0 o

/-- The second bias as a one-row matrix at (0, o) is the bias at o. -/
theorem v2_apply (W : Valuation τ sig (Elt F)) (o : Fin 512) :
    (StableHlo.after hostOps0 W) (Proc.devRef .tc main_v2) (ix2 (0 : Fin 1) o) = W (Proc.devRef .tc main_arg4) (ix1 o) := by
  have e : StableHlo.after hostOps0 W (Proc.devRef .tc main_v2)
      = shapeCast S1x512 (W (Proc.devRef .tc main_arg4)) shapeCasts_S512_S1x512 := by
    after_results
    rfl
  rw [e]
  exact shapeCast_a_1a_apply _ _ 0 o

/-- The views write neither weight. -/
theorem arg1_eq (W : Valuation τ sig (Elt F)) :
    (StableHlo.after hostOps0 W) (Proc.devRef .tc main_arg1) = W (Proc.devRef .tc main_arg1) := by
  after_results

theorem arg3_eq (W : Valuation τ sig (Elt F)) :
    (StableHlo.after hostOps0 W) (Proc.devRef .tc main_arg3) = W (Proc.devRef .tc main_arg3) := by
  after_results

/-! ## After the first kernel -/

/-- The first result's batch view at (b, s, h) is the result at (2048·b + s, h). -/
theorem v4_apply (W : Valuation τ sig (Elt F)) (b : Fin 8) (s : Fin 2048) (h : Fin 512) :
    (StableHlo.after hostOps1 W) (Proc.devRef .tc main_v4) (ix3 b s h) = W (Proc.devRef .tc main_v3_0) (ix2 (row b s) h) := by
  have e : StableHlo.after hostOps1 W (Proc.devRef .tc main_v4)
      = shapeCast S8x2048x512 (W (Proc.devRef .tc main_v3_0)) shapeCasts_S16384x512_S8x2048x512 := by
    after_results
    rfl
  rw [e]
  exact batches_apply _ _ b s h

/-- The second result's, likewise. -/
theorem v5_apply (W : Valuation τ sig (Elt F)) (b : Fin 8) (s : Fin 2048) (h : Fin 512) :
    (StableHlo.after hostOps1 W) (Proc.devRef .tc main_v5) (ix3 b s h) = W (Proc.devRef .tc main_v3_1) (ix2 (row b s) h) := by
  have e : StableHlo.after hostOps1 W (Proc.devRef .tc main_v5)
      = shapeCast S8x2048x512 (W (Proc.devRef .tc main_v3_1)) shapeCasts_S16384x512_S8x2048x512 := by
    after_results
    rfl
  rw [e]
  exact batches_apply _ _ b s h

/-- The third result's, likewise. -/
theorem v6_apply (W : Valuation τ sig (Elt F)) (b : Fin 8) (s : Fin 2048) (h : Fin 512) :
    (StableHlo.after hostOps1 W) (Proc.devRef .tc main_v6) (ix3 b s h) = W (Proc.devRef .tc main_v3_2) (ix2 (row b s) h) := by
  have e : StableHlo.after hostOps1 W (Proc.devRef .tc main_v6)
      = shapeCast S8x2048x512 (W (Proc.devRef .tc main_v3_2)) shapeCasts_S16384x512_S8x2048x512 := by
    after_results
    rfl
  rw [e]
  exact batches_apply _ _ b s h

end Cert.KernelIdeal.HostV

end
-- ==== Proof.KernelIdealR0Value.lean ====
import proofs.«120501_j7026566496400_2_alg».proof.Proof.KernelIdealR0
import Idealize.ShloMosaic.Lib.Pipeline.Value
import Idealize.ShloMosaic.Lib.ValueIdx
import Idealize.ShloMosaic.Lib.ValueLayout
import Idealize.ShloMosaic.PureOps.Ideal.Laws

/-! # What the projection kernel's pipeline leaves in its three output arrays, over the extended reals

With exact arithmetic a change of float format is the identity and a matrix product into a zero
accumulator is the plain sum of products. So at row `r` and column `o` the first output array ends
holding `∑ₕ X[r,h]·Wq[o,h] + bq[o]`, the second the same with `Wk`, `bk`, and the third is `X` itself,
where `X`, `Wq`, `bq`, `Wk`, `bk` are the five input arrays as the call finds them. Grid point `t`
computes rows `1024·t … 1024·t + 1023` from the same rows of `X` and from the whole weight and bias
arrays, and the sixteen points' row tiles fill the `16384` rows. -/

set_option maxRecDepth 16384

noncomputable section

namespace Cert.KernelIdeal.R0

open Cert.KernelIdeal Cert.KernelIdeal.Gen
open Idealize.ShloMosaic Idealize.ShloMosaic.TcCoe Idealize.SL.Sem
open Idealize.ShloMosaic.ValueIdx
open Idealize.ShloMosaic.Pipeline (Dat)

/-! ## The body's arithmetic at an index -/

/-- The contraction pairs column `h` of the left operand's row with column `h` of the right operand's row: the
    left operand is read at (row of the result, `h`), -/
theorem lhs_row (j : S1024x512.Idx) (q : dot_S1024x512_S512x512_S1024x512_1_1_0_0_n_n.contr.Idx) :
    (dot_S1024x512_S512x512_S1024x512_1_1_0_0_n_n.lhsIdx j q 0).val = (j 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs_col (j : S1024x512.Idx) (q : dot_S1024x512_S512x512_S1024x512_1_1_0_0_n_n.contr.Idx) :
    (dot_S1024x512_S512x512_S1024x512_1_1_0_0_n_n.lhsIdx j q 1).val = (q ⟨0, by decide⟩).val :=
  dot_S1024x512_S512x512_S1024x512_1_1_0_0_n_n.lhsIdx_val_of_single rfl j q
/-- and the right operand at (column of the result, `h`): a product with the transpose. -/
theorem rhs_row (j : S1024x512.Idx) (q : dot_S1024x512_S512x512_S1024x512_1_1_0_0_n_n.contr.Idx) :
    (dot_S1024x512_S512x512_S1024x512_1_1_0_0_n_n.rhsIdx j q 0).val = (j 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs_col (j : S1024x512.Idx) (q : dot_S1024x512_S512x512_S1024x512_1_1_0_0_n_n.contr.Idx) :
    (dot_S1024x512_S512x512_S1024x512_1_1_0_0_n_n.rhsIdx j q 1).val = (q ⟨0, by decide⟩).val :=
  dot_S1024x512_S512x512_S1024x512_1_1_0_0_n_n.rhsIdx_val_of_single rfl j q

/-- The matrix product into the zero accumulator, at row `p` and column `o`: `∑ₕ a[p,h]·b[o,h]`. -/
theorem mm_apply (a : FVec Ideal S1024x512 .bf16) (b : FVec Ideal S512x512 .bf16) (p : Fin 1024) (o : Fin 512) :
    FloatOps.matmul dot_S1024x512_S512x512_S1024x512_1_1_0_0_n_n none a b (constant (F := Ideal) S1024x512 .f32 0x00000000#32) (ix2 p o)
      = ∑ h : Fin 512, a (ix2 p h) * b (ix2 o h) := by
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 p o) ((contrEquiv1 dot_S1024x512_S512x512_S1024x512_1_1_0_0_n_n 512 rfl rfl).symm k) = ix2 p k := funext fun ax => Fin.ext (by
    match ax with
    | ⟨0, _⟩ => exact lhs_row _ _
    | ⟨1, _⟩ => exact (lhs_col _ _).trans hk)
  have er : dot_S1024x512_S512x512_S1024x512_1_1_0_0_n_n.rhsIdx (ix2 p o) ((contrEquiv1 dot_S1024x512_S512x512_S1024x512_1_1_0_0_n_n 512 rfl rfl).symm k) = ix2 o k := funext fun ax => Fin.ext (by
    match ax with
    | ⟨0, _⟩ => exact rhs_row _ _
    | ⟨1, _⟩ => exact (rhs_col _ _).trans hk)
  rw [el, er]

/-- The third output's payload: the row tile itself (the narrowing is the identity on exact values). -/
theorem pay1_apply (x0 : Vec Ideal S1024x512 .f32) (j : S1024x512.Idx) : k0_pay1 (F := Ideal) x0 j = x0 j := by
  unfold k0_pay1
  show shapeCast S1024x512 x0 shapeCasts_S1024x512_S1024x512 j = x0 j
  rw [shapeCast_self]

/-- The first output's payload at row `p`, column `o`: `∑ₕ x[p,h]·W[o,h] + b[o]`. -/
theorem pay2_apply (x0 : Vec Ideal S1024x512 .f32) (x1 : Vec Ideal S512x512 .f32) (x2 : Vec Ideal S1x512 .f32) (p : Fin 1024) (o : Fin 512) :
    k0_pay2 (F := Ideal) x0 x1 x2 (ix2 p o) = (∑ h : Fin 512, x0 (ix2 p h) * x1 (ix2 o h)) + x2 (ix2 (0 : Fin 1) o) := by
  unfold k0_pay2
  show FloatOps.matmul dot_S1024x512_S512x512_S1024x512_1_1_0_0_n_n none (k0_pay1 (F := Ideal) x0) (truncf .bf16 x1 bitsLt_bf16_f32) (constant (F := Ideal) S1024x512 .f32 0x00000000#32) (ix2 p o)
      + broadcastTo S1024x512 (shapeCast S1x512 x2 shapeCasts_S1x512_S1x512) broadcasts_S1x512_S1024x512 (ix2 p o) = _
  refine (congrArg₂ (· + ·) (mm_apply _ _ p o) (broadcastTo_1b_ab_apply _ _ p o)).trans ?_
  rw [shapeCast_self]
  refine congrArg₂ (· + ·) (Finset.sum_congr rfl fun h _ => ?_) rfl
  rw [pay1_apply]
  rfl

/-- The second output's payload: the same with the second weight matrix and bias row. -/
theorem pay3_apply (x0 : Vec Ideal S1024x512 .f32) (x3 : Vec Ideal S512x512 .f32) (x4 : Vec Ideal S1x512 .f32) (p : Fin 1024) (o : Fin 512) :
    k0_pay3 (F := Ideal) x0 x3 x4 (ix2 p o) = (∑ h : Fin 512, x0 (ix2 p h) * x3 (ix2 o h)) + x4 (ix2 (0 : Fin 1) o) := by
  unfold k0_pay3
  show FloatOps.matmul dot_S1024x512_S512x512_S1024x512_1_1_0_0_n_n none (k0_pay1 (F := Ideal) x0) (truncf .bf16 x3 bitsLt_bf16_f32) (constant (F := Ideal) S1024x512 .f32 0x00000000#32) (ix2 p o)
      + broadcastTo S1024x512 (shapeCast S1x512 x4 shapeCasts_S1x512_S1x512) broadcasts_S1x512_S1024x512 (ix2 p o) = _
  refine (congrArg₂ (· + ·) (mm_apply _ _ p o) (broadcastTo_1b_ab_apply _ _ p o)).trans ?_
  rw [shapeCast_self]
  refine congrArg₂ (· + ·) (Finset.sum_congr rfl fun h _ => ?_) rfl
  rw [pay1_apply]
  rfl

/-! ## From a point's blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows (the input rows and the three outputs) are at
    block `(t, 0)` at point `t`; the weight and bias windows stay at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The input rows' block at point `t` is rows `1024·t …` of the input array. -/
theorem blk0_apply (c : Dev nD) (t : Fin cfg0.N) (p : Fin 1024) (h : Fin 512) (r : Fin 16384) (hr : r.val = t.val * 1024 + p.val) :
    (iblk0 V c 0 t : Vec Ideal S1024x512 .f32) (ix2 p h) = (V c main_v0 : S16384x512.Idx → EReal) (ix2 r h) := by
  obtain ⟨e0, e1, -⟩ := idx_facts t
  show (V c main_v0 : S16384x512.Idx → EReal) (((cfg0.win 0).blk t).view.emb (ix2 p h)) = _
  refine congrArg _ (funext fun a => Fin.ext ?_)
  match a with
  | ⟨0, _⟩ => show win0_0.index t (0 : Fin 2) * 1024 + 1 * p.val = r.val; omega
  | ⟨1, _⟩ => show win0_0.index t (1 : Fin 2) * 512 + 1 * h.val = h.val; omega

/-- Each weight window's block is the whole matrix at every point, -/
theorem blk1_apply (c : Dev nD) (t : Fin cfg0.N) (o : Fin 512) (h : Fin 512) :
    (iblk0 V c 1 t : Vec Ideal S512x512 .f32) (ix2 o h) = (V c main_arg1 : S512x512.Idx → EReal) (ix2 o h) := by
  obtain ⟨-, -, e0, e1, -⟩ := idx_facts t
  show (V c main_arg1 : S512x512.Idx → EReal) (((cfg0.win 1).blk t).view.emb (ix2 o h)) = _
  refine congrArg _ (funext fun a => Fin.ext ?_)
  match a with
  | ⟨0, _⟩ => show win0_1.index t (0 : Fin 2) * 512 + 1 * o.val = o.val; omega
  | ⟨1, _⟩ => show win0_1.index t (1 : Fin 2) * 512 + 1 * h.val = h.val; omega
theorem blk3_apply (c : Dev nD) (t : Fin cfg0.N) (o : Fin 512) (h : Fin 512) :
    (iblk0 V c 3 t : Vec Ideal S512x512 .f32) (ix2 o h) = (V c main_arg3 : S512x512.Idx → EReal) (ix2 o h) := by
  obtain ⟨-, -, -, -, -, -, e0, e1, -⟩ := idx_facts t
  show (V c main_arg3 : S512x512.Idx → EReal) (((cfg0.win 3).blk t).view.emb (ix2 o h)) = _
  refine congrArg _ (funext fun a => Fin.ext ?_)
  match a with
  | ⟨0, _⟩ => show win0_3.index t (0 : Fin 2) * 512 + 1 * o.val = o.val; omega
  | ⟨1, _⟩ => show win0_3.index t (1 : Fin 2) * 512 + 1 * h.val = h.val; omega
/-- and each bias window's the whole row. -/
theorem blk2_apply (c : Dev nD) (t : Fin cfg0.N) (z : Fin 1) (o : Fin 512) :
    (iblk0 V c 2 t : Vec Ideal S1x512 .f32) (ix2 z o) = (V c main_v1 : S1x512.Idx → EReal) (ix2 z o) := by
  obtain ⟨-, -, -, -, e0, e1, -⟩ := idx_facts t
  show (V c main_v1 : S1x512.Idx → EReal) (((cfg0.win 2).blk t).view.emb (ix2 z o)) = _
  refine congrArg _ (funext fun a => Fin.ext ?_)
  match a with
  | ⟨0, _⟩ => show win0_2.index t (0 : Fin 2) * 1 + 1 * z.val = z.val; omega
  | ⟨1, _⟩ => show win0_2.index t (1 : Fin 2) * 512 + 1 * o.val = o.val; omega
theorem blk4_apply (c : Dev nD) (t : Fin cfg0.N) (z : Fin 1) (o : Fin 512) :
    (iblk0 V c 4 t : Vec Ideal S1x512 .f32) (ix2 z o) = (V c main_v2 : S1x512.Idx → EReal) (ix2 z o) := by
  obtain ⟨-, -, -, -, -, -, -, -, e0, e1, -⟩ := idx_facts t
  show (V c main_v2 : S1x512.Idx → EReal) (((cfg0.win 4).blk t).view.emb (ix2 z o)) = _
  refine congrArg _ (funext fun a => Fin.ext ?_)
  match a with
  | ⟨0, _⟩ => show win0_4.index t (0 : Fin 2) * 1 + 1 * z.val = z.val; omega
  | ⟨1, _⟩ => show win0_4.index t (1 : Fin 2) * 512 + 1 * o.val = o.val; omega

/-! ## What a point writes back is a block of one whole-array function -/

/-- `X·Wᵀ + b` for the input array `X`, a weight matrix `W` and a bias row `b`, index by index. -/
abbrev projOf (X : S16384x512.Idx → EReal) (W : S512x512.Idx → EReal) (b : S1x512.Idx → EReal) : S16384x512.Idx → EReal :=
  fun i => (∑ h : Fin 512, X (ix2 (i 0) h) * W (ix2 (i 1) h)) + b (ix2 (0 : Fin 1) (i 1))

/-- Row `1024·t + p` of an output array is row `p` of the block point `t` writes back (windows 5, 6, 7 alike). -/
theorem emb5 (t : Fin cfg0.N) (p : Fin 1024) (o : Fin 512) (r : Fin 16384) (hr : r.val = t.val * 1024 + p.val) :
    ((cfg0.win 5).blk t).view.emb (ix2 p o) = (ix2 r o : S16384x512.Idx) := by
  obtain ⟨-, -, -, -, -, -, -, -, -, -, e0, e1, -⟩ := idx_facts t
  refine funext fun a => Fin.ext ?_
  match a with
  | ⟨0, _⟩ => show win0_5.index t (0 : Fin 2) * 1024 + 1 * p.val = r.val; omega
  | ⟨1, _⟩ => show win0_5.index t (1 : Fin 2) * 512 + 1 * o.val = o.val; omega
theorem emb6 (t : Fin cfg0.N) (p : Fin 1024) (o : Fin 512) (r : Fin 16384) (hr : r.val = t.val * 1024 + p.val) :
    ((cfg0.win 6).blk t).view.emb (ix2 p o) = (ix2 r o : S16384x512.Idx) := by
  obtain ⟨-, -, -, -, -, -, -, -, -, -, -, -, e0, e1, -⟩ := idx_facts t
  refine funext fun a => Fin.ext ?_
  match a with
  | ⟨0, _⟩ => show win0_6.index t (0 : Fin 2) * 1024 + 1 * p.val = r.val; omega
  | ⟨1, _⟩ => show win0_6.index t (1 : Fin 2) * 512 + 1 * o.val = o.val; omega
theorem emb7 (t : Fin cfg0.N) (p : Fin 1024) (o : Fin 512) (r : Fin 16384) (hr : r.val = t.val * 1024 + p.val) :
    ((cfg0.win 7).blk t).view.emb (ix2 p o) = (ix2 r o : S16384x512.Idx) := by
  obtain ⟨-, -, -, -, -, -, -, -, -, -, -, -, -, -, e0, e1⟩ := idx_facts t
  refine funext fun a => Fin.ext ?_
  match a with
  | ⟨0, _⟩ => show win0_7.index t (0 : Fin 2) * 1024 + 1 * p.val = r.val; omega
  | ⟨1, _⟩ => show win0_7.index t (1 : Fin 2) * 512 + 1 * o.val = o.val; omega

/-- A row of a tile is a row of the array. -/
theorem row_lt (t : Fin cfg0.N) (p : Fin 1024) : t.val * 1024 + p.val < 16384 := by
  have hN : cfg0.N = 16 := N_0
  have := t.isLt; have := p.isLt; omega

/-- Point `t` writes back, into the first output, block `t` of `X·Wqᵀ + bq`. -/
theorem flushed5_eq (c : Dev nD) (t : Fin cfg0.N) :
    (dat0 (F := Ideal) V c).flushed 5 t
      = ((cfg0.win 5).blk t).view.read (Elt Ideal) (projOf (V c main_v0) (V c main_arg1) (V c main_v1)) := by
  show (cfg0.win 5).cut (grid0.coords t) ((dat0 V c).after 5 t) = _
  rw [after0_5]
  unfold out0_5
  rw [View.canon_unit_zero hz]
  simp only [View.ld_unit_zero (S := S1024x512) hz, View.ld_unit_zero (S := S512x512) hz, View.ld_unit_zero (S := S1x512) hz]
  funext j
  obtain ⟨p, o, rfl⟩ : ∃ (p : Fin 1024) (o : Fin 512), j = ix2 p o := ⟨j 0, j 1, eq_ix2 j⟩
  show k0_pay2 (F := Ideal) (iblk0 V c 0 t) (iblk0 V c 1 t) (iblk0 V c 2 t) (ix2 p o)
    = projOf (V c main_v0) (V c main_arg1) (V c main_v1) (((cfg0.win 5).blk t).view.emb (ix2 p o))
  rw [emb5 t p o ⟨_, row_lt t p⟩ rfl]
  refine (pay2_apply (iblk0 V c 0 t) (iblk0 V c 1 t) (iblk0 V c 2 t) p o).trans ?_
  refine congrArg₂ (· + ·) (Finset.sum_congr rfl fun h _ => ?_) (blk2_apply V c t 0 o)
  rw [blk0_apply V c t p h ⟨_, row_lt t p⟩ rfl, blk1_apply V c t o h]

/-- Into the second output, block `t` of `X·Wkᵀ + bk`. -/
theorem flushed6_eq (c : Dev nD) (t : Fin cfg0.N) :
    (dat0 (F := Ideal) V c).flushed 6 t
      = ((cfg0.win 6).blk t).view.read (Elt Ideal) (projOf (V c main_v0) (V c main_arg3) (V c main_v2)) := by
  show (cfg0.win 6).cut (grid0.coords t) ((dat0 V c).after 6 t) = _
  rw [after0_6]
  unfold out0_6
  rw [View.canon_unit_zero hz]
  simp only [View.ld_unit_zero (S := S1024x512) hz, View.ld_unit_zero (S := S512x512) hz, View.ld_unit_zero (S := S1x512) hz]
  funext j
  obtain ⟨p, o, rfl⟩ : ∃ (p : Fin 1024) (o : Fin 512), j = ix2 p o := ⟨j 0, j 1, eq_ix2 j⟩
  show k0_pay3 (F := Ideal) (iblk0 V c 0 t) (iblk0 V c 3 t) (iblk0 V c 4 t) (ix2 p o)
    = projOf (V c main_v0) (V c main_arg3) (V c main_v2) (((cfg0.win 6).blk t).view.emb (ix2 p o))
  rw [emb6 t p o ⟨_, row_lt t p⟩ rfl]
  refine (pay3_apply (iblk0 V c 0 t) (iblk0 V c 3 t) (iblk0 V c 4 t) p o).trans ?_
  refine congrArg₂ (· + ·) (Finset.sum_congr rfl fun h _ => ?_) (blk4_apply V c t 0 o)
  rw [blk0_apply V c t p h ⟨_, row_lt t p⟩ rfl, blk3_apply V c t o h]

/-- Into the third output, block `t` of `X`. -/
theorem flushed7_eq (c : Dev nD) (t : Fin cfg0.N) :
    (dat0 (F := Ideal) V c).flushed 7 t
      = ((cfg0.win 7).blk t).view.read (Elt Ideal) (V c main_v0 : S16384x512.Idx → EReal) := by
  show (cfg0.win 7).cut (grid0.coords t) ((dat0 V c).after 7 t) = _
  rw [after0_7]
  unfold out0_7
  rw [View.canon_unit_zero hz]
  simp only [View.ld_unit_zero (S := S1024x512) hz]
  funext j
  obtain ⟨p, o, rfl⟩ : ∃ (p : Fin 1024) (o : Fin 512), j = ix2 p o := ⟨j 0, j 1, eq_ix2 j⟩
  show k0_pay1 (F := Ideal) (iblk0 V c 0 t) (ix2 p o)
    = (V c main_v0 : S16384x512.Idx → EReal) (((cfg0.win 7).blk t).view.emb (ix2 p o))
  rw [emb7 t p o ⟨_, row_lt t p⟩ rfl]
  refine (pay1_apply (iblk0 V c 0 t) (ix2 p o)).trans ?_
  exact blk0_apply V c t p o ⟨_, row_lt t p⟩ rfl

/-! ## The sixteen row tiles fill the rows -/

/-- An index of an output array is in point `t`'s block iff each coordinate is in the block's range on its axis. -/
theorem mem_blk5 (t : Fin cfg0.N) (i : S16384x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v3_0).slice (win0_5.rect t)).set ↔ _
  rw [View.set_slice_whole, Rect.mem_set_unit]
  exact Iff.rfl
theorem mem_blk6 (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v3_1).slice (win0_6.rect t)).set ↔ _
  rw [View.set_slice_whole, Rect.mem_set_unit]
  exact Iff.rfl
theorem mem_blk7 (t : Fin cfg0.N) (i : S16384x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v3_2).slice (win0_7.rect t)).set ↔ _
  rw [View.set_slice_whole, Rect.mem_set_unit]
  exact Iff.rfl

/-- The point whose tile holds row `r` is `r / 1024`. -/
def tileOf (i : S16384x512.Idx) : Fin cfg0.N :=
  ⟨(i 0).val / 1024, by have hN : cfg0.N = 16 := N_0; have : (i 0).val < 16384 := idx2_lt0 i; omega⟩

theorem cover5 (i : S16384x512.Idx) : ∃ t : Fin cfg0.N, (cfg0.win 5).flush t = true ∧ i ∈ ((cfg0.win 5).blk t).view.set := by
  have hi0 : (i 0).val < 16384 := idx2_lt0 i
  have hi1 : (i 1).val < 512 := idx2_lt1 i
  obtain ⟨-, -, -, -, -, -, -, -, -, -, e0, e1, -⟩ := idx_facts (tileOf i)
  have ht : (tileOf i).val = (i 0).val / 1024 := rfl
  refine ⟨tileOf i, flush0_5 _, ?_⟩
  rw [mem_blk5]
  intro a
  match a with
  | ⟨0, _⟩ => show win0_5.index (tileOf i) (0 : Fin 2) * 1024 ≤ (i 0).val ∧ (i 0).val < win0_5.index (tileOf i) (0 : Fin 2) * 1024 + 1024; omega
  | ⟨1, _⟩ => show win0_5.index (tileOf i) (1 : Fin 2) * 512 ≤ (i 1).val ∧ (i 1).val < win0_5.index (tileOf i) (1 : Fin 2) * 512 + 512; omega
theorem cover6 (i : S16384x512.Idx) : ∃ t : Fin cfg0.N, (cfg0.win 6).flush t = true ∧ i ∈ ((cfg0.win 6).blk t).view.set := by
  have hi0 : (i 0).val < 16384 := idx2_lt0 i
  have hi1 : (i 1).val < 512 := idx2_lt1 i
  obtain ⟨-, -, -, -, -, -, -, -, -, -, -, -, e0, e1, -⟩ := idx_facts (tileOf i)
  have ht : (tileOf i).val = (i 0).val / 1024 := rfl
  refine ⟨tileOf i, flush0_6 _, ?_⟩
  rw [mem_blk6]
  intro a
  match a with
  | ⟨0, _⟩ => show win0_6.index (tileOf i) (0 : Fin 2) * 1024 ≤ (i 0).val ∧ (i 0).val < win0_6.index (tileOf i) (0 : Fin 2) * 1024 + 1024; omega
  | ⟨1, _⟩ => show win0_6.index (tileOf i) (1 : Fin 2) * 512 ≤ (i 1).val ∧ (i 1).val < win0_6.index (tileOf i) (1 : Fin 2) * 512 + 512; omega
theorem cover7 (i : S16384x512.Idx) : ∃ t : Fin cfg0.N, (cfg0.win 7).flush t = true ∧ i ∈ ((cfg0.win 7).blk t).view.set := by
  have hi0 : (i 0).val < 16384 := idx2_lt0 i
  have hi1 : (i 1).val < 512 := idx2_lt1 i
  obtain ⟨-, -, -, -, -, -, -, -, -, -, -, -, -, -, e0, e1⟩ := idx_facts (tileOf i)
  have ht : (tileOf i).val = (i 0).val / 1024 := rfl
  refine ⟨tileOf i, flush0_7 _, ?_⟩
  rw [mem_blk7]
  intro a
  match a with
  | ⟨0, _⟩ => show win0_7.index (tileOf i) (0 : Fin 2) * 1024 ≤ (i 0).val ∧ (i 0).val < win0_7.index (tileOf i) (0 : Fin 2) * 1024 + 1024; omega
  | ⟨1, _⟩ => show win0_7.index (tileOf i) (1 : Fin 2) * 512 ≤ (i 1).val ∧ (i 1).val < win0_7.index (tileOf i) (1 : Fin 2) * 512 + 512; omega

/-! ## The three output arrays after the call -/

/-- `projOf` at row `r`, column `o`. -/
theorem projOf_apply (X : S16384x512.Idx → EReal) (W : S512x512.Idx → EReal) (b : S1x512.Idx → EReal) (r : Fin 16384) (o : Fin 512) :
    projOf X W b (ix2 r o) = (∑ h : Fin 512, X (ix2 r h) * W (ix2 o h)) + b (ix2 (0 : Fin 1) o) := rfl

/-- The first output array ends holding `X·Wqᵀ + bq`: at row `r`, column `o`, `∑ₕ X[r,h]·Wq[o,h] + bq[o]`. -/
theorem arr0_5 (c : Dev nD) : (dat0 (F := Ideal) V c).arrAt 5 cfg0.N
    = projOf (V c main_v0) (V c main_arg1) (V c main_v1) :=
  (dat0 V c).arrAt_eq_of_cover 5 (projOf (V c main_v0) (V c main_arg1) (V c main_v1)) (fun t _ => flushed5_eq V c t) cover5

/-- The second ends holding `X·Wkᵀ + bk`. -/
theorem arr0_6 (c : Dev nD) : (dat0 (F := Ideal) V c).arrAt 6 cfg0.N
    = projOf (V c main_v0) (V c main_arg3) (V c main_v2) :=
  (dat0 V c).arrAt_eq_of_cover 6 (projOf (V c main_v0) (V c main_arg3) (V c main_v2)) (fun t _ => flushed6_eq V c t) cover6

/-- The third ends holding `X`. -/
theorem arr0_7 (c : Dev nD) : (dat0 (F := Ideal) V c).arrAt 7 cfg0.N = (V c main_v0 : S16384x512.Idx → EReal) :=
  (dat0 V c).arrAt_eq_of_cover 7 (V c main_v0 : S16384x512.Idx → EReal) (fun t _ => flushed7_eq V c t) cover7

end Cert.KernelIdeal.R0

end
-- ==== Proof.Finite.lean ====
/-
  Finiteness: when the precondition's predicate is all ones, every entry of every argument array is a real number.

  The predicate is the conjunction, over the five arguments, of "every entry's absolute value is below +∞". An extended
  real whose absolute value max x (−x) is below +∞ is neither +∞ nor −∞, so it is the image of a real.
-/
import proofs.«120501_j7026566496400_2_alg».proof.Defs
import proofs.«120501_j7026566496400_2_alg».proof.Proof.Gen.KernelIdeal
import proofs.«120501_j7026566496400_2_alg».proof.Proof.Gen.Pre_finite_inputs
import proofs.«120501_j7026566496400_2_alg».proof.Proof.Spec
import Idealize.ShloMosaic.Lib.ReduceAll
import Idealize.ShloMosaic.Lib.ValueIdx
import Idealize.ShloMosaic.PureOps.Ideal.Laws

noncomputable section

namespace Cert.Attn.Finite

open Idealize.ShloMosaic Idealize.ShloMosaic.TcCoe Idealize.SL.Sem Idealize.ShloMosaic.ValueIdx

/-- The word 0x7F800000 is +∞. -/
theorem ofBits_posInf : Ideal.ofBits .f32 0x7F800000#32 = (⊤ : EReal) := by
  simp [Ideal.ofBits, Ideal.ieee]

/-- An extended real whose absolute value compares below the word of +∞ is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_posInf] at h
  induction x using EReal.rec with
  | bot => exact absurd h (by simp [Ideal.cmpf_def, Ideal.cmp, Ideal.absf_def])
  | top => exact absurd h (by simp [Ideal.cmpf_def, Ideal.cmp, Ideal.absf_def])
  | coe r => exact ⟨r, rfl⟩

instance : Subsingleton Cert.Pre_finite_inputs.S_.Idx := ⟨fun a b => funext fun d => d.elim0⟩

open Cert.Pre_finite_inputs in
/-- When the predicate of the five arrays is one, every entry of each array is a real: the predicate is the conjunction of
    the five "all entries have absolute value below +∞", each read back entry by entry. -/
theorem entries_real [Cert.Pre_finite_inputs.Facts] (a0 : FVec Ideal S8x2048x512 .f32) (a1 : FVec Ideal S512x512 .f32)
    (a2 : FVec Ideal S512 .f32) (a3 : FVec Ideal S512x512 .f32) (a4 : FVec Ideal S512 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  refine ⟨fun i => ?_, fun i => ?_, fun i => ?_, fun i => ?_, fun i => ?_⟩
  · exact real_of_abs_lt (a0 i) (Host.reduce_andi_all _ _ _ _ ix0 e0 i)
  · exact real_of_abs_lt (a1 i) (Host.reduce_andi_all _ _ _ _ ix0 e1 i)
  · exact real_of_abs_lt (a2 i) (Host.reduce_andi_all _ _ _ _ ix0 e2 i)
  · exact real_of_abs_lt (a3 i) (Host.reduce_andi_all _ _ _ _ ix0 e3 i)
  · exact real_of_abs_lt (a4 i) (Host.reduce_andi_all _ _ _ _ ix0 e4 i)

/-- Under the kernel program's precondition, on every device, every entry of each of its five argument arrays is a real. -/
theorem finite_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : Cert.Attn.SX.Idx, ∃ r : ℝ, m ((c.tc : Thread Cert.KernelIdeal.nD Cert.KernelIdeal.τ).loc Cert.KernelIdeal.main_arg0) i = (r : EReal))
      ∧ (∀ i : Cert.Attn.SW.Idx, ∃ r : ℝ, m ((c.tc : Thread Cert.KernelIdeal.nD Cert.KernelIdeal.τ).loc Cert.KernelIdeal.main_arg1) i = (r : EReal))
      ∧ (∀ i : Cert.Attn.SB.Idx, ∃ r : ℝ, m ((c.tc : Thread Cert.KernelIdeal.nD Cert.KernelIdeal.τ).loc Cert.KernelIdeal.main_arg2) i = (r : EReal))
      ∧ (∀ i : Cert.Attn.SW.Idx, ∃ r : ℝ, m ((c.tc : Thread Cert.KernelIdeal.nD Cert.KernelIdeal.τ).loc Cert.KernelIdeal.main_arg3) i = (r : EReal))
      ∧ (∀ i : Cert.Attn.SB.Idx, ∃ r : ℝ, m ((c.tc : Thread Cert.KernelIdeal.nD Cert.KernelIdeal.τ).loc Cert.KernelIdeal.main_arg4) i = (r : EReal)) :=
  entries_real _ _ _ _ _ (hpre c)

end Cert.Attn.Finite

end
-- ==== Proof.KernelIdealBridge.lean ====
/-
  The bridge: under the precondition the kernel program's result array is the specification's attention of the launch
  arguments.

  The result is the streamed attention of three arrays: the two projections the first kernel leaves, and the input it
  copies, each seen through the views between the kernels. Entry by entry the first is q = x·Wqᵀ + bq, the second
  k = x·Wkᵀ + bk, the third x; so the streamed row's scores are the specification's scores, and for real inputs the streamed
  row is the softmax row.
-/
import proofs.«120501_j7026566496400_2_alg».proof.Proof.KernelIdealHost
import proofs.«120501_j7026566496400_2_alg».proof.Proof.KernelIdealR0Value
import proofs.«120501_j7026566496400_2_alg».proof.Proof.KernelIdealRun
import proofs.«120501_j7026566496400_2_alg».proof.Proof.FlashArr
import proofs.«120501_j7026566496400_2_alg».proof.Proof.FlashMath
import proofs.«120501_j7026566496400_2_alg».proof.Proof.Finite

noncomputable section

namespace Cert.KernelIdeal.Bridge

open Cert.KernelIdeal Cert.KernelIdeal.Gen Cert.KernelIdeal.HostV
open Idealize.ShloMosaic Idealize.ShloMosaic.TcCoe Idealize.SL.Sem Idealize.ShloMosaic.ValueIdx

/-! ## The first kernel's three arrays, from the contents at launch -/

/-- The contents the first kernel is entered with, from contents `U` at launch: `U` after the first three views. -/
abbrev entry0 (U : Dev nD → Valuation τ sig (Elt Ideal)) :
    (c : Dev nD) → (b : Ref sig .tc) → Buf (Elt Ideal) ((c : Thread nD τ).loc b) :=
  fun c b => StableHlo.after hostOps0 (U c) b

variable (U : Dev nD → Valuation τ sig (Elt Ideal))

/-- The first array the first kernel leaves, at row 2048·b + s and column o, is the first projection at (b, s, o). -/
theorem q_at (c : Dev nD) (b : Fin 8) (s : Fin 2048) (o : Fin 512) :
    (R0.dat0 (F := Ideal) (entry0 U) c).arrAt 5 cfg0.N (ix2 (row b s) o)
      = Cert.Attn.proj (U c (Proc.devRef .tc main_arg0)) (U c (Proc.devRef .tc main_arg1)) (U c (Proc.devRef .tc main_arg2)) b s o := by
  rw [R0.arr0_5, R0.projOf_apply]
  unfold Cert.Attn.proj
  exact congrArg₂ (· + ·)
    (Finset.sum_congr rfl fun h _ => congrArg₂ (· * ·) (v0_apply (U c) b s h) (congrFun (arg1_eq (U c)) (ix2 o h)))
    (v1_apply (U c) o)

/-- The second array, likewise, is the second projection. -/
theorem k_at (c : Dev nD) (b : Fin 8) (s : Fin 2048) (o : Fin 512) :
    (R0.dat0 (F := Ideal) (entry0 U) c).arrAt 6 cfg0.N (ix2 (row b s) o)
      = Cert.Attn.proj (U c (Proc.devRef .tc main_arg0)) (U c (Proc.devRef .tc main_arg3)) (U c (Proc.devRef .tc main_arg4)) b s o := by
  rw [R0.arr0_6, R0.projOf_apply]
  unfold Cert.Attn.proj
  exact congrArg₂ (· + ·)
    (Finset.sum_congr rfl fun h _ => congrArg₂ (· * ·) (v0_apply (U c) b s h) (congrFun (arg3_eq (U c)) (ix2 o h)))
    (v2_apply (U c) o)

/-- The third array at row 2048·b + s and column h is the input at (b, s, h). -/
theorem x_at (c : Dev nD) (b : Fin 8) (s : Fin 2048) (h : Fin 512) :
    (R0.dat0 (F := Ideal) (entry0 U) c).arrAt 7 cfg0.N (ix2 (row b s) h) = U c (Proc.devRef .tc main_arg0) (ix3 b s h) := by
  rw [R0.arr0_7]
  exact v0_apply (U c) b s h

/-! ## The second kernel's three arrays, from the launch memory -/

section FromLaunch

variable (m : (ℓ : Loc nD τ sig) → Buf (Elt Ideal) ℓ) (ρ : Dev nD → PrngReg)

/-- The query array the second kernel is entered with is the first projection of the launch arguments. -/
theorem v4_at (c : Dev nD) (b : Fin 8) (s : Fin 2048) (o : Fin 512) :
    Run.V3 m ρ c main_v4 (ix3 b s o)
      = Cert.Attn.proj (m ((c.tc : Thread nD τ).loc main_arg0)) (m ((c.tc : Thread nD τ).loc main_arg1))
          (m ((c.tc : Thread nD τ).loc main_arg2)) b s o := by
  refine (v4_apply (Run.W2 m ρ c) b s o).trans ?_
  refine (congrFun (Run.W2_arr m ρ c 5) (ix2 (row b s) o)).trans ?_
  exact q_at (Run.W0 m ρ) c b s o

/-- The key array is the second projection. -/
theorem v5_at (c : Dev nD) (b : Fin 8) (s : Fin 2048) (o : Fin 512) :
    Run.V3 m ρ c main_v5 (ix3 b s o)
      = Cert.Attn.proj (m ((c.tc : Thread nD τ).loc main_arg0)) (m ((c.tc : Thread nD τ).loc main_arg3))
          (m ((c.tc : Thread nD τ).loc main_arg4)) b s o := by
  refine (v5_apply (Run.W2 m ρ c) b s o).trans ?_
  refine (congrFun (Run.W2_arr m ρ c 6) (ix2 (row b s) o)).trans ?_
  exact k_at (Run.W0 m ρ) c b s o

/-- The value array is the input. -/
theorem v6_at (c : Dev nD) (b : Fin 8) (s : Fin 2048) (h : Fin 512) :
    Run.V3 m ρ c main_v6 (ix3 b s h) = m ((c.tc : Thread nD τ).loc main_arg0) (ix3 b s h) := by
  refine (v6_apply (Run.W2 m ρ c) b s h).trans ?_
  refine (congrFun (Run.W2_arr m ρ c 7) (ix2 (row b s) h)).trans ?_
  exact x_at (Run.W0 m ρ) c b s h

end FromLaunch

/-! ## The result -/

/-- The streamed attention of three arrays that are, entry by entry, two given families q, k and a given array x is the
    streamed row of the scores of q against k and of the values x. -/
theorem flashArr_of_entries (Q K Wv x : Cert.Attn.SX.Idx → EReal) (q k : Fin 8 → Fin 2048 → Fin 512 → EReal)
    (hQ : ∀ b s o, Q (ix3 b s o) = q b s o) (hK : ∀ b s o, K (ix3 b s o) = k b s o)
    (hW : ∀ b s h, Wv (ix3 b s h) = x (ix3 b s h)) (b : Fin 8) (s : Fin 2048) (h : Fin 512) :
    Cert.Attn.flashArr Q K Wv (ix3 b s h)
      = Cert.Attn.flashRow (Cert.Attn.tile fun j => Cert.Attn.score q k b s j) (Cert.Attn.tile fun j => x (ix3 b j h)) := by
  rw [Cert.Attn.flashArr_apply]
  have hs : (fun j : Fin 2048 => ∑ o : Fin 512, Q (ix3 b s o) * K (ix3 b j o)) = fun j => Cert.Attn.score q k b s j := by
    funext j
    unfold Cert.Attn.score
    exact Finset.sum_congr rfl fun o _ => congrArg₂ (· * ·) (hQ b s o) (hK b j o)
  have hv : (fun j : Fin 2048 => Wv (ix3 b j h)) = fun j => x (ix3 b j h) := funext fun j => hW b j h
  rw [hs, hv]

/-- Under the precondition the second kernel's output array, once it is the streamed attention of the three arrays it is
    entered with, is the specification's attention of the launch arguments. -/
theorem kernel_value [Cert.Pre_finite_inputs.Facts]
    (harr : ∀ (V : (c : Dev nD) → (b : Ref sig .tc) → Buf (Elt Ideal) ((c : Thread nD τ).loc b)) (c : Dev nD),
      (R1.dat1 (F := Ideal) V c).arrAt 3 cfg1.N = Cert.Attn.flashArr (V c main_v4) (V c main_v5) (V c main_v6))
    (m : (ℓ : Loc nD τ sig) → Buf (Elt Ideal) ℓ) (ρ : Dev nD → PrngReg)
    (hpre : Cert.Pre_KernelIdeal m) (c : Dev nD) :
    (R1.dat1 (F := Ideal) (Run.V3 m ρ) c).arrAt 3 cfg1.N
      = Cert.Attn.attnArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [harr]
  funext i
  obtain ⟨b, s, h, rfl⟩ : ∃ (b : Fin 8) (s : Fin 2048) (h : Fin 512), i = ix3 b s h := ⟨i 0, i 1, i 2, eq_ix3 i⟩
  obtain ⟨h0, h1, h2, h3, h4⟩ := Cert.Attn.Finite.finite_of_pre m hpre c
  refine (flashArr_of_entries _ _ _ (m ((c.tc : Thread nD τ).loc main_arg0))
    (Cert.Attn.proj (m ((c.tc : Thread nD τ).loc main_arg0)) (m ((c.tc : Thread nD τ).loc main_arg1)) (m ((c.tc : Thread nD τ).loc main_arg2)))
    (Cert.Attn.proj (m ((c.tc : Thread nD τ).loc main_arg0)) (m ((c.tc : Thread nD τ).loc main_arg3)) (m ((c.tc : Thread nD τ).loc main_arg4)))
    (v4_at m ρ c) (v5_at m ρ c) (v6_at m ρ c) b s h).trans ?_
  exact (Cert.Attn.attn_eq_flash _ _ _ _ _ h0 h1 h2 h3 h4 b s h).symm

end Cert.KernelIdeal.Bridge

end
-- ==== Proof.RefValue.lean ====
/-
  The reference program read index by index is the specification's attention.

  The reference is two linear projections q = x·Wqᵀ + bq and k = x·Wkᵀ + bk, the scores q·kᵀ per batch, the softmax of each
  score row in its maximum-subtracted form (the row's maximum, joined with −∞, subtracted; the exponentials; their sum; the
  quotient), and the weighted sum of the rows of x. Each operation's element is read from its operands' elements; the only
  work is to see that every composed index function is the coordinate triple (or pair) the specification names, that the
  sum over a row starts from the zero word, and that the maximum over a row starts from the word of −∞.
-/
import proofs.«120501_j7026566496400_2_alg».proof.Proof.Gen.ReferenceIdeal.Read
import proofs.«120501_j7026566496400_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The word 0xFF800000 is −∞. -/
theorem ofBits_negInf : Ideal.ofBits .f32 0xFF800000#32 = (⊥ : EReal) := by
  simp [Ideal.ofBits, Ideal.ieee]

/-- A score index (b, i) with the key coordinate k put back on the reduced axis is (b, i, k). -/
theorem lift_ix2 (h : S8x2048x2048.Reduces [2] S8x2048) (b : Fin 8) (i : Fin 2048) (k : Fin (S8x2048x2048.size 2)) :
    h.lift (ix2 b i) k = ix3 b i (⟨k.val, k.isLt⟩ : Fin 2048) := by
  funext c; apply Fin.ext
  fin_cases c <;> rfl

/-- The maximum over the key axis from the word of −∞, at (b, i), is the row's maximum from −∞. -/
theorem rowMax_apply (y : (⟨S8x2048x2048, .f32⟩ : BufTy).Contents (Elt Ideal)) (b : Fin 8) (i : Fin 2048) :
    Host.reduce (FloatOps.maximumf (F := Ideal) (φ := .f32)) y (val_main_cst (F := Ideal)) reducesTo_S8x2048x2048_S8x2048_d2 h_S_ (ix2 b i)
      = Cert.Attn.rowMax (fun j : Fin 2048 => y (ix3 b i j)) := by
  have h : S8x2048x2048.Reduces [2] S8x2048 := by decide
  refine (Host.reduce_eq_fold_single (FloatOps.maximumf (F := Ideal) (φ := .f32)) y (val_main_cst (F := Ideal))
    reducesTo_S8x2048x2048_S8x2048_d2 h h_S_ (ix2 b i)).trans ?_
  rw [val_main_cst_apply, Ideal.ofBits_def, ofBits_negInf]
  unfold Cert.Attn.rowMax
  have hf : (y ∘ h.lift (ix2 b i)) = fun j : Fin 2048 => y (ix3 b i j) := funext fun k => congrArg y (lift_ix2 h b i k)
  exact congrArg (fun f => Finset.fold max (⊥ : EReal) f (Finset.univ : Finset (Fin 2048))) hf

variable (x0 : (⟨S8x2048x512, .f32⟩ : BufTy).Contents (Elt Ideal)) (x1 : (⟨S512x512, .f32⟩ : BufTy).Contents (Elt Ideal))
  (x2 : (⟨S512, .f32⟩ : BufTy).Contents (Elt Ideal)) (x3 : (⟨S512x512, .f32⟩ : BufTy).Contents (Elt Ideal))
  (x4 : (⟨S512, .f32⟩ : BufTy).Contents (Elt Ideal))

/-- The first projection at (b, s, o): row (b, s) of x against row o of the weight, plus the bias at o. -/
theorem q_apply (b : Fin 8) (s : Fin 2048) (o : Fin 512) :
    val_main_v3 (F := Ideal) x0 x1 x2 (ix3 b s o) = Cert.Attn.proj x0 x1 x2 b s o := by
  rw [val_main_v3_apply, val_main_v0_apply, val_main_v2_apply, val_main_v1_apply, Ideal.addf_def]
  unfold Cert.Attn.proj
  have el : ∀ h : Fin 512, lidx_main_v0 (ix3 b s o) h = ix3 b s h := fun h => funext fun a => Fin.ext (by
    match a with | ⟨0, _⟩ => rfl | ⟨1, _⟩ => rfl | ⟨2, _⟩ => rfl)
  have er : ∀ h : Fin 512, ridx_main_v0 (ix3 b s o) h = ix2 o h := fun h => funext fun a => Fin.ext (by
    match a with | ⟨0, _⟩ => rfl | ⟨1, _⟩ => rfl)
  have eb : idx_main_v1 (idx_main_v2 (ix3 b s o)) = ix1 o := funext fun a => Fin.ext (by
    match a with | ⟨0, _⟩ => rfl)
  rw [eb]
  refine congrArg (· + x2 (ix1 o)) (Finset.sum_congr rfl fun h _ => ?_)
  rw [el, er]

/-- The second projection at (b, s, o), likewise. -/
theorem k_apply (b : Fin 8) (s : Fin 2048) (o : Fin 512) :
    val_main_v7 (F := Ideal) x0 x3 x4 (ix3 b s o) = Cert.Attn.proj x0 x3 x4 b s o := by
  rw [val_main_v7_apply, val_main_v4_apply, val_main_v6_apply, val_main_v5_apply, Ideal.addf_def]
  unfold Cert.Attn.proj
  have el : ∀ h : Fin 512, lidx_main_v4 (ix3 b s o) h = ix3 b s h := fun h => funext fun a => Fin.ext (by
    match a with | ⟨0, _⟩ => rfl | ⟨1, _⟩ => rfl | ⟨2, _⟩ => rfl)
  have er : ∀ h : Fin 512, ridx_main_v4 (ix3 b s o) h = ix2 o h := fun h => funext fun a => Fin.ext (by
    match a with | ⟨0, _⟩ => rfl | ⟨1, _⟩ => rfl)
  have eb : idx_main_v5 (idx_main_v6 (ix3 b s o)) = ix1 o := funext fun a => Fin.ext (by
    match a with | ⟨0, _⟩ => rfl)
  rw [eb]
  refine congrArg (· + x4 (ix1 o)) (Finset.sum_congr rfl fun h _ => ?_)
  rw [el, er]

/-- The score at (b, i, j): query row i against key row j of batch b. -/
theorem score_apply (b : Fin 8) (i j : Fin 2048) :
    val_main_v8 (F := Ideal) x0 x1 x2 x3 x4 (ix3 b i j)
      = Cert.Attn.score (Cert.Attn.proj x0 x1 x2) (Cert.Attn.proj x0 x3 x4) b i j := by
  rw [val_main_v8_apply]
  unfold Cert.Attn.score
  refine Finset.sum_congr rfl fun o _ => ?_
  have el : lidx_main_v8 (ix3 b i j) o = ix3 b i o := funext fun a => Fin.ext (by
    match a with | ⟨0, _⟩ => rfl | ⟨1, _⟩ => rfl | ⟨2, _⟩ => rfl)
  have er : ridx_main_v8 (ix3 b i j) o = ix3 b j o := funext fun a => Fin.ext (by
    match a with | ⟨0, _⟩ => rfl | ⟨1, _⟩ => rfl | ⟨2, _⟩ => rfl)
  rw [el, er, q_apply, k_apply]

/-- The score row of query (b, i): its scores against every key of batch b. -/
abbrev srow (b : Fin 8) (i : Fin 2048) : Fin 2048 → EReal :=
  fun j => Cert.Attn.score (Cert.Attn.proj x0 x1 x2) (Cert.Attn.proj x0 x3 x4) b i j

/-- The subtracted maximum at (b, i): −∞ joined with the maximum of the score row. -/
theorem max_apply (b : Fin 8) (i : Fin 2048) :
    val_main_v11 (F := Ideal) x0 x1 x2 x3 x4 (ix2 b i) = max ⊥ (Cert.Attn.rowMax (srow x0 x1 x2 x3 x4 b i)) := by
  rw [val_main_v11_apply, val_main_v10_apply, val_main_cst_0_apply, Ideal.maximumf_def, Ideal.ofBits_def, ofBits_negInf]
  unfold val_main_v9
  rw [rowMax_apply]
  exact congrArg (fun f => max ⊥ (Cert.Attn.rowMax f)) (funext fun j => score_apply x0 x1 x2 x3 x4 b i j)

/-- The exponential at (b, i, j): of the score less the subtracted maximum of its row. -/
theorem exp_apply (b : Fin 8) (i j : Fin 2048) :
    val_main_v15 (F := Ideal) x0 x1 x2 x3 x4 (ix3 b i j)
      = Ideal.exp (srow x0 x1 x2 x3 x4 b i j - max ⊥ (Cert.Attn.rowMax (srow x0 x1 x2 x3 x4 b i))) := by
  rw [val_main_v15_apply, val_main_v14_apply, val_main_v13_apply, val_main_v12_apply, Ideal.hostUnary_exp_def, Ideal.subf_def]
  have e : idx_main_v12 (idx_main_v13 (ix3 b i j)) = ix2 b i := funext fun a => Fin.ext (by
    match a with | ⟨0, _⟩ => rfl | ⟨1, _⟩ => rfl)
  rw [e, max_apply, score_apply]

/-- The denominator at (b, i): the sum of the row's exponentials. -/
theorem sum_apply (b : Fin 8) (i : Fin 2048) :
    val_main_v16 (F := Ideal) x0 x1 x2 x3 x4 (ix2 b i)
      = ∑ j : Fin 2048, Ideal.exp (srow x0 x1 x2 x3 x4 b i j - max ⊥ (Cert.Attn.rowMax (srow x0 x1 x2 x3 x4 b i))) := by
  rw [val_main_v16_apply, val_main_cst_1_apply, Ideal.ofBits_def, Ideal.ofBits_zero_f32, zero_add]
  refine Finset.sum_congr rfl fun j _ => ?_
  have e : idx_main_v16 (ix2 b i) j = ix3 b i j := funext fun a => Fin.ext (by
    match a with | ⟨0, _⟩ => rfl | ⟨1, _⟩ => rfl | ⟨2, _⟩ => rfl)
  rw [e, exp_apply]

/-- The softmax weight at (b, i, j): the exponential over the row's denominator. -/
theorem weight_apply (b : Fin 8) (i j : Fin 2048) :
    val_main_v19 (F := Ideal) x0 x1 x2 x3 x4 (ix3 b i j)
      = Ideal.div (Ideal.exp (srow x0 x1 x2 x3 x4 b i j - max ⊥ (Cert.Attn.rowMax (srow x0 x1 x2 x3 x4 b i))))
          (∑ j' : Fin 2048, Ideal.exp (srow x0 x1 x2 x3 x4 b i j' - max ⊥ (Cert.Attn.rowMax (srow x0 x1 x2 x3 x4 b i)))) := by
  rw [val_main_v19_apply, val_main_v18_apply, val_main_v17_apply, Ideal.hostDivf_def]
  have e : idx_main_v17 (idx_main_v18 (ix3 b i j)) = ix2 b i := funext fun a => Fin.ext (by
    match a with | ⟨0, _⟩ => rfl | ⟨1, _⟩ => rfl)
  rw [e, exp_apply, sum_apply]

/-- The reference's result is the specification's attention, as arrays. -/
theorem ref_eq_attn :
    Cert.ReferenceIdeal.Read.val_main_v20 (F := Ideal) x0 x1 x2 x3 x4 = Cert.Attn.attnArr x0 x1 x2 x3 x4 := by
  funext i
  obtain ⟨b, s, h, rfl⟩ : ∃ (b : Fin 8) (s : Fin 2048) (h : Fin 512), i = ix3 b s h := ⟨i 0, i 1, i 2, eq_ix3 i⟩
  rw [val_main_v20_apply]
  show _ = Cert.Attn.attn x0 x1 x2 x3 x4 b s h
  unfold Cert.Attn.attn Cert.Attn.softmaxRow
  refine Finset.sum_congr rfl fun j _ => ?_
  have el : lidx_main_v20 (ix3 b s h) j = ix3 b s j := funext fun a => Fin.ext (by
    match a with | ⟨0, _⟩ => rfl | ⟨1, _⟩ => rfl | ⟨2, _⟩ => rfl)
  have er : ridx_main_v20 (ix3 b s h) j = ix3 b j h := funext fun a => Fin.ext (by
    match a with | ⟨0, _⟩ => rfl | ⟨1, _⟩ => rfl | ⟨2, _⟩ => rfl)
  rw [el, er, weight_apply]

end Cert.ReferenceIdeal.RefValue

end
-- ==== Proof.lean ====
/-
  Single-head attention without scaling, value = input: a two-kernel Pallas program (a projection kernel producing
  Q = x·Wqᵀ + bq, K = x·Wkᵀ + bk and a copy of x; then a streaming-softmax attention kernel over 8 × 8 tiles that
  carries a running maximum, denominator and numerator per query row) against jnp's softmax attention.

  At the exact instance both compute, for every batch b, query row i and feature h,
      Σ_j softmax_j(⟨q_i, k_j⟩) · x[b, j, h].
  The reference is read operation by operation (generated run and read-at-an-index lemmas) onto the specification; the
  kernel program's run is followed region by region: the projection kernel's three output arrays are the projections,
  the attention kernel's carried buffers hold, after key tile n of a query tile, the streamed state of the first n+1
  tiles, and its output block is numerator over denominator after the last tile. The streamed row equals the softmax
  row when the inputs are real numbers, which is what the precondition grants: on the reals the quotient
  Σ exp(s_j − m)·v_j / Σ exp(s_j − m) does not depend on the shift m.

  The three frames come from the same runs with the result dropped; the idealisation rewrote nothing, so the
  preservation conjunct is trivial.
-/
import proofs.«120501_j7026566496400_2_alg».proof.Defs
import proofs.«120501_j7026566496400_2_alg».proof.Proof.Gen.Kernel
import proofs.«120501_j7026566496400_2_alg».proof.Proof.Gen.KernelIdeal
import proofs.«120501_j7026566496400_2_alg».proof.Proof.Gen.ReferenceIdeal
import proofs.«120501_j7026566496400_2_alg».proof.Proof.Gen.ReferenceIdeal.Run
import proofs.«120501_j7026566496400_2_alg».proof.Proof.Gen.ReferenceIdeal.Read
import proofs.«120501_j7026566496400_2_alg».proof.Proof.Gen.Pre_finite_inputs
import proofs.«120501_j7026566496400_2_alg».proof.Proof.KernelRun
import proofs.«120501_j7026566496400_2_alg».proof.Proof.KernelIdealRun
import proofs.«120501_j7026566496400_2_alg».proof.Proof.KernelIdealR1Value
import proofs.«120501_j7026566496400_2_alg».proof.Proof.KernelIdealBridge
import proofs.«120501_j7026566496400_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments alone. -/
theorem frame_k : @Cert.frame_Kernel Cert.Kernel.Gen.facts Cert.Pre_finite_inputs.Gen.facts :=
  fun m ρ _ => Cert.Kernel.Run.frame (F := Bits) m ρ

/-- So does the idealised program. -/
theorem frame_ki : @Cert.frame_KernelIdeal Cert.KernelIdeal.Gen.facts Cert.Pre_finite_inputs.Gen.facts :=
  fun m ρ _ => Cert.KernelIdeal.Run.frame (F := Ideal) m ρ

/-- And the reference: its generated run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both idealised programs end with the attention of the arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Attn.attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Bridge.kernel_value (fun V c => Cert.KernelIdeal.R1.arr1_3 V c) m ρ hpre c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.RefValue.ref_eq_attn,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
